-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel

variable [Facts]

def fn {F : FTy → Type} [FloatOps F] (main_arg0 : FVec F S32x512x512x3 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  main_v3
-- ==== Kernel.lean ====
abbrev S32x512x512x3 : Shape := ⟨4, ![32, 512, 512, 3]⟩
abbrev S32x3x512x512 : Shape := ⟨4, ![32, 3, 512, 512]⟩
abbrev S32x256x3 : Shape := ⟨3, ![32, 256, 3]⟩
abbrev S1x3x128x512 : Shape := ⟨4, ![1, 3, 128, 512]⟩
abbrev S1x256x3 : Shape := ⟨3, ![1, 256, 3]⟩
abbrev S3x256 : Shape := ⟨2, ![3, 256]⟩
abbrev S1x1x256 : Shape := ⟨3, ![1, 1, 256]⟩
abbrev S1x256 : Shape := ⟨2, ![1, 256]⟩
abbrev S3x128x512 : Shape := ⟨3, ![3, 128, 512]⟩
abbrev S1x128x512 : Shape := ⟨3, ![1, 128, 512]⟩
abbrev S128x512 : Shape := ⟨2, ![128, 512]⟩
abbrev S8x512 : Shape := ⟨2, ![8, 512]⟩
abbrev S8x512x1 : Shape := ⟨3, ![8, 512, 1]⟩
abbrev S8x512x256 : Shape := ⟨3, ![8, 512, 256]⟩
abbrev S512x256 : Shape := ⟨2, ![512, 256]⟩
abbrev S256 : Shape := ⟨1, ![256]⟩
abbrev S3 : Shape := ⟨1, ![3]⟩
abbrev S3x1 : Shape := ⟨2, ![3, 1]⟩
abbrev S256x3 : Shape := ⟨2, ![256, 3]⟩

abbrev nBuf : Space → Nat
  | .hbm => 3
  | .vmem => 5
  | .smem => 0
  | _ => 0

abbrev bufTy : (tb : Table) → Fin (tcTables nBuf tb) → BufTy
  | .hbm, ⟨0, _⟩ => ⟨S32x512x512x3, .f32⟩
  | .hbm, ⟨1, _⟩ => ⟨S32x3x512x512, .f32⟩
  | .hbm, ⟨2, _⟩ => ⟨S32x256x3, .f32⟩
  | .local _ .vmem, ⟨0, _⟩ => ⟨S1x3x128x512, .f32⟩
  | .local _ .vmem, ⟨1, _⟩ => ⟨S1x3x128x512, .f32⟩
  | .local _ .vmem, ⟨2, _⟩ => ⟨S1x256x3, .f32⟩
  | .local _ .vmem, ⟨3, _⟩ => ⟨S1x256x3, .f32⟩
  | .local _ .vmem, ⟨4, _⟩ => ⟨S3x256, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32_3 : BitVec 32 := 0#32
  let c16_i32 : BitVec 32 := 16#32
  let v7 : BitVec 32 := Scalar.addi c0_i32_3 c16_i32
  let c1_i32_4 : BitVec 32 := 1#32
  ⟨c0_i32_3, v7, c1_i32_4⟩
def k0_mult1 (k0_t1 : Fin k0_t1_loop.trips) : BitVec 32 :=
  let c0_i32_3 : BitVec 32 := 0#32
  let c1_i32_4 : BitVec 32 := 1#32
  let arg5 : BitVec 32 := Scf.iv c0_i32_3 c1_i32_4 k0_t1
  let c8_i32 : BitVec 32 := 8#32
  let v33 : BitVec 32 := Scalar.muli arg5 c8_i32
  v33
def k0_off1 (k0_t1 : Fin k0_t1_loop.trips) : Fin 2 → Nat :=
  let c0_i32_3 : BitVec 32 := 0#32
  let c1_i32_4 : BitVec 32 := 1#32
  let arg5 : BitVec 32 := Scf.iv c0_i32_3 c1_i32_4 k0_t1
  let c8_i32 : BitVec 32 := 8#32
  let v33 : BitVec 32 := Scalar.muli arg5 c8_i32
  let v34 : BitVec 32 := v33
  let v39 : Index := Scalar.indexCast v34
  let c0_34 : Index := 0#32
  ![v39.toNat, 0]
@[reducible] def k0_t2_loop : Scf.Loop 32 :=
  let c0_i32_12 : BitVec 32 := 0#32
  let c16_i32_13 : BitVec 32 := 16#32
  let v15 : BitVec 32 := Scalar.addi c0_i32_12 c16_i32_13
  let c1_i32_14 : BitVec 32 := 1#32
  ⟨c0_i32_12, v15, c1_i32_14⟩
def k0_mult2 (k0_t2 : Fin k0_t2_loop.trips) : BitVec 32 :=
  let c0_i32_12 : BitVec 32 := 0#32
  let c1_i32_14 : BitVec 32 := 1#32
  let arg5 : BitVec 32 := Scf.iv c0_i32_12 c1_i32_14 k0_t2
  let c8_i32 : BitVec 32 := 8#32
  let v33 : BitVec 32 := Scalar.muli arg5 c8_i32
  v33
def k0_off2 (k0_t2 : Fin k0_t2_loop.trips) : Fin 2 → Nat :=
  let c0_i32_12 : BitVec 32 := 0#32
  let c1_i32_14 : BitVec 32 := 1#32
  let arg5 : BitVec 32 := Scf.iv c0_i32_12 c1_i32_14 k0_t2
  let c8_i32 : BitVec 32 := 8#32
  let v33 : BitVec 32 := Scalar.muli arg5 c8_i32
  let v34 : BitVec 32 := v33
  let v39 : Index := Scalar.indexCast v34
  let c0_34 : Index := 0#32
  ![v39.toNat, 0]
@[reducible] def k0_t3_loop : Scf.Loop 32 :=
  let c0_i32_21 : BitVec 32 := 0#32
  let c16_i32_22 : BitVec 32 := 16#32
  let v23 : BitVec 32 := Scalar.addi c0_i32_21 c16_i32_22
  let c1_i32_23 : BitVec 32 := 1#32
  ⟨c0_i32_21, v23, c1_i32_23⟩
def k0_mult3 (k0_t3 : Fin k0_t3_loop.trips) : BitVec 32 :=
  let c0_i32_21 : BitVec 32 := 0#32
  let c1_i32_23 : BitVec 32 := 1#32
  let arg5 : BitVec 32 := Scf.iv c0_i32_21 c1_i32_23 k0_t3
  let c8_i32 : BitVec 32 := 8#32
  let v33 : BitVec 32 := Scalar.muli arg5 c8_i32
  v33
def k0_off3 (k0_t3 : Fin k0_t3_loop.trips) : Fin 2 → Nat :=
  let c0_i32_21 : BitVec 32 := 0#32
  let c1_i32_23 : BitVec 32 := 1#32
  let arg5 : BitVec 32 := Scf.iv c0_i32_21 c1_i32_23 k0_t3
  let c8_i32 : BitVec 32 := 8#32
  let v33 : BitVec 32 := Scalar.muli arg5 c8_i32
  let v34 : BitVec 32 := v33
  let v39 : Index := Scalar.indexCast v34
  let c0_34 : Index := 0#32
  ![v39.toNat, 0]
def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_28 : BitVec 32 := 0#32
  let v32 : BitVec 1 := Scalar.cmpi .ne v31 c0_i32_28
  v32

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  transposes_S32x512x512x3_S32x3x512x512_0_3_1_2 : S32x512x512x3.Transposes [0, 3, 1, 2] S32x3x512x512
  inb_S3x256_S3x256_0_0 : ∀ a, (![0, 0] : Fin 2 → Nat) a + S3x256.size a ≤ S3x256.size a
  h_S3x256 : 0 < S3x256.numel
  shapeCasts_S3x256_S3x256 : S3x256.ShapeCasts S3x256
  iota_S1x1x256_d2_w32 : S1x1x256.Iotas .tc 32 [2]
  inb_S1x3x128x512_S1x3x128x512_0_0_0_0 : ∀ a, (![0, 0, 0, 0] : Fin 4 → Nat) a + S1x3x128x512.size a ≤ S1x3x128x512.size a
  squeezes_S1x3x128x512_S3x128x512 : S1x3x128x512.Squeezes S3x128x512
  inb_S3x128x512_S1x128x512_0_0_0 : ∀ a, (![0, 0, 0] : Fin 3 → Nat) a + S1x128x512.size a ≤ S3x128x512.size a
  squeezes_S1x128x512_S128x512 : S1x128x512.Squeezes S128x512
  h_S8x512 : 0 < S8x512.numel
  shapeCasts_S8x512_S8x512 : S8x512.ShapeCasts S8x512
  shapeCasts_S8x512_S8x512x1 : S8x512.ShapeCasts S8x512x1
  broadcasts_S8x512x1_S8x512x256 : S8x512x1.Broadcasts S8x512x256
  broadcasts_S1x1x256_S8x512x256 : S1x1x256.Broadcasts S8x512x256
  natLt_1_32 : 1 < 32
  reduces_S8x512x256_S512x256 : S8x512x256.Reduces [0] S512x256
  reduces_S512x256_S256 : S512x256.Reduces [0] S256
  shapeCasts_S256_S1x256 : S256.ShapeCasts S1x256
  inb_S3x256_S1x256_0_0 : ∀ a, (![0, 0] : Fin 2 → Nat) a + S1x256.size a ≤ S3x256.size a
  h_S1x256 : 0 < S1x256.numel
  shapeCasts_S1x256_S1x256 : S1x256.ShapeCasts S1x256
  inb_S3x128x512_S1x128x512_1_0_0 : ∀ a, (![1, 0, 0] : Fin 3 → Nat) a + S1x128x512.size a ≤ S3x128x512.size a
  inb_S3x256_S1x256_1_0 : ∀ a, (![1, 0] : Fin 2 → Nat) a + S1x256.size a ≤ S3x256.size a
  inb_S3x128x512_S1x128x512_2_0_0 : ∀ a, (![2, 0, 0] : Fin 3 → Nat) a + S1x128x512.size a ≤ S3x128x512.size a
  inb_S3x256_S1x256_2_0 : ∀ a, (![2, 0] : Fin 2 → Nat) a + S1x256.size a ≤ S3x256.size a
  reduces_S3x256_S3 : S3x256.Reduces [1] S3
  shapeCasts_S3_S3x1 : S3.ShapeCasts S3x1
  broadcasts_S3x1_S3x256 : S3x1.Broadcasts S3x256
  transposes_S3x256_p1_0_S256x3 : S3x256.Transposes [1, 0] S256x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x512.size a ≤ S128x512.size a
  k0_t2_ok : k0_t2_loop.OK
  k0_mult2_dvd : ∀ k0_t2 : Fin k0_t2_loop.trips, 8 ∣ (k0_mult2 k0_t2).toNat
  k0_off2_inb : ∀ k0_t2 : Fin k0_t2_loop.trips, ∀ a, (k0_off2 k0_t2) a + S8x512.size a ≤ S128x512.size a
  k0_t3_ok : k0_t3_loop.OK
  k0_mult3_dvd : ∀ k0_t3 : Fin k0_t3_loop.trips, 8 ∣ (k0_mult3 k0_t3).toNat
  k0_off3_inb : ∀ k0_t3 : Fin k0_t3_loop.trips, ∀ a, (k0_off3 k0_t3) a + S8x512.size a ≤ S128x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x128x512.size a ≤ S32x3x512x512.size a
  hwx0_0 : ∀ i : grid0.Coords, EltTy.bits .f32 = 32 ∨ (Rect.block (s := S32x3x512x512) S1x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S32x256x3.size a
  hwx0_1 : ∀ i : grid0.Coords, EltTy.bits .f32 = 32 ∨ (Rect.block (s := S32x256x3) S1x256x3.size (cc0_transform_1 i) (hinb0_1 i)).WholeWords (EltTy.packing .f32)

variable [Facts₀]

abbrev win0_0 : Pipeline.Window sig grid0 :=
  Pipeline.Window.ofSpec (Memref.whole main_v0) S1x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x512x512x3 : Shape := ⟨4, ![32, 512, 512, 3]⟩
abbrev S_ : Shape := ⟨0, ![]⟩
abbrev S32 : Shape := ⟨1, ![32]⟩
abbrev S32x1x1x1 : Shape := ⟨4, ![32, 1, 1, 1]⟩
abbrev S3 : Shape := ⟨1, ![3]⟩
abbrev S1x1x1x3 : Shape := ⟨4, ![1, 1, 1, 3]⟩
abbrev S32x1x1x3 : Shape := ⟨4, ![32, 1, 1, 3]⟩
abbrev S25165824 : Shape := ⟨1, ![25165824]⟩
abbrev S24672 : Shape := ⟨1, ![24672]⟩
abbrev S25165824x1 : Shape := ⟨2, ![25165824, 1]⟩
abbrev S32x3x257 : Shape := ⟨3, ![32, 3, 257]⟩
abbrev S32x3x256 : Shape := ⟨3, ![32, 3, 256]⟩
abbrev S32x3 : Shape := ⟨2, ![32, 3]⟩
abbrev S32x3x1 : Shape := ⟨3, ![32, 3, 1]⟩
abbrev S32x256x3 : Shape := ⟨3, ![32, 256, 3]⟩

abbrev nBuf : Space → Nat
  | .hbm => 49
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S32x512x512x3, .f32⟩
  | .hbm, ⟨5, _⟩ => ⟨S32x512x512x3, .f32⟩
  | .hbm, ⟨6, _⟩ => ⟨S32x512x512x3, .f32⟩
  | .hbm, ⟨7, _⟩ => ⟨S_, .i32⟩
  | .hbm, ⟨8, _⟩ => ⟨S_, .i32⟩
  | .hbm, ⟨9, _⟩ => ⟨S_, .f32⟩
  | .hbm, ⟨10, _⟩ => ⟨S32x512x512x3, .f32⟩
  | .hbm, ⟨11, _⟩ => ⟨S32x512x512x3, .f32⟩
  | .hbm, ⟨12, _⟩ => ⟨S_, .f32⟩
  | .hbm, ⟨13, _⟩ => ⟨S32x512x512x3, .f32⟩
  | .hbm, ⟨14, _⟩ => ⟨S32x512x512x3, .f32⟩
  | .hbm, ⟨15, _⟩ => ⟨S32x512x512x3, .i32⟩
  | .hbm, ⟨16, _⟩ => ⟨S32, .i32⟩
  | .hbm, ⟨17, _⟩ => ⟨S32x1x1x1, .i32⟩
  | .hbm, ⟨18, _⟩ => ⟨S3, .i32⟩
  | .hbm, ⟨19, _⟩ => ⟨S1x1x1x3, .i32⟩
  | .hbm, ⟨20, _⟩ => ⟨S_, .i32⟩
  | .hbm, ⟨21, _⟩ => ⟨S32x1x1x1, .i32⟩
  | .hbm, ⟨22, _⟩ => ⟨S32x1x1x1, .i32⟩
  | .hbm, ⟨23, _⟩ => ⟨S32x1x1x3, .i32⟩
  | .hbm, ⟨24, _⟩ => ⟨S32x1x1x3, .i32⟩
  | .hbm, ⟨25, _⟩ => ⟨S32x1x1x3, .i32⟩
  | .hbm, ⟨26, _⟩ => ⟨S_, .i32⟩
  | .hbm, ⟨27, _⟩ => ⟨S32x1x1x3, .i32⟩
  | .hbm, ⟨28, _⟩ => ⟨S32x1x1x3, .i32⟩
  | .hbm, ⟨29, _⟩ => ⟨S32x512x512x3, .i32⟩
  | .hbm, ⟨30, _⟩ => ⟨S32x512x512x3, .i32⟩
  | .hbm, ⟨31, _⟩ => ⟨S25165824, .i32⟩
  | .hbm, ⟨32, _⟩ => ⟨S_, .f32⟩
  | .hbm, ⟨33, _⟩ => ⟨S25165824, .f32⟩
  | .hbm, ⟨34, _⟩ => ⟨S_, .f32⟩
  | .hbm, ⟨35, _⟩ => ⟨S24672, .f32⟩
  | .hbm, ⟨36, _⟩ => ⟨S25165824x1, .i32⟩
  | .hbm, ⟨37, _⟩ => ⟨S24672, .f32⟩
  | .hbm, ⟨38, _⟩ => ⟨S32x3x257, .f32⟩
  | .hbm, ⟨39, _⟩ => ⟨S32x3x256, .f32⟩
  | .hbm, ⟨40, _⟩ => ⟨S_, .f32⟩
  | .hbm, ⟨41, _⟩ => ⟨S32x3, .f32⟩
  | .hbm, ⟨42, _⟩ => ⟨S32x3x1, .f32⟩
  | .hbm, ⟨43, _⟩ => ⟨S_, .f32⟩
  | .hbm, ⟨44, _⟩ => ⟨S32x3x1, .f32⟩
  | .hbm, ⟨45, _⟩ => ⟨S32x3x1, .f32⟩
  | .hbm, ⟨46, _⟩ => ⟨S32x3x256, .f32⟩
  | .hbm, ⟨47, _⟩ => ⟨S32x3x256, .f32⟩
  | .hbm, ⟨48, _⟩ => ⟨S32x256x3, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S_S32x512x512x3 : S_.BroadcastsInDim S32x512x512x3 (![] : Fin 0 → Fin S32x512x512x3.rank)
  bcast_S32_S32x1x1x1_0 : S32.BroadcastsInDim S32x1x1x1 (![0] : Fin 1 → Fin S32x1x1x1.rank)
  bcast_S3_S1x1x1x3_3 : S3.BroadcastsInDim S1x1x1x3 (![3] : Fin 1 → Fin S1x1x1x3.rank)
  bcast_S_S32x1x1x1 : S_.BroadcastsInDim S32x1x1x1 (![] : Fin 0 → Fin S32x1x1x1.rank)
  bcast_S32x1x1x1_S32x1x1x3_0_1_2_3 : S32x1x1x1.BroadcastsInDim S32x1x1x3 (![0, 1, 2, 3] : Fin 4 → Fin S32x1x1x3.rank)
  bcast_S1x1x1x3_S32x1x1x3_0_1_2_3 : S1x1x1x3.BroadcastsInDim S32x1x1x3 (![0, 1, 2, 3] : Fin 4 → Fin S32x1x1x3.rank)
  bcast_S_S32x1x1x3 : S_.BroadcastsInDim S32x1x1x3 (![] : Fin 0 → Fin S32x1x1x3.rank)
  bcast_S32x1x1x3_S32x512x512x3_0_1_2_3 : S32x1x1x3.BroadcastsInDim S32x512x512x3 (![0, 1, 2, 3] : Fin 4 → Fin S32x512x512x3.rank)
  shapeCasts_S32x512x512x3_S25165824 : S32x512x512x3.ShapeCasts S25165824
  bcast_S_S25165824 : S_.BroadcastsInDim S25165824 (![] : Fin 0 → Fin S25165824.rank)
  bcast_S_S24672 : S_.BroadcastsInDim S24672 (![] : Fin 0 → Fin S24672.rank)
  bcast_S25165824_S25165824x1_0 : S25165824.BroadcastsInDim S25165824x1 (![0] : Fin 1 → Fin S25165824x1.rank)
  shapeCasts_S24672_S32x3x257 : S24672.ShapeCasts S32x3x257
  slices_S32x3x257_S32x3x256_0_0_1 : S32x3x257.Slices ![0, 0, 1] S32x3x256
  reducesTo_S32x3x256_S32x3_d2 : S32x3x256.ReducesTo [2] S32x3
  h_S_ : 0 < S_.numel
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x256_0_1_2 : S32x3x1.BroadcastsInDim S32x3x256 (![0, 1, 2] : Fin 3 → Fin S32x3x256.rank)
  transposes_S32x3x256_S32x256x3_0_2_1 : S32x3x256.Transposes [0, 2, 1] S32x256x3
  scatter_S24672_S25165824x1_S25165824_n_0_0_1_wf : ScatterDims.WF S24672 S25165824x1 S25165824 [] [0] [0] 1

variable [Facts₀]

def scatter_S24672_S25165824x1_S25165824_n_0_0_1 : ScatterDims S24672 S25165824x1 S25165824 where
  updateWindowDims := []
  insertedWindowDims := [0]
  scatterDimsToOperandDims := [0]
  indexVectorDim := 1
  wf := scatter_S24672_S25165824x1_S25165824_n_0_0_1_wf

class Facts : Prop extends Facts₀ where

variable [Facts]
-- ==== Proof.PointsK.lean ====
/-
  The grid is 32 images × 4 row tiles, walked image by image; point `t` is tile `t mod 4` of image `t / 4`.
  The body clears the per-channel counts at the first tile of an image and normalises and stores them at the last;
  the output window is untouched at the other tiles and written back only after the last.
  This module decides those facts over the 128 points and names the memrefs the body is called with.
-/
import proofs.«181129_j85787676770927_2_alg».proof.Proof.Gen.Kernel.Frame
import proofs.«181129_j85787676770927_2_alg».proof.Proof.Gen.Kernel.Loops
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body clears the counts exactly when the tile coordinate is 0. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 4 = 0 :=
  (by decide +kernel : ∀ t : Fin grid0.N, atFirst (grid0.coords t) ↔ t.val % 4 = 0)

/-- The body normalises and stores exactly when the tile coordinate is 3. -/
abbrev atLast (i : grid0.Coords) : Prop := k0_cond2 i = 1#1
theorem atLast_iff : ∀ t : Fin cfg0.N, atLast (grid0.coords t) ↔ t.val % 4 = 3 :=
  (by decide +kernel : ∀ t : Fin grid0.N, atLast (grid0.coords t) ↔ t.val % 4 = 3)

/-- The input window is live at every point. -/
theorem live_in : ∀ t : Fin cfg0.N, cfg0.idle 0 (grid0.coords t) = false := by decide +kernel
/-- Away from an image's last tile the output window is idle and not written back. -/
theorem idle_out : ∀ t : Fin cfg0.N, ¬atLast (grid0.coords t) → cfg0.idle 1 (grid0.coords t) = true := by decide +kernel
theorem noFlush_out : ∀ t : Fin cfg0.N, ¬atLast (grid0.coords t) → (cfg0.win 1).flush t = false := by decide +kernel
/-- At an image's last tile the output window is live. -/
theorem live_out : ∀ t : Fin cfg0.N, atLast (grid0.coords t) → cfg0.idle 1 (grid0.coords t) = false := by decide +kernel

/-- The memrefs the body is called with at point `t`: the two windows' current staging buffers and the counts' scratch. -/
abbrev inM (t : Fin cfg0.N) : Memref sig .tc .vmem S1x3x128x512 .f32 := win0_0.stage (cfg0.slots t 0)
abbrev inW (t : Fin cfg0.N) : (inM t).IsWhole := hstage0_0 ((cfg0.slots t 0).cast nbuf0_0)
abbrev outM (t : Fin cfg0.N) : Memref sig .tc .vmem S1x256x3 .f32 := win0_1.stage (cfg0.slots t 1)
abbrev outW (t : Fin cfg0.N) : (outM t).IsWhole := hstage0_1 ((cfg0.slots t 1).cast nbuf0_1)
abbrev accM : Memref sig .tc .vmem S3x256 .f32 := Memref.whole cc0_scratch0
/-- Views through which the output block's and the counts' contents are stated. -/
abbrev outV : View sig .tc .vmem S1x256x3 .f32 := (Memref.whole cc0_stg1_0 : Memref sig .tc .vmem S1x256x3 .f32).view
abbrev accV : View sig .tc .vmem S3x256 .f32 := accM.view

/-- What the region may use besides its windows: the counts' scratch at some contents and the generator register. -/
theorem scratch_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The three channel planes of the input block

The input block is `[1, 3, 128, 512]`; channel `k`'s plane `[128, 512]` is a slice of it, squeezed. Each plane's
elements are among the block's. -/

/-- Channel 0's plane of the input block, as the body names it. -/
abbrev chan0 (arg2 : Memref sig .tc .vmem S1x3x128x512 .f32) : Memref sig .tc .vmem S128x512 .f32 :=
  (((arg2.slice (Rect.unit (s := S1x3x128x512) ![0, 0, 0, 0] S1x3x128x512.size inb_S1x3x128x512_S1x3x128x512_0_0_0_0) (fun _ => rfl)).squeeze S3x128x512 squeezes_S1x3x128x512_S3x128x512).slice (Rect.unit (s := S3x128x512) ![0, 0, 0] S1x128x512.size inb_S3x128x512_S1x128x512_0_0_0) (fun _ => rfl)).squeeze S128x512 squeezes_S1x128x512_S128x512
/-- Channel 1's plane. -/
abbrev chan1 (arg2 : Memref sig .tc .vmem S1x3x128x512 .f32) : Memref sig .tc .vmem S128x512 .f32 :=
  (((arg2.slice (Rect.unit (s := S1x3x128x512) ![0, 0, 0, 0] S1x3x128x512.size inb_S1x3x128x512_S1x3x128x512_0_0_0_0) (fun _ => rfl)).squeeze S3x128x512 squeezes_S1x3x128x512_S3x128x512).slice (Rect.unit (s := S3x128x512) ![1, 0, 0] S1x128x512.size inb_S3x128x512_S1x128x512_1_0_0) (fun _ => rfl)).squeeze S128x512 squeezes_S1x128x512_S128x512
/-- Channel 2's plane. -/
abbrev chan2 (arg2 : Memref sig .tc .vmem S1x3x128x512 .f32) : Memref sig .tc .vmem S128x512 .f32 :=
  (((arg2.slice (Rect.unit (s := S1x3x128x512) ![0, 0, 0, 0] S1x3x128x512.size inb_S1x3x128x512_S1x3x128x512_0_0_0_0) (fun _ => rfl)).squeeze S3x128x512 squeezes_S1x3x128x512_S3x128x512).slice (Rect.unit (s := S3x128x512) ![2, 0, 0] S1x128x512.size inb_S3x128x512_S1x128x512_2_0_0) (fun _ => rfl)).squeeze S128x512 squeezes_S1x128x512_S128x512

theorem chan0_sub (arg2 : Memref sig .tc .vmem S1x3x128x512 .f32) : (chan0 arg2).view.set ⊆ arg2.view.set := by
  simp only [Memref.view_squeeze, Memref.view_slice, View.set_reshape]
  exact (View.set_slice_subset _ _).trans (by rw [View.set_reshape]; exact View.set_slice_subset _ _)
theorem chan1_sub (arg2 : Memref sig .tc .vmem S1x3x128x512 .f32) : (chan1 arg2).view.set ⊆ arg2.view.set := by
  simp only [Memref.view_squeeze, Memref.view_slice, View.set_reshape]
  exact (View.set_slice_subset _ _).trans (by rw [View.set_reshape]; exact View.set_slice_subset _ _)
theorem chan2_sub (arg2 : Memref sig .tc .vmem S1x3x128x512 .f32) : (chan2 arg2).view.set ⊆ arg2.view.set := by
  simp only [Memref.view_squeeze, Memref.view_slice, View.set_reshape]
  exact (View.set_slice_subset _ _).trans (by rw [View.set_reshape]; exact View.set_slice_subset _ _)

/-! ## Two rearrangements of a separating implication

If `P` splits into `A ∗ B`, a continuation that takes `A` and `B` one after the other takes `P`; and conversely when
`A ∗ B` joins into `P`. -/

theorem wand_of_split {PROP : Type} [BI.BIClass PROP] {P A B Q : PROP} (h : P ⊢ A ∗ B) : (A -∗ B -∗ Q) ⊢ (P -∗ Q) :=
  wand_intro ((sep_mono_right h).trans (sep_assoc.2.trans ((sep_mono_left wand_elim_left).trans wand_elim_left)))

theorem wand_of_join {PROP : Type} [BI.BIClass PROP] {P A B Q : PROP} (h : A ∗ B ⊢ P) : (P -∗ Q) ⊢ (A -∗ B -∗ Q) :=
  wand_intro (wand_intro (sep_assoc.1.trans ((sep_mono_right h).trans wand_elim_left)))

/-! ## Carving a channel plane out of the input block's buffer, and putting it back -/

theorem chan0_split (c : Dev nD) (arg2 : Memref sig .tc .vmem S1x3x128x512 .f32) (g : Buf (Elt F) (arg2.view.loc (c : Thread nD τ))) :
    (View.loc (c : Thread nD τ) arg2.view ↦[arg2.view.set]{fullShare} g : sProp 𝕄) ⊣⊢
      iprop((View.loc (c : Thread nD τ) (chan0 arg2).view ↦[(chan0 arg2).view.set]{fullShare} g) ∗ View.loc (c : Thread nD τ) arg2.view ↦[arg2.view.set \ (chan0 arg2).view.set]{fullShare} g) :=
  pointsTo_split_subset (chan0_sub arg2)
theorem chan1_split (c : Dev nD) (arg2 : Memref sig .tc .vmem S1x3x128x512 .f32) (g : Buf (Elt F) (arg2.view.loc (c : Thread nD τ))) :
    (View.loc (c : Thread nD τ) arg2.view ↦[arg2.view.set]{fullShare} g : sProp 𝕄) ⊣⊢
      iprop((View.loc (c : Thread nD τ) (chan1 arg2).view ↦[(chan1 arg2).view.set]{fullShare} g) ∗ View.loc (c : Thread nD τ) arg2.view ↦[arg2.view.set \ (chan1 arg2).view.set]{fullShare} g) :=
  pointsTo_split_subset (chan1_sub arg2)
theorem chan2_split (c : Dev nD) (arg2 : Memref sig .tc .vmem S1x3x128x512 .f32) (g : Buf (Elt F) (arg2.view.loc (c : Thread nD τ))) :
    (View.loc (c : Thread nD τ) arg2.view ↦[arg2.view.set]{fullShare} g : sProp 𝕄) ⊣⊢
      iprop((View.loc (c : Thread nD τ) (chan2 arg2).view ↦[(chan2 arg2).view.set]{fullShare} g) ∗ View.loc (c : Thread nD τ) arg2.view ↦[arg2.view.set \ (chan2 arg2).view.set]{fullShare} g) :=
  pointsTo_split_subset (chan2_sub arg2)

end Cert.Kernel.Body

end
-- ==== Proof.RunsK.lean ====
/-
  The body at one grid point, in the three situations the grid meets: an image's first tile (the counts are cleared
  first), a middle tile, and the last tile (the counts are normalised and stored into the output block). In each the
  body reads the three channel planes of the input block chunk by chunk, adds each channel's chunk counts to that
  channel's row of the counts, and leaves the input block as it found it. What it leaves in the counts and in the
  output block is recorded as the list of stores it made, latest first.
-/
import proofs.«181129_j85787676770927_2_alg».proof.Proof.PointsK
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- First tile of an image: whatever the counts held, they end at the stores listed (a clearing store of the whole
    array, then one row per channel); the output block is handed back untouched. -/
noncomputable def runFirst (c : Dev nD) (i : grid0.Coords) (arg2 : Memref sig .tc .vmem S1x3x128x512 .f32) (harg2 : arg2.IsWhole) (arg3 : Memref sig .tc .vmem S1x256x3 .f32) (harg3 : arg3.IsWhole) (arg4 : Memref sig .tc .vmem S3x256 .f32) (harg4 : arg4.IsWhole) (hc0 : atFirst i) (hc1 : ¬atLast i)
    (x0 : Vec F S1x3x128x512 .f32) :
    { LS0 : List (View.Piece (Elt F) S3x256 .f32) //
      ∀ (xi1 : Vec F S1x256x3 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, fun xi1 E K => ?run⟩
  case run =>
    simp only [cc0__hist_kernel_eq_skeleton]; unfold cc0__hist_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    irename : (View.loc (c : Thread nD τ) arg2.view ↦[arg2.view.set]{fullShare} _) => G0
    irevert G0; iapply (wand_of_split (chan0_split c arg2 _).1); iintro Hc Hr
    sl_exec (disch := first | exact hc0 | exact hc1)
    irevert Hr; irevert Hc; iapply (wand_of_join (chan0_split c arg2 _).2); iintro G0
    irevert G0; iapply (wand_of_split (chan1_split c arg2 _).1); iintro Hc Hr
    sl_exec (disch := first | exact hc0 | exact hc1)
    irevert Hr; irevert Hc; iapply (wand_of_join (chan1_split c arg2 _).2); iintro G0
    irevert G0; iapply (wand_of_split (chan2_split c arg2 _).1); iintro Hc Hr
    sl_exec (disch := first | exact hc0 | exact hc1)
    irevert Hr; irevert Hc; iapply (wand_of_join (chan2_split c arg2 _).2); iintro G0
    sl_step
    iapply Hk
    isplitl [G0]
    · iexists _; isplitr; · ipureintro; exact harg2.read_unread _
      iexact G0
    isplitl [H1]
    · iexists _; isplitr; · ipureintro; exact harg3.read_unread _
      iexact H1
    iexists _; iexact HS0

set_option maxHeartbeats 4000000 in
/-- A middle tile: the counts, found at `xs0`, end at `xs0` with one row per channel stored over it; the output block
    is handed back untouched. -/
noncomputable def runMid (c : Dev nD) (i : grid0.Coords) (arg2 : Memref sig .tc .vmem S1x3x128x512 .f32) (harg2 : arg2.IsWhole) (arg3 : Memref sig .tc .vmem S1x256x3 .f32) (harg3 : arg3.IsWhole) (arg4 : Memref sig .tc .vmem S3x256 .f32) (harg4 : arg4.IsWhole) (hc0 : ¬atFirst i) (hc1 : ¬atLast i)
    (x0 : Vec F S1x3x128x512 .f32) (xs0 : Vec F S3x256 .f32) :
    { LS0 : List (View.Piece (Elt F) S3x256 .f32) //
      ∀ (xi1 : Vec F S1x256x3 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, fun xi1 E K => ?run⟩
  case run =>
    simp only [cc0__hist_kernel_eq_skeleton]; unfold cc0__hist_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    irename : (View.loc (c : Thread nD τ) arg2.view ↦[arg2.view.set]{fullShare} _) => G0
    irevert G0; iapply (wand_of_split (chan0_split c arg2 _).1); iintro Hc Hr
    sl_exec (disch := first | exact hc0 | exact hc1)
    irevert Hr; irevert Hc; iapply (wand_of_join (chan0_split c arg2 _).2); iintro G0
    irevert G0; iapply (wand_of_split (chan1_split c arg2 _).1); iintro Hc Hr
    sl_exec (disch := first | exact hc0 | exact hc1)
    irevert Hr; irevert Hc; iapply (wand_of_join (chan1_split c arg2 _).2); iintro G0
    irevert G0; iapply (wand_of_split (chan2_split c arg2 _).1); iintro Hc Hr
    sl_exec (disch := first | exact hc0 | exact hc1)
    irevert Hr; irevert Hc; iapply (wand_of_join (chan2_split c arg2 _).2); iintro G0
    sl_step
    iapply Hk
    isplitl [G0]
    · iexists _; isplitr; · ipureintro; exact harg2.read_unread _
      iexact G0
    isplitl [H1]
    · iexists _; isplitr; · ipureintro; exact harg3.read_unread _
      iexact H1
    iexists _; iexact HS0

set_option maxHeartbeats 4000000 in
/-- Last tile of an image: as a middle tile, and then the whole output block is stored (the normalised counts,
    transposed), whatever it held. -/
noncomputable def runLast (c : Dev nD) (i : grid0.Coords) (arg2 : Memref sig .tc .vmem S1x3x128x512 .f32) (harg2 : arg2.IsWhole) (arg3 : Memref sig .tc .vmem S1x256x3 .f32) (harg3 : arg3.IsWhole) (arg4 : Memref sig .tc .vmem S3x256 .f32) (harg4 : arg4.IsWhole) (hc0 : ¬atFirst i) (hc1 : atLast i)
    (x0 : Vec F S1x3x128x512 .f32) (xs0 : Vec F S3x256 .f32) :
    Σ' (L1 : List (View.Piece (Elt F) S1x256x3 .f32)), { LS0 : List (View.Piece (Elt F) S3x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    irename : (View.loc (c : Thread nD τ) arg2.view ↦[arg2.view.set]{fullShare} _) => G0
    irevert G0; iapply (wand_of_split (chan0_split c arg2 _).1); iintro Hc Hr
    sl_exec (disch := first | exact hc0 | exact hc1)
    irevert Hr; irevert Hc; iapply (wand_of_join (chan0_split c arg2 _).2); iintro G0
    irevert G0; iapply (wand_of_split (chan1_split c arg2 _).1); iintro Hc Hr
    sl_exec (disch := first | exact hc0 | exact hc1)
    irevert Hr; irevert Hc; iapply (wand_of_join (chan1_split c arg2 _).2); iintro G0
    irevert G0; iapply (wand_of_split (chan2_split c arg2 _).1); iintro Hc Hr
    sl_exec (disch := first | exact hc0 | exact hc1)
    irevert Hr; irevert Hc; iapply (wand_of_join (chan2_split c arg2 _).2); iintro G0
    sl_step
    iapply Hk
    isplitl [G0]
    · iexists _; isplitr; · ipureintro; exact harg2.read_unread _
      iexact G0
    isplitl [H1]; · iexists _; iexact H1
    iexists _; iexact HS0

end Cert.Kernel.Body

end
-- ==== Proof.FrameK.lean ====
/-
  The frame of the histogram kernel: every execution runs to the end, nothing faults, the image array ends unchanged.

  What the body leaves is followed point by point. After point `n` the counts' scratch holds `(stateAt n).2`: at an
  image's first tile what the clearing run leaves, at later tiles what the run leaves over the previous point's
  counts. The output block's buffer is untouched except at an image's last tile, where it is stored whole:
  `(stateAt n).1` there. Between points the region's invariant is the scratch at those contents; before the very
  first point it is anything, which is all the first tile needs.
-/
import proofs.«181129_j85787676770927_2_alg».proof.Proof.RunsK
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each situation leaves -/

section Leaves
variable (c : Dev nD) (i : grid0.Coords) (arg2 : Memref sig .tc .vmem S1x3x128x512 .f32) (harg2 : arg2.IsWhole) (arg3 : Memref sig .tc .vmem S1x256x3 .f32) (harg3 : arg3.IsWhole) (arg4 : Memref sig .tc .vmem S3x256 .f32) (harg4 : arg4.IsWhole)

/-- The counts after an image's first tile: the run's stores read back (they cover the array, so over anything). -/
def accFirst (hc0 : atFirst i) (hc1 : ¬atLast i) (x0 : Vec F S1x3x128x512 .f32) : Vec F S3x256 .f32 :=
  accV.read (Elt F) (accV.writes (Elt F) accV.junk (runFirst c i arg2 harg2 arg3 harg3 arg4 harg4 hc0 hc1 x0).1)
/-- One of the first tile's stores is the whole array. -/
theorem accFirst_cover (hc0 : atFirst i) (hc1 : ¬atLast i) (x0 : Vec F S1x3x128x512 .f32) (y : S3x256.Idx) :
    ∃ pc ∈ (runFirst c i arg2 harg2 arg3 harg3 arg4 harg4 hc0 hc1 x0).1, y ∈ pc.1.set :=
  View.cover_of_wholeMem _ (by unfold runFirst; sl_whole_mem) y

/-- The counts after a middle tile. -/
def accMid (hc0 : ¬atFirst i) (hc1 : ¬atLast i) (x0 : Vec F S1x3x128x512 .f32) (xs0 : Vec F S3x256 .f32) : Vec F S3x256 .f32 :=
  accV.read (Elt F) (accV.writes (Elt F) accV.junk (runMid c i arg2 harg2 arg3 harg3 arg4 harg4 hc0 hc1 x0 xs0).1)
/-- A middle tile's stores are the three rows: they tile the array. -/
theorem accMid_cover (hc0 : ¬atFirst i) (hc1 : ¬atLast i) (x0 : Vec F S1x3x128x512 .f32) (xs0 : Vec F S3x256 .f32) (y : S3x256.Idx) :
    ∃ pc ∈ (runMid c i arg2 harg2 arg3 harg3 arg4 harg4 hc0 hc1 x0 xs0).1, y ∈ pc.1.set :=
  View.cover_of_tiledL (runMid c i arg2 harg2 arg3 harg3 arg4 harg4 hc0 hc1 x0 xs0).1 S1x256.size (by sl_kernel_rfl) y

/-- The counts after an image's last tile. -/
def accLast (hc0 : ¬atFirst i) (hc1 : atLast i) (x0 : Vec F S1x3x128x512 .f32) (xs0 : Vec F S3x256 .f32) : Vec F S3x256 .f32 :=
  accV.read (Elt F) (accV.writes (Elt F) accV.junk (runLast c i arg2 harg2 arg3 harg3 arg4 harg4 hc0 hc1 x0 xs0).2.1)
theorem accLast_cover (hc0 : ¬atFirst i) (hc1 : atLast i) (x0 : Vec F S1x3x128x512 .f32) (xs0 : Vec F S3x256 .f32) (y : S3x256.Idx) :
    ∃ pc ∈ (runLast c i arg2 harg2 arg3 harg3 arg4 harg4 hc0 hc1 x0 xs0).2.1, y ∈ pc.1.set :=
  View.cover_of_tiledL (runLast c i arg2 harg2 arg3 harg3 arg4 harg4 hc0 hc1 x0 xs0).2.1 S1x256.size (by sl_kernel_rfl) y

/-- The output block after an image's last tile: one store of the whole block. -/
def outLast (hc0 : ¬atFirst i) (hc1 : atLast i) (x0 : Vec F S1x3x128x512 .f32) (xs0 : Vec F S3x256 .f32) : Vec F S1x256x3 .f32 :=
  outV.read (Elt F) (outV.writes (Elt F) outV.junk (runLast c i arg2 harg2 arg3 harg3 arg4 harg4 hc0 hc1 x0 xs0).1)
theorem outLast_cover (hc0 : ¬atFirst i) (hc1 : atLast i) (x0 : Vec F S1x3x128x512 .f32) (xs0 : Vec F S3x256 .f32) (y : S1x256x3.Idx) :
    ∃ pc ∈ (runLast c i arg2 harg2 arg3 harg3 arg4 harg4 hc0 hc1 x0 xs0).1, y ∈ pc.1.set :=
  View.cover_of_tiledL (runLast c i arg2 harg2 arg3 harg3 arg4 harg4 hc0 hc1 x0 xs0).1 S1x256x3.size (by sl_kernel_rfl) y

end Leaves

/-- The output block's buffer at a point that does not store it: nothing consults this value. -/
def outIdle : Vec F S1x256x3 .f32 := outV.read (Elt F) outV.junk

/-! ## Point by point -/

theorem first_of (t : Fin cfg0.N) (h0 : t.val % 4 = 0) : atFirst (grid0.coords t) ∧ ¬atLast (grid0.coords t) :=
  ⟨(atFirst_iff t).mpr h0, fun h => by have := (atLast_iff t).mp h; omega⟩
theorem mid_of (t : Fin cfg0.N) (h0 : ¬t.val % 4 = 0) (h1 : ¬t.val % 4 = 3) : ¬atFirst (grid0.coords t) ∧ ¬atLast (grid0.coords t) :=
  ⟨fun h => h0 ((atFirst_iff t).mp h), fun h => h1 ((atLast_iff t).mp h)⟩
theorem last_of (t : Fin cfg0.N) (h0 : ¬t.val % 4 = 0) (h1 : t.val % 4 = 3) : ¬atFirst (grid0.coords t) ∧ atLast (grid0.coords t) :=
  ⟨fun h => h0 ((atFirst_iff t).mp h), (atLast_iff t).mpr h1⟩

/-- The output block's buffer and the counts after the body at position `n`. -/
def stateAt (c : Dev nD) : (n : ℕ) → n < cfg0.N → Vec F S1x256x3 .f32 × Vec F S3x256 .f32
  | 0, hn => (outIdle, accFirst c (grid0.coords ⟨0, hn⟩) (inM ⟨0, hn⟩) (inW ⟨0, hn⟩) (outM ⟨0, hn⟩) (outW ⟨0, hn⟩) accM (Memref.isWhole_whole _) (first_of ⟨0, hn⟩ (Nat.zero_mod _)).1 (first_of ⟨0, hn⟩ (Nat.zero_mod _)).2 (iblk m c 0 ⟨0, hn⟩))
  | n + 1, hn =>
    if h0 : (n + 1) % 4 = 0 then
      (outIdle, accFirst c (grid0.coords ⟨n + 1, hn⟩) (inM ⟨n + 1, hn⟩) (inW ⟨n + 1, hn⟩) (outM ⟨n + 1, hn⟩) (outW ⟨n + 1, hn⟩) accM (Memref.isWhole_whole _) (first_of ⟨n + 1, hn⟩ h0).1 (first_of ⟨n + 1, hn⟩ h0).2 (iblk m c 0 ⟨n + 1, hn⟩))
    else if h1 : (n + 1) % 4 = 3 then
      (outLast c (grid0.coords ⟨n + 1, hn⟩) (inM ⟨n + 1, hn⟩) (inW ⟨n + 1, hn⟩) (outM ⟨n + 1, hn⟩) (outW ⟨n + 1, hn⟩) accM (Memref.isWhole_whole _) (last_of ⟨n + 1, hn⟩ h0 h1).1 (last_of ⟨n + 1, hn⟩ h0 h1).2 (iblk m c 0 ⟨n + 1, hn⟩) (stateAt c n (Nat.lt_of_succ_lt hn)).2,
       accLast c (grid0.coords ⟨n + 1, hn⟩) (inM ⟨n + 1, hn⟩) (inW ⟨n + 1, hn⟩) (outM ⟨n + 1, hn⟩) (outW ⟨n + 1, hn⟩) accM (Memref.isWhole_whole _) (last_of ⟨n + 1, hn⟩ h0 h1).1 (last_of ⟨n + 1, hn⟩ h0 h1).2 (iblk m c 0 ⟨n + 1, hn⟩) (stateAt c n (Nat.lt_of_succ_lt hn)).2)
    else
      (outIdle, accMid c (grid0.coords ⟨n + 1, hn⟩) (inM ⟨n + 1, hn⟩) (inW ⟨n + 1, hn⟩) (outM ⟨n + 1, hn⟩) (outW ⟨n + 1, hn⟩) accM (Memref.isWhole_whole _) (mid_of ⟨n + 1, hn⟩ h0 h1).1 (mid_of ⟨n + 1, hn⟩ h0 h1).2 (iblk m c 0 ⟨n + 1, hn⟩) (stateAt c n (Nat.lt_of_succ_lt hn)).2)

theorem stateAt_first (c : Dev nD) (t : Fin cfg0.N) (h0 : t.val % 4 = 0) :
    stateAt m c t.val t.isLt = (outIdle, accFirst c (grid0.coords t) (inM t) (inW t) (outM t) (outW t) accM (Memref.isWhole_whole _) (first_of t h0).1 (first_of t h0).2 (iblk m c 0 t)) := by
  obtain ⟨n, hn⟩ := t
  cases n with
  | zero => exact rfl
  | succ n => exact (dif_pos h0).trans rfl

theorem stateAt_mid (c : Dev nD) (t : Fin cfg0.N) (h0 : ¬t.val % 4 = 0) (h1 : ¬t.val % 4 = 3) :
    stateAt m c t.val t.isLt = (outIdle, accMid c (grid0.coords t) (inM t) (inW t) (outM t) (outW t) accM (Memref.isWhole_whole _) (mid_of t h0 h1).1 (mid_of t h0 h1).2 (iblk m c 0 t) (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem stateAt_last (c : Dev nD) (t : Fin cfg0.N) (h0 : ¬t.val % 4 = 0) (h1 : t.val % 4 = 3) :
    stateAt m c t.val t.isLt = (outLast c (grid0.coords t) (inM t) (inW t) (outM t) (outW t) accM (Memref.isWhole_whole _) (last_of t h0 h1).1 (last_of t h0 h1).2 (iblk m c 0 t) (stateAt m c (t.val - 1) (Nat.lt_of_le_of_lt (Nat.sub_le _ _) t.isLt)).2,
      accLast c (grid0.coords t) (inM t) (inW t) (outM t) (outW t) accM (Memref.isWhole_whole _) (last_of t h0 h1).1 (last_of t h0 h1).2 (iblk m c 0 t) (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region's invariant before position `n`: anything in the scratch before the first point, afterwards the counts
    the point before left; and the generator register at some state. -/
def inv (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) accM fullShare ((stateAt m c n hn).2)) ∗ (∃ r, prngReg c r)) := rfl
theorem inv_pos (c : Dev nD) (n : ℕ) (h : n ≤ cfg0.N) (hz : n ≠ 0) :
    inv m c n h = iprop(iprop(owns (c : Thread nD τ) accM fullShare ((stateAt m c (n - 1) (by omega)).2)) ∗ (∃ r, prngReg c r)) := by
  cases n with
  | zero => exact absurd rfl hz
  | succ n => rfl

/-! ## The proof data -/

/-- The arrays as the region finds them; after the body the input's buffer at its block and the output's at
    `stateAt`; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (stateAt m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; simp only [Fin.coe_castSucc]
theorem after_in (c : Dev nD) (t : Fin cfg0.N) : (dats m 0 c).after 0 t = iblk m c 0 t := by dsimp only [dats]
theorem after_out (c : Dev nD) (t : Fin cfg0.N) : (dats m 0 c).after 1 t = (stateAt m c t.val t.isLt).1 := by dsimp only [dats]
/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (inM t) fullShare ((dats m 0 c).before 0 t d))
    ∗ (∃ d, owns (c : Thread nD τ) (outM t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: which situation it is in is decided by the point's position modulo 4. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = inv m c (t.val + 1) t.isLt from rfl, inv_succ]
  have hN : t.val < 128 := lt_of_lt_of_eq t.isLt (show cfg0.N = 128 from N_0)
  rw [show (dats m 0 c).leavesExact 0 t = owns (c : Thread nD τ) (inM t) fullShare ((dats m 0 c).after 0 t) from by
    unfold Dat.leavesExact; rw [live_in t], after_in]
  by_cases h0 : t.val % 4 = 0
  · rw [Dat.leavesExact_idle (dats m 0 c) 1 t (idle_out t (first_of t h0).2) (noFlush_out t (first_of t h0).2)]
    rw [stateAt_first m c t h0]
    unfold accFirst; (try dsimp only)
    by_cases hz : t.val = 0
    · rw [inv_castSucc m c t, inv_zero m c _ _ hz, scratch_eq]
      iintro ⟨⟨HS0, Hg⟩, Ho, ⟨%d0, H0⟩, ⟨%d1, H1⟩⟩
      iapply ((runFirst c (grid0.coords t) _ _ _ _ _ _ (first_of t h0).1 (first_of t h0).2 (iblk m c 0 t)).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (accFirst_cover c _ _ _ _ _ _ _ _ _ _)
        iexact Hg
      isplitl [Ho]; · iexact Ho
      isplitl [H0]; · iexact H0
      iexists _; iexact H1
    · rw [inv_castSucc m c t, inv_pos m c _ _ hz]
      iintro ⟨⟨HS0, Hg⟩, Ho, ⟨%d0, H0⟩, ⟨%d1, H1⟩⟩
      iapply ((runFirst c (grid0.coords t) _ _ _ _ _ _ (first_of t h0).1 (first_of t h0).2 (iblk m c 0 t)).2 _ Set.univ _)
      isplitl [H0]; · iexact H0
      isplitl [H1]; · iexact H1
      isplitl [HS0]; · iexists _; iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (accFirst_cover c _ _ _ _ _ _ _ _ _ _)
        iexact Hg
      isplitl [Ho]; · iexact Ho
      isplitl [H0]; · iexact H0
      iexists _; iexact H1
  · have hz : t.val ≠ 0 := fun h => h0 (by rw [h])
    by_cases h1 : t.val % 4 = 3
    · rw [show (dats m 0 c).leavesExact 1 t = owns (c : Thread nD τ) (outM t) fullShare ((dats m 0 c).after 1 t) from by
        unfold Dat.leavesExact; rw [live_out t (last_of t h0 h1).2], after_out]
      rw [stateAt_last m c t h0 h1]
      unfold outLast accLast; (try dsimp only)
      rw [inv_castSucc m c t, inv_pos m c _ _ hz]
      iintro ⟨⟨HS0, Hg⟩, Ho, ⟨%d0, H0⟩, ⟨%d1, H1⟩⟩
      iapply ((runLast c (grid0.coords t) _ _ _ _ _ _ (last_of t h0 h1).1 (last_of t h0 h1).2 (iblk m c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (accLast_cover c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (outLast_cover c _ _ _ _ _ _ _ _ _ _ _)
    · rw [Dat.leavesExact_idle (dats m 0 c) 1 t (idle_out t (mid_of t h0 h1).2) (noFlush_out t (mid_of t h0 h1).2)]
      rw [stateAt_mid m c t h0 h1]
      unfold accMid; (try dsimp only)
      rw [inv_castSucc m c t, inv_pos m c _ _ hz]
      iintro ⟨⟨HS0, Hg⟩, Ho, ⟨%d0, H0⟩, ⟨%d1, H1⟩⟩
      iapply ((runMid c (grid0.coords t) _ _ _ _ _ _ (mid_of t h0 h1).1 (mid_of t h0 h1).2 (iblk m c 0 t) _).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (accMid_cover c _ _ _ _ _ _ _ _ _ _ _)
        iexact Hg
      isplitl [Ho]; · iexact Ho
      isplitl [H0]; · iexact H0
      iexists _; iexact H1

theorem body_obligation (c : Dev nD) : BodyObligation (dats (F := F) m 0 c) (defs₀ (F := F)) Variants.none () Set.univ := fun t => by
  rw [bigSep_W0, bigSep_W0]
  exact sound_body m c t

theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) : (dats m 0 c).Φ (Fin.last cfg0.N) ⊢ Pipeline.ΦA spec0 c := by
  have hne : (Fin.last cfg0.N).val ≠ 0 := by rw [Fin.val_last]; have : cfg0.N = 128 := N_0; omega
  rw [show (dats m 0 c).Φ (Fin.last cfg0.N) = inv m c (Fin.last cfg0.N).val (Nat.le_of_lt_succ (Fin.last cfg0.N).isLt) from rfl, inv_pos m c _ _ hne, scratch_eq]
  iintro ⟨HS0, Hg⟩
  isplitl [HS0]
  · iexists _; iexact HS0
  iexact Hg

/-! ## The run and the frame -/

set_option backward.isDefEq.respectTransparency.types false in
/-- Every weakly fair execution terminates, and every array of the pipeline ends at what the proof data computes. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := inv_in m) (hout := inv_out m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.PointsI.lean ====
/-
  The grid is 32 images × 4 row tiles, walked image by image; point `t` is tile `t mod 4` of image `t / 4`.
  The body clears the per-channel counts at the first tile of an image and normalises and stores them at the last;
  the output window is untouched at the other tiles and written back only after the last.
  This module decides those facts over the 128 points and names the memrefs the body is called with.
-/
import proofs.«181129_j85787676770927_2_alg».proof.Proof.Gen.KernelIdeal.Frame
import proofs.«181129_j85787676770927_2_alg».proof.Proof.Gen.KernelIdeal.Loops
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body clears the counts exactly when the tile coordinate is 0. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 4 = 0 :=
  (by decide +kernel : ∀ t : Fin grid0.N, atFirst (grid0.coords t) ↔ t.val % 4 = 0)

/-- The body normalises and stores exactly when the tile coordinate is 3. -/
abbrev atLast (i : grid0.Coords) : Prop := k0_cond2 i = 1#1
theorem atLast_iff : ∀ t : Fin cfg0.N, atLast (grid0.coords t) ↔ t.val % 4 = 3 :=
  (by decide +kernel : ∀ t : Fin grid0.N, atLast (grid0.coords t) ↔ t.val % 4 = 3)

/-- The input window is live at every point. -/
theorem live_in : ∀ t : Fin cfg0.N, cfg0.idle 0 (grid0.coords t) = false := by decide +kernel
/-- Away from an image's last tile the output window is idle and not written back. -/
theorem idle_out : ∀ t : Fin cfg0.N, ¬atLast (grid0.coords t) → cfg0.idle 1 (grid0.coords t) = true := by decide +kernel
theorem noFlush_out : ∀ t : Fin cfg0.N, ¬atLast (grid0.coords t) → (cfg0.win 1).flush t = false := by decide +kernel
/-- At an image's last tile the output window is live. -/
theorem live_out : ∀ t : Fin cfg0.N, atLast (grid0.coords t) → cfg0.idle 1 (grid0.coords t) = false := by decide +kernel

/-- The memrefs the body is called with at point `t`: the two windows' current staging buffers and the counts' scratch. -/
abbrev inM (t : Fin cfg0.N) : Memref sig .tc .vmem S1x3x128x512 .f32 := win0_0.stage (cfg0.slots t 0)
abbrev inW (t : Fin cfg0.N) : (inM t).IsWhole := hstage0_0 ((cfg0.slots t 0).cast nbuf0_0)
abbrev outM (t : Fin cfg0.N) : Memref sig .tc .vmem S1x256x3 .f32 := win0_1.stage (cfg0.slots t 1)
abbrev outW (t : Fin cfg0.N) : (outM t).IsWhole := hstage0_1 ((cfg0.slots t 1).cast nbuf0_1)
abbrev accM : Memref sig .tc .vmem S3x256 .f32 := Memref.whole cc0_scratch0
/-- Views through which the output block's and the counts' contents are stated. -/
abbrev outV : View sig .tc .vmem S1x256x3 .f32 := (Memref.whole cc0_stg1_0 : Memref sig .tc .vmem S1x256x3 .f32).view
abbrev accV : View sig .tc .vmem S3x256 .f32 := accM.view

/-- What the region may use besides its windows: the counts' scratch at some contents and the generator register. -/
theorem scratch_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The three channel planes of the input block

The input block is `[1, 3, 128, 512]`; channel `k`'s plane `[128, 512]` is a slice of it, squeezed. Each plane's
elements are among the block's. -/

/-- Channel 0's plane of the input block, as the body names it. -/
abbrev chan0 (arg2 : Memref sig .tc .vmem S1x3x128x512 .f32) : Memref sig .tc .vmem S128x512 .f32 :=
  (((arg2.slice (Rect.unit (s := S1x3x128x512) ![0, 0, 0, 0] S1x3x128x512.size inb_S1x3x128x512_S1x3x128x512_0_0_0_0) (fun _ => rfl)).squeeze S3x128x512 squeezes_S1x3x128x512_S3x128x512).slice (Rect.unit (s := S3x128x512) ![0, 0, 0] S1x128x512.size inb_S3x128x512_S1x128x512_0_0_0) (fun _ => rfl)).squeeze S128x512 squeezes_S1x128x512_S128x512
/-- Channel 1's plane. -/
abbrev chan1 (arg2 : Memref sig .tc .vmem S1x3x128x512 .f32) : Memref sig .tc .vmem S128x512 .f32 :=
  (((arg2.slice (Rect.unit (s := S1x3x128x512) ![0, 0, 0, 0] S1x3x128x512.size inb_S1x3x128x512_S1x3x128x512_0_0_0_0) (fun _ => rfl)).squeeze S3x128x512 squeezes_S1x3x128x512_S3x128x512).slice (Rect.unit (s := S3x128x512) ![1, 0, 0] S1x128x512.size inb_S3x128x512_S1x128x512_1_0_0) (fun _ => rfl)).squeeze S128x512 squeezes_S1x128x512_S128x512
/-- Channel 2's plane. -/
abbrev chan2 (arg2 : Memref sig .tc .vmem S1x3x128x512 .f32) : Memref sig .tc .vmem S128x512 .f32 :=
  (((arg2.slice (Rect.unit (s := S1x3x128x512) ![0, 0, 0, 0] S1x3x128x512.size inb_S1x3x128x512_S1x3x128x512_0_0_0_0) (fun _ => rfl)).squeeze S3x128x512 squeezes_S1x3x128x512_S3x128x512).slice (Rect.unit (s := S3x128x512) ![2, 0, 0] S1x128x512.size inb_S3x128x512_S1x128x512_2_0_0) (fun _ => rfl)).squeeze S128x512 squeezes_S1x128x512_S128x512

theorem chan0_sub (arg2 : Memref sig .tc .vmem S1x3x128x512 .f32) : (chan0 arg2).view.set ⊆ arg2.view.set := by
  simp only [Memref.view_squeeze, Memref.view_slice, View.set_reshape]
  exact (View.set_slice_subset _ _).trans (by rw [View.set_reshape]; exact View.set_slice_subset _ _)
theorem chan1_sub (arg2 : Memref sig .tc .vmem S1x3x128x512 .f32) : (chan1 arg2).view.set ⊆ arg2.view.set := by
  simp only [Memref.view_squeeze, Memref.view_slice, View.set_reshape]
  exact (View.set_slice_subset _ _).trans (by rw [View.set_reshape]; exact View.set_slice_subset _ _)
theorem chan2_sub (arg2 : Memref sig .tc .vmem S1x3x128x512 .f32) : (chan2 arg2).view.set ⊆ arg2.view.set := by
  simp only [Memref.view_squeeze, Memref.view_slice, View.set_reshape]
  exact (View.set_slice_subset _ _).trans (by rw [View.set_reshape]; exact View.set_slice_subset _ _)

/-! ## Two rearrangements of a separating implication

If `P` splits into `A ∗ B`, a continuation that takes `A` and `B` one after the other takes `P`; and conversely when
`A ∗ B` joins into `P`. -/

theorem wand_of_split {PROP : Type} [BI.BIClass PROP] {P A B Q : PROP} (h : P ⊢ A ∗ B) : (A -∗ B -∗ Q) ⊢ (P -∗ Q) :=
  wand_intro ((sep_mono_right h).trans (sep_assoc.2.trans ((sep_mono_left wand_elim_left).trans wand_elim_left)))

theorem wand_of_join {PROP : Type} [BI.BIClass PROP] {P A B Q : PROP} (h : A ∗ B ⊢ P) : (P -∗ Q) ⊢ (A -∗ B -∗ Q) :=
  wand_intro (wand_intro (sep_assoc.1.trans ((sep_mono_right h).trans wand_elim_left)))

/-! ## Carving a channel plane out of the input block's buffer, and putting it back -/

theorem chan0_split (c : Dev nD) (arg2 : Memref sig .tc .vmem S1x3x128x512 .f32) (g : Buf (Elt F) (arg2.view.loc (c : Thread nD τ))) :
    (View.loc (c : Thread nD τ) arg2.view ↦[arg2.view.set]{fullShare} g : sProp 𝕄) ⊣⊢
      iprop((View.loc (c : Thread nD τ) (chan0 arg2).view ↦[(chan0 arg2).view.set]{fullShare} g) ∗ View.loc (c : Thread nD τ) arg2.view ↦[arg2.view.set \ (chan0 arg2).view.set]{fullShare} g) :=
  pointsTo_split_subset (chan0_sub arg2)
theorem chan1_split (c : Dev nD) (arg2 : Memref sig .tc .vmem S1x3x128x512 .f32) (g : Buf (Elt F) (arg2.view.loc (c : Thread nD τ))) :
    (View.loc (c : Thread nD τ) arg2.view ↦[arg2.view.set]{fullShare} g : sProp 𝕄) ⊣⊢
      iprop((View.loc (c : Thread nD τ) (chan1 arg2).view ↦[(chan1 arg2).view.set]{fullShare} g) ∗ View.loc (c : Thread nD τ) arg2.view ↦[arg2.view.set \ (chan1 arg2).view.set]{fullShare} g) :=
  pointsTo_split_subset (chan1_sub arg2)
theorem chan2_split (c : Dev nD) (arg2 : Memref sig .tc .vmem S1x3x128x512 .f32) (g : Buf (Elt F) (arg2.view.loc (c : Thread nD τ))) :
    (View.loc (c : Thread nD τ) arg2.view ↦[arg2.view.set]{fullShare} g : sProp 𝕄) ⊣⊢
      iprop((View.loc (c : Thread nD τ) (chan2 arg2).view ↦[(chan2 arg2).view.set]{fullShare} g) ∗ View.loc (c : Thread nD τ) arg2.view ↦[arg2.view.set \ (chan2 arg2).view.set]{fullShare} g) :=
  pointsTo_split_subset (chan2_sub arg2)

end Cert.KernelIdeal.Body

end
-- ==== Proof.RunsI.lean ====
/-
  The body at one grid point, in the three situations the grid meets: an image's first tile (the counts are cleared
  first), a middle tile, and the last tile (the counts are normalised and stored into the output block). In each the
  body reads the three channel planes of the input block chunk by chunk, adds each channel's chunk counts to that
  channel's row of the counts, and leaves the input block as it found it. What it leaves in the counts and in the
  output block is recorded as the list of stores it made, latest first.
-/
import proofs.«181129_j85787676770927_2_alg».proof.Proof.PointsI
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- First tile of an image: whatever the counts held, they end at the stores listed (a clearing store of the whole
    array, then one row per channel); the output block is handed back untouched. -/
noncomputable def runFirst (c : Dev nD) (i : grid0.Coords) (arg2 : Memref sig .tc .vmem S1x3x128x512 .f32) (harg2 : arg2.IsWhole) (arg3 : Memref sig .tc .vmem S1x256x3 .f32) (harg3 : arg3.IsWhole) (arg4 : Memref sig .tc .vmem S3x256 .f32) (harg4 : arg4.IsWhole) (hc0 : atFirst i) (hc1 : ¬atLast i)
    (x0 : Vec F S1x3x128x512 .f32) :
    { LS0 : List (View.Piece (Elt F) S3x256 .f32) //
      ∀ (xi1 : Vec F S1x256x3 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, fun xi1 E K => ?run⟩
  case run =>
    simp only [cc0__hist_kernel_eq_skeleton]; unfold cc0__hist_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    irename : (View.loc (c : Thread nD τ) arg2.view ↦[arg2.view.set]{fullShare} _) => G0
    irevert G0; iapply (wand_of_split (chan0_split c arg2 _).1); iintro Hc Hr
    sl_exec (disch := first | exact hc0 | exact hc1)
    irevert Hr; irevert Hc; iapply (wand_of_join (chan0_split c arg2 _).2); iintro G0
    irevert G0; iapply (wand_of_split (chan1_split c arg2 _).1); iintro Hc Hr
    sl_exec (disch := first | exact hc0 | exact hc1)
    irevert Hr; irevert Hc; iapply (wand_of_join (chan1_split c arg2 _).2); iintro G0
    irevert G0; iapply (wand_of_split (chan2_split c arg2 _).1); iintro Hc Hr
    sl_exec (disch := first | exact hc0 | exact hc1)
    irevert Hr; irevert Hc; iapply (wand_of_join (chan2_split c arg2 _).2); iintro G0
    sl_step
    iapply Hk
    isplitl [G0]
    · iexists _; isplitr; · ipureintro; exact harg2.read_unread _
      iexact G0
    isplitl [H1]
    · iexists _; isplitr; · ipureintro; exact harg3.read_unread _
      iexact H1
    iexists _; iexact HS0

set_option maxHeartbeats 4000000 in
/-- A middle tile: the counts, found at `xs0`, end at `xs0` with one row per channel stored over it; the output block
    is handed back untouched. -/
noncomputable def runMid (c : Dev nD) (i : grid0.Coords) (arg2 : Memref sig .tc .vmem S1x3x128x512 .f32) (harg2 : arg2.IsWhole) (arg3 : Memref sig .tc .vmem S1x256x3 .f32) (harg3 : arg3.IsWhole) (arg4 : Memref sig .tc .vmem S3x256 .f32) (harg4 : arg4.IsWhole) (hc0 : ¬atFirst i) (hc1 : ¬atLast i)
    (x0 : Vec F S1x3x128x512 .f32) (xs0 : Vec F S3x256 .f32) :
    { LS0 : List (View.Piece (Elt F) S3x256 .f32) //
      ∀ (xi1 : Vec F S1x256x3 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, fun xi1 E K => ?run⟩
  case run =>
    simp only [cc0__hist_kernel_eq_skeleton]; unfold cc0__hist_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    irename : (View.loc (c : Thread nD τ) arg2.view ↦[arg2.view.set]{fullShare} _) => G0
    irevert G0; iapply (wand_of_split (chan0_split c arg2 _).1); iintro Hc Hr
    sl_exec (disch := first | exact hc0 | exact hc1)
    irevert Hr; irevert Hc; iapply (wand_of_join (chan0_split c arg2 _).2); iintro G0
    irevert G0; iapply (wand_of_split (chan1_split c arg2 _).1); iintro Hc Hr
    sl_exec (disch := first | exact hc0 | exact hc1)
    irevert Hr; irevert Hc; iapply (wand_of_join (chan1_split c arg2 _).2); iintro G0
    irevert G0; iapply (wand_of_split (chan2_split c arg2 _).1); iintro Hc Hr
    sl_exec (disch := first | exact hc0 | exact hc1)
    irevert Hr; irevert Hc; iapply (wand_of_join (chan2_split c arg2 _).2); iintro G0
    sl_step
    iapply Hk
    isplitl [G0]
    · iexists _; isplitr; · ipureintro; exact harg2.read_unread _
      iexact G0
    isplitl [H1]
    · iexists _; isplitr; · ipureintro; exact harg3.read_unread _
      iexact H1
    iexists _; iexact HS0

set_option maxHeartbeats 4000000 in
/-- Last tile of an image: as a middle tile, and then the whole output block is stored (the normalised counts,
    transposed), whatever it held. -/
noncomputable def runLast (c : Dev nD) (i : grid0.Coords) (arg2 : Memref sig .tc .vmem S1x3x128x512 .f32) (harg2 : arg2.IsWhole) (arg3 : Memref sig .tc .vmem S1x256x3 .f32) (harg3 : arg3.IsWhole) (arg4 : Memref sig .tc .vmem S3x256 .f32) (harg4 : arg4.IsWhole) (hc0 : ¬atFirst i) (hc1 : atLast i)
    (x0 : Vec F S1x3x128x512 .f32) (xs0 : Vec F S3x256 .f32) :
    Σ' (L1 : List (View.Piece (Elt F) S1x256x3 .f32)), { LS0 : List (View.Piece (Elt F) S3x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    irename : (View.loc (c : Thread nD τ) arg2.view ↦[arg2.view.set]{fullShare} _) => G0
    irevert G0; iapply (wand_of_split (chan0_split c arg2 _).1); iintro Hc Hr
    sl_exec (disch := first | exact hc0 | exact hc1)
    irevert Hr; irevert Hc; iapply (wand_of_join (chan0_split c arg2 _).2); iintro G0
    irevert G0; iapply (wand_of_split (chan1_split c arg2 _).1); iintro Hc Hr
    sl_exec (disch := first | exact hc0 | exact hc1)
    irevert Hr; irevert Hc; iapply (wand_of_join (chan1_split c arg2 _).2); iintro G0
    irevert G0; iapply (wand_of_split (chan2_split c arg2 _).1); iintro Hc Hr
    sl_exec (disch := first | exact hc0 | exact hc1)
    irevert Hr; irevert Hc; iapply (wand_of_join (chan2_split c arg2 _).2); iintro G0
    sl_step
    iapply Hk
    isplitl [G0]
    · iexists _; isplitr; · ipureintro; exact harg2.read_unread _
      iexact G0
    isplitl [H1]; · iexists _; iexact H1
    iexists _; iexact HS0

end Cert.KernelIdeal.Body

end
-- ==== Proof.FrameI.lean ====
/-
  The frame of the histogram kernel: every execution runs to the end, nothing faults, the image array ends unchanged.

  What the body leaves is followed point by point. After point `n` the counts' scratch holds `(stateAt n).2`: at an
  image's first tile what the clearing run leaves, at later tiles what the run leaves over the previous point's
  counts. The output block's buffer is untouched except at an image's last tile, where it is stored whole:
  `(stateAt n).1` there. Between points the region's invariant is the scratch at those contents; before the very
  first point it is anything, which is all the first tile needs.
-/
import proofs.«181129_j85787676770927_2_alg».proof.Proof.RunsI
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each situation leaves -/

section Leaves
variable (c : Dev nD) (i : grid0.Coords) (arg2 : Memref sig .tc .vmem S1x3x128x512 .f32) (harg2 : arg2.IsWhole) (arg3 : Memref sig .tc .vmem S1x256x3 .f32) (harg3 : arg3.IsWhole) (arg4 : Memref sig .tc .vmem S3x256 .f32) (harg4 : arg4.IsWhole)

/-- The counts after an image's first tile: the run's stores read back (they cover the array, so over anything). -/
def accFirst (hc0 : atFirst i) (hc1 : ¬atLast i) (x0 : Vec F S1x3x128x512 .f32) : Vec F S3x256 .f32 :=
  accV.read (Elt F) (accV.writes (Elt F) accV.junk (runFirst c i arg2 harg2 arg3 harg3 arg4 harg4 hc0 hc1 x0).1)
/-- One of the first tile's stores is the whole array. -/
theorem accFirst_cover (hc0 : atFirst i) (hc1 : ¬atLast i) (x0 : Vec F S1x3x128x512 .f32) (y : S3x256.Idx) :
    ∃ pc ∈ (runFirst c i arg2 harg2 arg3 harg3 arg4 harg4 hc0 hc1 x0).1, y ∈ pc.1.set :=
  View.cover_of_wholeMem _ (by unfold runFirst; sl_whole_mem) y

/-- The counts after a middle tile. -/
def accMid (hc0 : ¬atFirst i) (hc1 : ¬atLast i) (x0 : Vec F S1x3x128x512 .f32) (xs0 : Vec F S3x256 .f32) : Vec F S3x256 .f32 :=
  accV.read (Elt F) (accV.writes (Elt F) accV.junk (runMid c i arg2 harg2 arg3 harg3 arg4 harg4 hc0 hc1 x0 xs0).1)
/-- A middle tile's stores are the three rows: they tile the array. -/
theorem accMid_cover (hc0 : ¬atFirst i) (hc1 : ¬atLast i) (x0 : Vec F S1x3x128x512 .f32) (xs0 : Vec F S3x256 .f32) (y : S3x256.Idx) :
    ∃ pc ∈ (runMid c i arg2 harg2 arg3 harg3 arg4 harg4 hc0 hc1 x0 xs0).1, y ∈ pc.1.set :=
  View.cover_of_tiledL (runMid c i arg2 harg2 arg3 harg3 arg4 harg4 hc0 hc1 x0 xs0).1 S1x256.size (by sl_kernel_rfl) y

/-- The counts after an image's last tile. -/
def accLast (hc0 : ¬atFirst i) (hc1 : atLast i) (x0 : Vec F S1x3x128x512 .f32) (xs0 : Vec F S3x256 .f32) : Vec F S3x256 .f32 :=
  accV.read (Elt F) (accV.writes (Elt F) accV.junk (runLast c i arg2 harg2 arg3 harg3 arg4 harg4 hc0 hc1 x0 xs0).2.1)
theorem accLast_cover (hc0 : ¬atFirst i) (hc1 : atLast i) (x0 : Vec F S1x3x128x512 .f32) (xs0 : Vec F S3x256 .f32) (y : S3x256.Idx) :
    ∃ pc ∈ (runLast c i arg2 harg2 arg3 harg3 arg4 harg4 hc0 hc1 x0 xs0).2.1, y ∈ pc.1.set :=
  View.cover_of_tiledL (runLast c i arg2 harg2 arg3 harg3 arg4 harg4 hc0 hc1 x0 xs0).2.1 S1x256.size (by sl_kernel_rfl) y

/-- The output block after an image's last tile: one store of the whole block. -/
def outLast (hc0 : ¬atFirst i) (hc1 : atLast i) (x0 : Vec F S1x3x128x512 .f32) (xs0 : Vec F S3x256 .f32) : Vec F S1x256x3 .f32 :=
  outV.read (Elt F) (outV.writes (Elt F) outV.junk (runLast c i arg2 harg2 arg3 harg3 arg4 harg4 hc0 hc1 x0 xs0).1)
theorem outLast_cover (hc0 : ¬atFirst i) (hc1 : atLast i) (x0 : Vec F S1x3x128x512 .f32) (xs0 : Vec F S3x256 .f32) (y : S1x256x3.Idx) :
    ∃ pc ∈ (runLast c i arg2 harg2 arg3 harg3 arg4 harg4 hc0 hc1 x0 xs0).1, y ∈ pc.1.set :=
  View.cover_of_tiledL (runLast c i arg2 harg2 arg3 harg3 arg4 harg4 hc0 hc1 x0 xs0).1 S1x256x3.size (by sl_kernel_rfl) y

end Leaves

/-- The output block's buffer at a point that does not store it: nothing consults this value. -/
def outIdle : Vec F S1x256x3 .f32 := outV.read (Elt F) outV.junk

/-! ## Point by point -/

theorem first_of (t : Fin cfg0.N) (h0 : t.val % 4 = 0) : atFirst (grid0.coords t) ∧ ¬atLast (grid0.coords t) :=
  ⟨(atFirst_iff t).mpr h0, fun h => by have := (atLast_iff t).mp h; omega⟩
theorem mid_of (t : Fin cfg0.N) (h0 : ¬t.val % 4 = 0) (h1 : ¬t.val % 4 = 3) : ¬atFirst (grid0.coords t) ∧ ¬atLast (grid0.coords t) :=
  ⟨fun h => h0 ((atFirst_iff t).mp h), fun h => h1 ((atLast_iff t).mp h)⟩
theorem last_of (t : Fin cfg0.N) (h0 : ¬t.val % 4 = 0) (h1 : t.val % 4 = 3) : ¬atFirst (grid0.coords t) ∧ atLast (grid0.coords t) :=
  ⟨fun h => h0 ((atFirst_iff t).mp h), (atLast_iff t).mpr h1⟩

/-- The output block's buffer and the counts after the body at position `n`. -/
def stateAt (c : Dev nD) : (n : ℕ) → n < cfg0.N → Vec F S1x256x3 .f32 × Vec F S3x256 .f32
  | 0, hn => (outIdle, accFirst c (grid0.coords ⟨0, hn⟩) (inM ⟨0, hn⟩) (inW ⟨0, hn⟩) (outM ⟨0, hn⟩) (outW ⟨0, hn⟩) accM (Memref.isWhole_whole _) (first_of ⟨0, hn⟩ (Nat.zero_mod _)).1 (first_of ⟨0, hn⟩ (Nat.zero_mod _)).2 (iblk m c 0 ⟨0, hn⟩))
  | n + 1, hn =>
    if h0 : (n + 1) % 4 = 0 then
      (outIdle, accFirst c (grid0.coords ⟨n + 1, hn⟩) (inM ⟨n + 1, hn⟩) (inW ⟨n + 1, hn⟩) (outM ⟨n + 1, hn⟩) (outW ⟨n + 1, hn⟩) accM (Memref.isWhole_whole _) (first_of ⟨n + 1, hn⟩ h0).1 (first_of ⟨n + 1, hn⟩ h0).2 (iblk m c 0 ⟨n + 1, hn⟩))
    else if h1 : (n + 1) % 4 = 3 then
      (outLast c (grid0.coords ⟨n + 1, hn⟩) (inM ⟨n + 1, hn⟩) (inW ⟨n + 1, hn⟩) (outM ⟨n + 1, hn⟩) (outW ⟨n + 1, hn⟩) accM (Memref.isWhole_whole _) (last_of ⟨n + 1, hn⟩ h0 h1).1 (last_of ⟨n + 1, hn⟩ h0 h1).2 (iblk m c 0 ⟨n + 1, hn⟩) (stateAt c n (Nat.lt_of_succ_lt hn)).2,
       accLast c (grid0.coords ⟨n + 1, hn⟩) (inM ⟨n + 1, hn⟩) (inW ⟨n + 1, hn⟩) (outM ⟨n + 1, hn⟩) (outW ⟨n + 1, hn⟩) accM (Memref.isWhole_whole _) (last_of ⟨n + 1, hn⟩ h0 h1).1 (last_of ⟨n + 1, hn⟩ h0 h1).2 (iblk m c 0 ⟨n + 1, hn⟩) (stateAt c n (Nat.lt_of_succ_lt hn)).2)
    else
      (outIdle, accMid c (grid0.coords ⟨n + 1, hn⟩) (inM ⟨n + 1, hn⟩) (inW ⟨n + 1, hn⟩) (outM ⟨n + 1, hn⟩) (outW ⟨n + 1, hn⟩) accM (Memref.isWhole_whole _) (mid_of ⟨n + 1, hn⟩ h0 h1).1 (mid_of ⟨n + 1, hn⟩ h0 h1).2 (iblk m c 0 ⟨n + 1, hn⟩) (stateAt c n (Nat.lt_of_succ_lt hn)).2)

theorem stateAt_first (c : Dev nD) (t : Fin cfg0.N) (h0 : t.val % 4 = 0) :
    stateAt m c t.val t.isLt = (outIdle, accFirst c (grid0.coords t) (inM t) (inW t) (outM t) (outW t) accM (Memref.isWhole_whole _) (first_of t h0).1 (first_of t h0).2 (iblk m c 0 t)) := by
  obtain ⟨n, hn⟩ := t
  cases n with
  | zero => exact rfl
  | succ n => exact (dif_pos h0).trans rfl

theorem stateAt_mid (c : Dev nD) (t : Fin cfg0.N) (h0 : ¬t.val % 4 = 0) (h1 : ¬t.val % 4 = 3) :
    stateAt m c t.val t.isLt = (outIdle, accMid c (grid0.coords t) (inM t) (inW t) (outM t) (outW t) accM (Memref.isWhole_whole _) (mid_of t h0 h1).1 (mid_of t h0 h1).2 (iblk m c 0 t) (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem stateAt_last (c : Dev nD) (t : Fin cfg0.N) (h0 : ¬t.val % 4 = 0) (h1 : t.val % 4 = 3) :
    stateAt m c t.val t.isLt = (outLast c (grid0.coords t) (inM t) (inW t) (outM t) (outW t) accM (Memref.isWhole_whole _) (last_of t h0 h1).1 (last_of t h0 h1).2 (iblk m c 0 t) (stateAt m c (t.val - 1) (Nat.lt_of_le_of_lt (Nat.sub_le _ _) t.isLt)).2,
      accLast c (grid0.coords t) (inM t) (inW t) (outM t) (outW t) accM (Memref.isWhole_whole _) (last_of t h0 h1).1 (last_of t h0 h1).2 (iblk m c 0 t) (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region's invariant before position `n`: anything in the scratch before the first point, afterwards the counts
    the point before left; and the generator register at some state. -/
def inv (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) accM fullShare ((stateAt m c n hn).2)) ∗ (∃ r, prngReg c r)) := rfl
theorem inv_pos (c : Dev nD) (n : ℕ) (h : n ≤ cfg0.N) (hz : n ≠ 0) :
    inv m c n h = iprop(iprop(owns (c : Thread nD τ) accM fullShare ((stateAt m c (n - 1) (by omega)).2)) ∗ (∃ r, prngReg c r)) := by
  cases n with
  | zero => exact absurd rfl hz
  | succ n => rfl

/-! ## The proof data -/

/-- The arrays as the region finds them; after the body the input's buffer at its block and the output's at
    `stateAt`; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (stateAt m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; simp only [Fin.coe_castSucc]
theorem after_in (c : Dev nD) (t : Fin cfg0.N) : (dats m 0 c).after 0 t = iblk m c 0 t := by dsimp only [dats]
theorem after_out (c : Dev nD) (t : Fin cfg0.N) : (dats m 0 c).after 1 t = (stateAt m c t.val t.isLt).1 := by dsimp only [dats]
/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (inM t) fullShare ((dats m 0 c).before 0 t d))
    ∗ (∃ d, owns (c : Thread nD τ) (outM t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: which situation it is in is decided by the point's position modulo 4. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = inv m c (t.val + 1) t.isLt from rfl, inv_succ]
  have hN : t.val < 128 := lt_of_lt_of_eq t.isLt (show cfg0.N = 128 from N_0)
  rw [show (dats m 0 c).leavesExact 0 t = owns (c : Thread nD τ) (inM t) fullShare ((dats m 0 c).after 0 t) from by
    unfold Dat.leavesExact; rw [live_in t], after_in]
  by_cases h0 : t.val % 4 = 0
  · rw [Dat.leavesExact_idle (dats m 0 c) 1 t (idle_out t (first_of t h0).2) (noFlush_out t (first_of t h0).2)]
    rw [stateAt_first m c t h0]
    unfold accFirst; (try dsimp only)
    by_cases hz : t.val = 0
    · rw [inv_castSucc m c t, inv_zero m c _ _ hz, scratch_eq]
      iintro ⟨⟨HS0, Hg⟩, Ho, ⟨%d0, H0⟩, ⟨%d1, H1⟩⟩
      iapply ((runFirst c (grid0.coords t) _ _ _ _ _ _ (first_of t h0).1 (first_of t h0).2 (iblk m c 0 t)).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (accFirst_cover c _ _ _ _ _ _ _ _ _ _)
        iexact Hg
      isplitl [Ho]; · iexact Ho
      isplitl [H0]; · iexact H0
      iexists _; iexact H1
    · rw [inv_castSucc m c t, inv_pos m c _ _ hz]
      iintro ⟨⟨HS0, Hg⟩, Ho, ⟨%d0, H0⟩, ⟨%d1, H1⟩⟩
      iapply ((runFirst c (grid0.coords t) _ _ _ _ _ _ (first_of t h0).1 (first_of t h0).2 (iblk m c 0 t)).2 _ Set.univ _)
      isplitl [H0]; · iexact H0
      isplitl [H1]; · iexact H1
      isplitl [HS0]; · iexists _; iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (accFirst_cover c _ _ _ _ _ _ _ _ _ _)
        iexact Hg
      isplitl [Ho]; · iexact Ho
      isplitl [H0]; · iexact H0
      iexists _; iexact H1
  · have hz : t.val ≠ 0 := fun h => h0 (by rw [h])
    by_cases h1 : t.val % 4 = 3
    · rw [show (dats m 0 c).leavesExact 1 t = owns (c : Thread nD τ) (outM t) fullShare ((dats m 0 c).after 1 t) from by
        unfold Dat.leavesExact; rw [live_out t (last_of t h0 h1).2], after_out]
      rw [stateAt_last m c t h0 h1]
      unfold outLast accLast; (try dsimp only)
      rw [inv_castSucc m c t, inv_pos m c _ _ hz]
      iintro ⟨⟨HS0, Hg⟩, Ho, ⟨%d0, H0⟩, ⟨%d1, H1⟩⟩
      iapply ((runLast c (grid0.coords t) _ _ _ _ _ _ (last_of t h0 h1).1 (last_of t h0 h1).2 (iblk m c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (accLast_cover c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (outLast_cover c _ _ _ _ _ _ _ _ _ _ _)
    · rw [Dat.leavesExact_idle (dats m 0 c) 1 t (idle_out t (mid_of t h0 h1).2) (noFlush_out t (mid_of t h0 h1).2)]
      rw [stateAt_mid m c t h0 h1]
      unfold accMid; (try dsimp only)
      rw [inv_castSucc m c t, inv_pos m c _ _ hz]
      iintro ⟨⟨HS0, Hg⟩, Ho, ⟨%d0, H0⟩, ⟨%d1, H1⟩⟩
      iapply ((runMid c (grid0.coords t) _ _ _ _ _ _ (mid_of t h0 h1).1 (mid_of t h0 h1).2 (iblk m c 0 t) _).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (accMid_cover c _ _ _ _ _ _ _ _ _ _ _)
        iexact Hg
      isplitl [Ho]; · iexact Ho
      isplitl [H0]; · iexact H0
      iexists _; iexact H1

theorem body_obligation (c : Dev nD) : BodyObligation (dats (F := F) m 0 c) (defs₀ (F := F)) Variants.none () Set.univ := fun t => by
  rw [bigSep_W0, bigSep_W0]
  exact sound_body m c t

theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) : (dats m 0 c).Φ (Fin.last cfg0.N) ⊢ Pipeline.ΦA spec0 c := by
  have hne : (Fin.last cfg0.N).val ≠ 0 := by rw [Fin.val_last]; have : cfg0.N = 128 := N_0; omega
  rw [show (dats m 0 c).Φ (Fin.last cfg0.N) = inv m c (Fin.last cfg0.N).val (Nat.le_of_lt_succ (Fin.last cfg0.N).isLt) from rfl, inv_pos m c _ _ hne, scratch_eq]
  iintro ⟨HS0, Hg⟩
  isplitl [HS0]
  · iexists _; iexact HS0
  iexact Hg

/-! ## The run and the frame -/

set_option backward.isDefEq.respectTransparency.types false in
/-- Every weakly fair execution terminates, and every array of the pipeline ends at what the proof data computes. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := inv_in m) (hout := inv_out m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.HistSpec.lean ====
/-
  The normalised histogram both programs compute, as ONE function of the image array, index by index, on the
  extended reals.

  A pixel value `x` falls in bin `binOf x`: the quotient of `x` by the bin width (the binary32 value nearest 1/257),
  rounded down, clamped to `[0, 256]` and read as a 32-bit integer. For image `b`, channel `c` and `k < 256`,
  `count X b c k` is the number of pixels `(h, w)` of that image and channel whose bin is `k + 1` (bin 0 is never
  counted), a sum of ones and zeros over the 512 × 512 pixels. The result at `(b, k, c)` is that count divided by the
  larger of the channel's total count and the constant `1e-7`.
-/
import Idealize.ShloMosaic.PureOps.Ideal
import Idealize.ShloMosaic.Lib.ValueIdx

noncomputable section

open scoped BigOperators

namespace Cert.HistSpec

open Idealize.ShloMosaic Idealize.ShloMosaic.ValueIdx

/-- The image array's shape `[32, 512, 512, 3]` (image, row, column, channel). -/
abbrev SX : Shape := ⟨4, ![32, 512, 512, 3]⟩
/-- The result's shape `[32, 256, 3]` (image, bin, channel). -/
abbrev SO : Shape := ⟨3, ![32, 256, 3]⟩

/-- The bin width: the binary32 value nearest 1/257. -/
def width : EReal := Ideal.ofBits .f32 0x3B7F00FF#32
/-- The floor under a channel's total count: the binary32 value nearest 1e-7. -/
def eps : EReal := Ideal.ofBits .f32 0x33D6BF95#32

/-- The bin of a pixel value: `⌊x / width⌋` clamped to `[0, 256]`, as a 32-bit integer. -/
def binOf (x : EReal) : BitVec 32 :=
  FloatOps.fptosi (F := Ideal) (φ := .f32) 32
    (min (((256#32 : BitVec 32).toInt : ℝ) : EReal)
      (max (((0#32 : BitVec 32).toInt : ℝ) : EReal) (Ideal.liftRound Int.floor (Ideal.div x width))))

/-- One pixel's contribution to bin `j`: one if its bin is `j`, else zero. -/
def hit (x : EReal) (j : BitVec 32) : EReal := if binOf x = j then 1 else 0

/-- The bin that result row `k` counts: `k + 1`. -/
def target (k : Fin 256) : BitVec 32 := BitVec.ofNat 32 (k.val + 1)

/-- How many pixels of image `b`, channel `c` fall in bin `k + 1`. -/
def count (X : SX.Idx → EReal) (b : Fin 32) (c : Fin 3) (k : Fin 256) : EReal :=
  ∑ h : Fin 512, ∑ w : Fin 512, hit (X (ix4 b h w c)) (target k)

/-- The normalised histogram at `(b, k, c)`. -/
def G (X : SX.Idx → EReal) : SO.Idx → EReal := fun i =>
  Ideal.div (count X (i 0) (i 2) (i 1)) (max (∑ k : Fin 256, count X (i 0) (i 2) k) eps)

theorem G_apply (X : SX.Idx → EReal) (b : Fin 32) (k : Fin 256) (c : Fin 3) :
    G X (ix3 b k c) = Ideal.div (count X b c k) (max (∑ k' : Fin 256, count X b c k') eps) := rfl

end Cert.HistSpec

end
-- ==== Proof.KernelPay.lean ====
/-
  The kernel's arithmetic, value by value, on the extended reals.

  The kernel walks each channel's 512 rows in chunks of 8 rows. For a chunk it computes every entry's bin (the entry
  divided by the bin width, rounded down, clamped to [0, 256], as a 32-bit integer), compares the bins with the 256 words
  "lane number plus one", turns each comparison into a one or a zero, and sums the ones over the chunk's 8 rows and then
  over its 512 columns; that sum is added to the running count. This file reads each of those pure values at an index:
  one trip adds the chunk's hits (`pay1_apply` and its three instances), the stores around the loops are plain sums and
  zero fills, and the last step divides each count by the larger of its channel's total and a small constant and
  transposes bins against channels (`pay3_apply`). The last lemma regroups a sum over 512 rows as 4 blocks of 16 chunks
  of 8 rows.
-/
import proofs.«181129_j85787676770927_2_alg».proof.Proof.Gen.KernelIdeal.Skeleton
import proofs.«181129_j85787676770927_2_alg».proof.Proof.HistSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.HistSpec

/-! ## Layout operations of this kernel's shapes, read at an index given by coordinates -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A column `[a, 1]` broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## Sums over one axis, read at an index given by coordinates -/

/-- The sum of an `[a, b, c]` array over its leading axis, at `(j, k)`: the sum over `i` of the entries `(i, j, k)`. -/
theorem sumLead3_apply {a b c : ℕ} (v : FVec Ideal ⟨3, ![a, b, c]⟩ .f32)
    (h : (⟨3, ![a, b, c]⟩ : Shape).Reduces [0] ⟨2, ![b, c]⟩) (hφ : FKind.Formats .f32)
    (hacc : (0x00000000#32 : BitVec 32) = FKind.add.neutral .f32 hφ) (j : Fin b) (k : Fin c) :
    multiReduction (F := Ideal) .add [0] ⟨2, ![b, c]⟩ v 0x00000000#32 h hφ hacc (ix2 j k) = ∑ i : Fin a, v (ix3 i j k) :=
  (Ideal.multiReduction_add_single v _ h hφ hacc (ix2 j k)).trans
    (Finset.sum_congr rfl fun i _ => congrArg v (funext fun ax => Fin.ext (by
      match ax with
      | ⟨0, _⟩ => rfl
      | ⟨1, _⟩ => rfl
      | ⟨2, _⟩ => rfl)))

/-- The sum of an `[a, b]` array over its leading axis, at `k`: the sum over `i` of the entries `(i, k)`. -/
theorem sumLead2_apply {a b : ℕ} (v : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (k : Fin b) :
    multiReduction (F := Ideal) .add [0] ⟨1, ![b]⟩ v 0x00000000#32 h hφ hacc (ix1 k) = ∑ i : Fin a, v (ix2 i k) :=
  (Ideal.multiReduction_add_single v _ h hφ hacc (ix1 k)).trans
    (Finset.sum_congr rfl fun i _ => congrArg v (funext fun ax => Fin.ext (by
      match ax with
      | ⟨0, _⟩ => rfl
      | ⟨1, _⟩ => rfl)))

/-- The sum of an `[a, b]` array over its trailing axis, at `i`: the sum over `k` of the entries `(i, k)`. -/
theorem sumTrail2_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction (F := Ideal) .add [1] ⟨1, ![a]⟩ v 0x00000000#32 h hφ hacc (ix1 i) = ∑ k : Fin b, v (ix2 i k) :=
  (Ideal.multiReduction_add_single v _ h hφ hacc (ix1 i)).trans
    (Finset.sum_congr rfl fun k _ => congrArg v (funext fun ax => Fin.ext (by
      match ax with
      | ⟨0, _⟩ => rfl
      | ⟨1, _⟩ => rfl)))

/-! ## One pixel against one bin -/

/-- Comparing two 32-bit words for equality, widening the one-bit answer and converting it to a float gives one where
    the words are equal and zero where they differ. -/
theorem eqFlag_eq (a j : BitVec 32) :
    (FloatOps.sitofp (F := Ideal) .f32 ((IntOp.cmpi .eq a j).setWidth 32) : EReal) = if a = j then 1 else 0 := by
  show (((((IntOp.cmpi .eq a j).setWidth 32).toInt : ℤ) : ℝ) : EReal) = _
  by_cases h : a = j
  · rw [if_pos h]
    have e : IntOp.cmpi .eq a j = 1#1 := by
      show BitVec.ofBool (a == j) = 1#1
      rw [beq_iff_eq.mpr h]; rfl
    rw [e]
    have : ((1#1 : BitVec 1).setWidth 32).toInt = 1 := by decide
    rw [this]; simp
  · rw [if_neg h]
    have e : IntOp.cmpi .eq a j = 0#1 := by
      show BitVec.ofBool (a == j) = 0#1
      rw [beq_eq_false_iff_ne.mpr h]; rfl
    rw [e]
    have : ((0#1 : BitVec 1).setWidth 32).toInt = 0 := by decide
    rw [this]; simp

/-! ## One trip of a channel's loop -/

/-- One trip adds, to the running count of every bin, the number of entries of the 8 × 512 chunk that fall in it; the bin
    that lane `k` counts is whatever word the comparison vector holds at `k`. -/
theorem pay1_apply (v5 : IVec S1x1x256 32) (acc : FVec Ideal S1x256 .f32) (v40 : Vec Ideal S8x512 .f32) (k : Fin 256) :
    k0_pay1 (F := Ideal) v5 acc v40 (ix2 (0 : Fin 1) k)
      = acc (ix2 (0 : Fin 1) k) + ∑ r : Fin 8, ∑ w : Fin 512, hit (v40 (ix2 r w)) (v5 (ix3 (0 : Fin 1) (0 : Fin 1) k)) := by
  unfold k0_pay1
  refine congrArg (acc (ix2 (0 : Fin 1) k) + ·) ?_
  refine (shapeCast_a_1a_apply _ _ (0 : Fin 1) k).trans ?_
  refine (sumLead2_apply _ _ _ _ k).trans ?_
  refine (Finset.sum_congr rfl fun w _ => sumLead3_apply _ _ _ _ w k).trans ?_
  refine Finset.sum_comm.trans ?_
  refine Finset.sum_congr rfl fun r _ => Finset.sum_congr rfl fun w _ => ?_
  show FloatOps.sitofp (F := Ideal) .f32 ((IntOp.cmpi .eq (broadcastTo S8x512x256 _ _ (ix3 r w k))
      (broadcastTo S8x512x256 v5 _ (ix3 r w k))).setWidth 32) = _
  rw [broadcastTo_ab1_abc_apply, broadcastTo_11c_abc_apply, shapeCast_ab_ab1_apply, eqFlag_eq]
  rw [shapeCast_self]
  rfl

/-- The comparison vector the kernel builds once, lane numbers plus one, holds at lane `k` the bin that lane counts. -/
theorem pay5_apply (k : Fin 256) : k0_pay5 (ix3 (0 : Fin 1) (0 : Fin 1) k) = target k := by
  unfold k0_pay5
  show IntOp.addi (iota .tc S1x1x256 32 [2] _ (ix3 (0 : Fin 1) (0 : Fin 1) k)) 1#32 = _
  rw [iota_single_apply]
  show BitVec.ofNat 32 k.val + 1#32 = BitVec.ofNat 32 (k.val + 1)
  rw [BitVec.ofNat_add]

/-- One trip of the first channel's loop adds the chunk's hits to every bin's running count. -/
theorem pay7_apply (acc : FVec Ideal S1x256 .f32) (v40 : Vec Ideal S8x512 .f32) (k : Fin 256) :
    k0_pay7 (F := Ideal) acc v40 (ix2 (0 : Fin 1) k)
      = acc (ix2 (0 : Fin 1) k) + ∑ r : Fin 8, ∑ w : Fin 512, hit (v40 (ix2 r w)) (target k) :=
  (pay1_apply k0_pay5 acc v40 k).trans (by rw [pay5_apply])

/-- One trip of the second channel's loop does the same. -/
theorem pay10_apply (acc : FVec Ideal S1x256 .f32) (v40 : Vec Ideal S8x512 .f32) (k : Fin 256) :
    k0_pay10 (F := Ideal) acc v40 (ix2 (0 : Fin 1) k)
      = acc (ix2 (0 : Fin 1) k) + ∑ r : Fin 8, ∑ w : Fin 512, hit (v40 (ix2 r w)) (target k) :=
  (pay1_apply k0_pay5 acc v40 k).trans (by rw [pay5_apply])

/-- One trip of the third channel's loop, which is handed the comparison vector, does the same. -/
theorem pay1_pay5_apply (acc : FVec Ideal S1x256 .f32) (v40 : Vec Ideal S8x512 .f32) (k : Fin 256) :
    k0_pay1 (F := Ideal) k0_pay5 acc v40 (ix2 (0 : Fin 1) k)
      = acc (ix2 (0 : Fin 1) k) + ∑ r : Fin 8, ∑ w : Fin 512, hit (v40 (ix2 r w)) (target k) :=
  (pay1_apply k0_pay5 acc v40 k).trans (by rw [pay5_apply])

/-! ## The stores around the loops -/

/-- What is stored back after the first channel's loop: the scratch row plus the loop's counts. -/
theorem pay8_apply (v8 : FVec Ideal S1x256 .f32) (v9 : Vec Ideal S1x256 .f32) (j : S1x256.Idx) :
    k0_pay8 (F := Ideal) v8 v9 j = v9 j + v8 j := by
  unfold k0_pay8
  rw [shapeCast_self]
  rfl

/-- The same after the second channel's loop. -/
theorem pay11_apply (v16 : FVec Ideal S1x256 .f32) (v17 : Vec Ideal S1x256 .f32) (j : S1x256.Idx) :
    k0_pay11 (F := Ideal) v16 v17 j = v17 j + v16 j := by
  unfold k0_pay11
  rw [shapeCast_self]
  rfl

/-- The same after the third channel's loop. -/
theorem pay2_apply (v24 : FVec Ideal S1x256 .f32) (v25 : Vec Ideal S1x256 .f32) (j : S1x256.Idx) :
    k0_pay2 (F := Ideal) v24 v25 j = v25 j + v24 j := by
  unfold k0_pay2
  rw [shapeCast_self]
  rfl

/-- The scratch is cleared to zero at an image's first grid point. -/
theorem pay4_apply (j : S3x256.Idx) : k0_pay4 (F := Ideal) j = 0 := by
  unfold k0_pay4
  rw [shapeCast_self]
  exact Ideal.ofBits_zero_f32

/-- Each channel's loop starts from zero counts. -/
theorem pay6_apply (j : S1x256.Idx) : k0_pay6 (F := Ideal) j = 0 := by
  unfold k0_pay6
  exact Ideal.ofBits_zero_f32

theorem pay9_apply (j : S1x256.Idx) : k0_pay9 (F := Ideal) j = 0 := by
  unfold k0_pay9
  exact Ideal.ofBits_zero_f32

theorem pay12_apply (j : S1x256.Idx) : k0_pay12 (F := Ideal) j = 0 := by
  unfold k0_pay12
  exact Ideal.ofBits_zero_f32

/-! ## The normalisation and the transpose -/

/-- The result block at `(0, k, c)`: the count of channel `c`, bin `k`, divided by the larger of channel `c`'s total
    count and the small constant. -/
theorem pay3_apply (v33 : Vec Ideal S3x256 .f32) (k : Fin 256) (c : Fin 3) :
    k0_pay3 (F := Ideal) v33 (ix3 (0 : Fin 1) k c)
      = Ideal.div (v33 (ix2 c k)) (max (∑ k' : Fin 256, v33 (ix2 c k')) eps) := by
  unfold k0_pay3
  refine (shapeCast_ab_1ab_apply _ _ (0 : Fin 1) k c).trans ?_
  refine (transpose_ix2_apply _ _ k c).trans ?_
  show Ideal.div (v33 (ix2 c k)) (broadcastTo S3x256 _ _ (ix2 c k)) = _
  rw [broadcastTo_a1_ab_apply]
  show Ideal.div (v33 (ix2 c k)) (max (shapeCast S3x1 _ _ (ix2 c (0 : Fin 1))) (Ideal.ofBits .f32 0x33D6BF95#32)) = _
  rw [shapeCast_a_a1_apply]
  refine congrArg (fun s => Ideal.div (v33 (ix2 c k)) (max s eps)) ?_
  exact sumTrail2_apply _ _ _ _ c

/-! ## 512 rows as 4 blocks of 16 chunks of 8 rows -/

/-- Row `h` of 512 is row `r` of chunk `s` of block `t` exactly when `h = 128 t + 8 s + r`. -/
def rowEquiv : Fin 4 × Fin 16 × Fin 8 ≃ Fin 512 where
  toFun q := ⟨q.1.val * 128 + q.2.1.val * 8 + q.2.2.val, by omega⟩
  invFun h := (⟨h.val / 128, by omega⟩, ⟨h.val % 128 / 8, by omega⟩, ⟨h.val % 8, by omega⟩)
  left_inv := by
    rintro ⟨t, s, r⟩
    refine Prod.ext (Fin.ext ?_) (Prod.ext (Fin.ext ?_) (Fin.ext ?_))
    · show (t.val * 128 + s.val * 8 + r.val) / 128 = t.val
      omega
    · show (t.val * 128 + s.val * 8 + r.val) % 128 / 8 = s.val
      omega
    · show (t.val * 128 + s.val * 8 + r.val) % 8 = r.val
      omega
  right_inv := by
    intro h
    refine Fin.ext ?_
    show h.val / 128 * 128 + h.val % 128 / 8 * 8 + h.val % 8 = h.val
    omega

/-- A sum over the 512 rows, taken block by block, chunk by chunk and row by row. -/
theorem sum_rows_regroup {M : Type*} [AddCommMonoid M] (f : Fin 512 → M) :
    ∑ t : Fin 4, ∑ s : Fin 16, ∑ r : Fin 8, f ⟨t.val * 128 + s.val * 8 + r.val, by omega⟩ = ∑ h : Fin 512, f h := by
  rw [← Equiv.sum_comp rowEquiv f, Fintype.sum_prod_type]
  refine Finset.sum_congr rfl fun t _ => ?_
  rw [Fintype.sum_prod_type]
  rfl

end Cert.KernelIdeal.Pay

end
-- ==== Proof.CountsI.lean ====
/-
  What the body's stores leave in the counts and in the output block, read at a channel and a bin.

  The counts are a `[3, 256]` array, one row per channel. Each tile's run stores the three rows one after the other,
  row `ch` being what it held before plus what channel `ch`'s loop yields; the first tile of an image clears the whole
  array first, and the last tile then stores the whole output block, the counts normalised row by row and transposed.
-/
import proofs.«181129_j85787676770927_2_alg».proof.Proof.FrameI
import proofs.«181129_j85787676770927_2_alg».proof.Proof.KernelPay
import Idealize.ShloMosaic.Lib.Pipeline.Value
set_option maxRecDepth 16384

noncomputable section

namespace Cert.KernelIdeal.HistValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Body Idealize.ShloMosaic.ValueIdx Cert.HistSpec

/-- The latest store read at one of its own indices: its payload there. -/
theorem canon_cons_idx {s : Shape} {e : EltTy} (r : Rect s) (w : r.shape.Idx → Elt Ideal e) (L : List (View.Piece (Elt Ideal) s e)) (x : r.shape.Idx) :
    View.canon ((⟨r, w⟩ : View.Piece (Elt Ideal) s e) :: L) (r.idx x) = w x := View.canon_cons_emb r w L x

/-! ## The rows of the counts array -/

theorem row0_idx (inb) (x : S1x256.Idx) : (Rect.unit (s := S3x256) ![0, 0] S1x256.size inb).idx x = ix2 (0 : Fin 3) (x 1) := by
  funext a
  match a with
  | ⟨0, _⟩ =>
    apply Fin.ext
    have h0 : (x 0).val = 0 := by have : (x 0).val < 1 := (x 0).isLt; omega
    show 0 + 1 * (x 0).val = 0; omega
  | ⟨1, _⟩ =>
    apply Fin.ext
    show 0 + 1 * (x 1).val = (x 1).val; omega

theorem row0_mem (inb) (y : S3x256.Idx) : y ∈ (Rect.unit (s := S3x256) ![0, 0] S1x256.size inb).set ↔ (y 0).val = 0 := by
  rw [Rect.mem_set_unit]
  constructor
  · intro h; have := h 0; simp at this; omega
  · intro h a
    match a with
    | ⟨0, _⟩ => simp; omega
    | ⟨1, _⟩ => simp; exact (y 1).isLt

/-- The latest store was row 0: at `(0, k)` its payload at `k`. -/
theorem canon_hit0 (inb) (w : S1x256.Idx → EReal) (L : List (View.Piece (Elt Ideal) S3x256 .f32)) (k : Fin 256) :
    View.canon ((⟨Rect.unit (s := S3x256) ![0, 0] S1x256.size inb, w⟩ : View.Piece (Elt Ideal) S3x256 .f32) :: L) (ix2 (0 : Fin 3) k) = w (ix2 0 k) := by
  have e : (Rect.unit (s := S3x256) ![0, 0] S1x256.size inb).idx (ix2 0 k) = (ix2 (0 : Fin 3) k : S3x256.Idx) := row0_idx inb (ix2 0 k)
  exact (congrArg (View.canon _) e.symm).trans (canon_cons_idx (Rect.unit (s := S3x256) ![0, 0] S1x256.size inb) w L (ix2 0 k))

/-- Off row 0, a store of row 0 is not seen. -/
theorem canon_miss0 (inb) (w : S1x256.Idx → EReal) (L : List (View.Piece (Elt Ideal) S3x256 .f32)) (y : S3x256.Idx) (h : (y 0).val ≠ 0) :
    View.canon ((⟨Rect.unit (s := S3x256) ![0, 0] S1x256.size inb, w⟩ : View.Piece (Elt Ideal) S3x256 .f32) :: L) y = View.canon L y := by
  have hn : y ∉ (Rect.unit (s := S3x256) ![0, 0] S1x256.size inb).set := fun hm => h ((row0_mem inb y).mp hm)
  exact View.canon_cons_of_not_mem (⟨Rect.unit (s := S3x256) ![0, 0] S1x256.size inb, w⟩ : View.Piece (Elt Ideal) S3x256 .f32) L hn

/-- A load of row 0 of contents that read `xs`. -/
theorem readAt_row0 (arg4 : Memref sig .tc .vmem S3x256 .f32) (harg4 : arg4.IsWhole) (inb) (xs : Vec Ideal S3x256 .f32) (k : Fin 256) :
    View.readAt (Elt Ideal) arg4.view (Rect.unit (s := S3x256) ![0, 0] S1x256.size inb).toLoadRect (harg4.unread xs) (ix2 0 k) = xs (ix2 (0 : Fin 3) k) := by
  rw [View.readAt_eq_ld, harg4.read_unread]
  show xs ((Rect.unit (s := S3x256) ![0, 0] S1x256.size inb).idx (ix2 0 k)) = _
  rw [row0_idx]; rfl

/-- A load of row 0 after the stores `L`. -/
theorem readCov_row0 (v : View sig .tc .vmem S3x256 .f32) (L : List (View.Piece (Elt Ideal) S3x256 .f32)) (inb) (k : Fin 256) :
    v.readCov L (Rect.unit (s := S3x256) ![0, 0] S1x256.size inb).toLoadRect (ix2 0 k) = View.canon L (ix2 (0 : Fin 3) k) := by
  have e : (ix2 (0 : Fin 3) k : S3x256.Idx) = (Rect.unit (s := S3x256) ![0, 0] S1x256.size inb).idx (ix2 0 k) := (row0_idx inb (ix2 0 k)).symm
  rw [e]; exact View.read_writes_junk_apply_eq_canon v _ L

theorem row1_idx (inb) (x : S1x256.Idx) : (Rect.unit (s := S3x256) ![1, 0] S1x256.size inb).idx x = ix2 (1 : Fin 3) (x 1) := by
  funext a
  match a with
  | ⟨0, _⟩ =>
    apply Fin.ext
    have h0 : (x 0).val = 0 := by have : (x 0).val < 1 := (x 0).isLt; omega
    show 1 + 1 * (x 0).val = 1; omega
  | ⟨1, _⟩ =>
    apply Fin.ext
    show 0 + 1 * (x 1).val = (x 1).val; omega

theorem row1_mem (inb) (y : S3x256.Idx) : y ∈ (Rect.unit (s := S3x256) ![1, 0] S1x256.size inb).set ↔ (y 0).val = 1 := by
  rw [Rect.mem_set_unit]
  constructor
  · intro h; have := h 0; simp at this; omega
  · intro h a
    match a with
    | ⟨0, _⟩ => simp; omega
    | ⟨1, _⟩ => simp; exact (y 1).isLt

/-- The latest store was row 1: at `(1, k)` its payload at `k`. -/
theorem canon_hit1 (inb) (w : S1x256.Idx → EReal) (L : List (View.Piece (Elt Ideal) S3x256 .f32)) (k : Fin 256) :
    View.canon ((⟨Rect.unit (s := S3x256) ![1, 0] S1x256.size inb, w⟩ : View.Piece (Elt Ideal) S3x256 .f32) :: L) (ix2 (1 : Fin 3) k) = w (ix2 0 k) := by
  have e : (Rect.unit (s := S3x256) ![1, 0] S1x256.size inb).idx (ix2 0 k) = (ix2 (1 : Fin 3) k : S3x256.Idx) := row1_idx inb (ix2 0 k)
  exact (congrArg (View.canon _) e.symm).trans (canon_cons_idx (Rect.unit (s := S3x256) ![1, 0] S1x256.size inb) w L (ix2 0 k))

/-- Off row 1, a store of row 1 is not seen. -/
theorem canon_miss1 (inb) (w : S1x256.Idx → EReal) (L : List (View.Piece (Elt Ideal) S3x256 .f32)) (y : S3x256.Idx) (h : (y 0).val ≠ 1) :
    View.canon ((⟨Rect.unit (s := S3x256) ![1, 0] S1x256.size inb, w⟩ : View.Piece (Elt Ideal) S3x256 .f32) :: L) y = View.canon L y := by
  have hn : y ∉ (Rect.unit (s := S3x256) ![1, 0] S1x256.size inb).set := fun hm => h ((row1_mem inb y).mp hm)
  exact View.canon_cons_of_not_mem (⟨Rect.unit (s := S3x256) ![1, 0] S1x256.size inb, w⟩ : View.Piece (Elt Ideal) S3x256 .f32) L hn

/-- A load of row 1 of contents that read `xs`. -/
theorem readAt_row1 (arg4 : Memref sig .tc .vmem S3x256 .f32) (harg4 : arg4.IsWhole) (inb) (xs : Vec Ideal S3x256 .f32) (k : Fin 256) :
    View.readAt (Elt Ideal) arg4.view (Rect.unit (s := S3x256) ![1, 0] S1x256.size inb).toLoadRect (harg4.unread xs) (ix2 0 k) = xs (ix2 (1 : Fin 3) k) := by
  rw [View.readAt_eq_ld, harg4.read_unread]
  show xs ((Rect.unit (s := S3x256) ![1, 0] S1x256.size inb).idx (ix2 0 k)) = _
  rw [row1_idx]; rfl

/-- A load of row 1 after the stores `L`. -/
theorem readCov_row1 (v : View sig .tc .vmem S3x256 .f32) (L : List (View.Piece (Elt Ideal) S3x256 .f32)) (inb) (k : Fin 256) :
    v.readCov L (Rect.unit (s := S3x256) ![1, 0] S1x256.size inb).toLoadRect (ix2 0 k) = View.canon L (ix2 (1 : Fin 3) k) := by
  have e : (ix2 (1 : Fin 3) k : S3x256.Idx) = (Rect.unit (s := S3x256) ![1, 0] S1x256.size inb).idx (ix2 0 k) := (row1_idx inb (ix2 0 k)).symm
  rw [e]; exact View.read_writes_junk_apply_eq_canon v _ L

theorem row2_idx (inb) (x : S1x256.Idx) : (Rect.unit (s := S3x256) ![2, 0] S1x256.size inb).idx x = ix2 (2 : Fin 3) (x 1) := by
  funext a
  match a with
  | ⟨0, _⟩ =>
    apply Fin.ext
    have h0 : (x 0).val = 0 := by have : (x 0).val < 1 := (x 0).isLt; omega
    show 2 + 1 * (x 0).val = 2; omega
  | ⟨1, _⟩ =>
    apply Fin.ext
    show 0 + 1 * (x 1).val = (x 1).val; omega

theorem row2_mem (inb) (y : S3x256.Idx) : y ∈ (Rect.unit (s := S3x256) ![2, 0] S1x256.size inb).set ↔ (y 0).val = 2 := by
  rw [Rect.mem_set_unit]
  constructor
  · intro h; have := h 0; simp at this; omega
  · intro h a
    match a with
    | ⟨0, _⟩ => simp; omega
    | ⟨1, _⟩ => simp; exact (y 1).isLt

/-- The latest store was row 2: at `(2, k)` its payload at `k`. -/
theorem canon_hit2 (inb) (w : S1x256.Idx → EReal) (L : List (View.Piece (Elt Ideal) S3x256 .f32)) (k : Fin 256) :
    View.canon ((⟨Rect.unit (s := S3x256) ![2, 0] S1x256.size inb, w⟩ : View.Piece (Elt Ideal) S3x256 .f32) :: L) (ix2 (2 : Fin 3) k) = w (ix2 0 k) := by
  have e : (Rect.unit (s := S3x256) ![2, 0] S1x256.size inb).idx (ix2 0 k) = (ix2 (2 : Fin 3) k : S3x256.Idx) := row2_idx inb (ix2 0 k)
  exact (congrArg (View.canon _) e.symm).trans (canon_cons_idx (Rect.unit (s := S3x256) ![2, 0] S1x256.size inb) w L (ix2 0 k))

/-- Off row 2, a store of row 2 is not seen. -/
theorem canon_miss2 (inb) (w : S1x256.Idx → EReal) (L : List (View.Piece (Elt Ideal) S3x256 .f32)) (y : S3x256.Idx) (h : (y 0).val ≠ 2) :
    View.canon ((⟨Rect.unit (s := S3x256) ![2, 0] S1x256.size inb, w⟩ : View.Piece (Elt Ideal) S3x256 .f32) :: L) y = View.canon L y := by
  have hn : y ∉ (Rect.unit (s := S3x256) ![2, 0] S1x256.size inb).set := fun hm => h ((row2_mem inb y).mp hm)
  exact View.canon_cons_of_not_mem (⟨Rect.unit (s := S3x256) ![2, 0] S1x256.size inb, w⟩ : View.Piece (Elt Ideal) S3x256 .f32) L hn

/-- A load of row 2 of contents that read `xs`. -/
theorem readAt_row2 (arg4 : Memref sig .tc .vmem S3x256 .f32) (harg4 : arg4.IsWhole) (inb) (xs : Vec Ideal S3x256 .f32) (k : Fin 256) :
    View.readAt (Elt Ideal) arg4.view (Rect.unit (s := S3x256) ![2, 0] S1x256.size inb).toLoadRect (harg4.unread xs) (ix2 0 k) = xs (ix2 (2 : Fin 3) k) := by
  rw [View.readAt_eq_ld, harg4.read_unread]
  show xs ((Rect.unit (s := S3x256) ![2, 0] S1x256.size inb).idx (ix2 0 k)) = _
  rw [row2_idx]; rfl

/-- A load of row 2 after the stores `L`. -/
theorem readCov_row2 (v : View sig .tc .vmem S3x256 .f32) (L : List (View.Piece (Elt Ideal) S3x256 .f32)) (inb) (k : Fin 256) :
    v.readCov L (Rect.unit (s := S3x256) ![2, 0] S1x256.size inb).toLoadRect (ix2 0 k) = View.canon L (ix2 (2 : Fin 3) k) := by
  have e : (ix2 (2 : Fin 3) k : S3x256.Idx) = (Rect.unit (s := S3x256) ![2, 0] S1x256.size inb).idx (ix2 0 k) := (row2_idx inb (ix2 0 k)).symm
  rw [e]; exact View.read_writes_junk_apply_eq_canon v _ L

/-- A store of the whole array, latest: its payload everywhere. -/
theorem canon_whole (inb) (w : S3x256.Idx → EReal) (L : List (View.Piece (Elt Ideal) S3x256 .f32)) (y : S3x256.Idx) :
    View.canon ((⟨Rect.unit (s := S3x256) ![0, 0] S3x256.size inb, w⟩ : View.Piece (Elt Ideal) S3x256 .f32) :: L) y = w y :=
  congrFun (View.canon_cons_unit_zero (funext fun a => by match a with | ⟨0, _⟩ => rfl | ⟨1, _⟩ => rfl) inb w L) y

/-- A load of the whole array after the stores `L`. -/
theorem readCov_whole (v : View sig .tc .vmem S3x256 .f32) (L : List (View.Piece (Elt Ideal) S3x256 .f32)) (inb) (y : S3x256.Idx) :
    v.readCov L (Rect.unit (s := S3x256) ![0, 0] S3x256.size inb).toLoadRect y = View.canon L y := by
  have e : y = (Rect.unit (s := S3x256) ![0, 0] S3x256.size inb).idx y := by
    funext a
    match a with
    | ⟨0, _⟩ => apply Fin.ext; show (y 0).val = 0 + 1 * (y 0).val; omega
    | ⟨1, _⟩ => apply Fin.ext; show (y 1).val = 0 + 1 * (y 1).val; omega
  conv_rhs => rw [e]
  exact View.read_writes_junk_apply_eq_canon v _ L

/-! ## What each channel's loop yields -/

section Cases
variable (c : Dev nD) (i : grid0.Coords) (arg2 : Memref sig .tc .vmem S1x3x128x512 .f32) (harg2 : arg2.IsWhole) (arg3 : Memref sig .tc .vmem S1x256x3 .f32) (harg3 : arg3.IsWhole) (arg4 : Memref sig .tc .vmem S3x256 .f32) (harg4 : arg4.IsWhole)

/-- Channel 0's loop, run on the input block `x0`. -/
abbrev yield0 (x0 : Vec Ideal S1x3x128x512 .f32) : FVec Ideal S1x256 .f32 :=
  st_k0_t1 (F := Ideal) Variants.none c none i arg2 harg2 arg3 harg3 arg4 harg4 (chan0 arg2) rfl (harg2.unread x0) k0_pay6 (Scf.trips k0_t1_loop.lb k0_t1_loop.ub k0_t1_loop.st)
/-- Channel 1's loop. -/
abbrev yield1 (x0 : Vec Ideal S1x3x128x512 .f32) : FVec Ideal S1x256 .f32 :=
  st_k0_t2 (F := Ideal) Variants.none c none i arg2 harg2 arg3 harg3 arg4 harg4 (chan1 arg2) rfl (harg2.unread x0) k0_pay9 (Scf.trips k0_t2_loop.lb k0_t2_loop.ub k0_t2_loop.st)
/-- Channel 2's loop. -/
abbrev yield2 (x0 : Vec Ideal S1x3x128x512 .f32) : FVec Ideal S1x256 .f32 :=
  st_k0_t3 (F := Ideal) Variants.none c none i arg2 harg2 arg3 harg3 arg4 harg4 k0_pay5 (chan2 arg2) rfl (harg2.unread x0) k0_pay12 (Scf.trips k0_t3_loop.lb k0_t3_loop.ub k0_t3_loop.st)

/-! ### accMid: each row is what it held plus the channel's yield -/

theorem accMid_row0 (hc0 : ¬atFirst i) (hc1 : ¬atLast i) (x0 : Vec Ideal S1x3x128x512 .f32) (xs0 : Vec Ideal S3x256 .f32) (k : Fin 256) :
    accMid c i arg2 harg2 arg3 harg3 arg4 harg4 hc0 hc1 x0 xs0 (ix2 (0 : Fin 3) k) = xs0 (ix2 (0 : Fin 3) k) + yield0 c i arg2 harg2 arg3 harg3 arg4 harg4 x0 (ix2 0 k) := by
  unfold accMid
  refine (View.read_writes_junk_apply_eq_canon _ _ _).trans ?_
  unfold runMid; dsimp only; sl_unfold_words
  refine (canon_miss2 _ _ _ _ (by show ((0 : Fin 3) : ℕ) ≠ 2; decide)).trans ?_
  refine (canon_miss1 _ _ _ _ (by show ((0 : Fin 3) : ℕ) ≠ 1; decide)).trans ?_
  refine (canon_hit0 _ _ _ k).trans ?_
  refine (Pay.pay8_apply _ _ _).trans ?_
  exact congrArg (· + _) (readAt_row0 arg4 harg4 _ xs0 k)

theorem accMid_row1 (hc0 : ¬atFirst i) (hc1 : ¬atLast i) (x0 : Vec Ideal S1x3x128x512 .f32) (xs0 : Vec Ideal S3x256 .f32) (k : Fin 256) :
    accMid c i arg2 harg2 arg3 harg3 arg4 harg4 hc0 hc1 x0 xs0 (ix2 (1 : Fin 3) k) = xs0 (ix2 (1 : Fin 3) k) + yield1 c i arg2 harg2 arg3 harg3 arg4 harg4 x0 (ix2 0 k) := by
  unfold accMid
  refine (View.read_writes_junk_apply_eq_canon _ _ _).trans ?_
  unfold runMid; dsimp only; sl_unfold_words
  refine (canon_miss2 _ _ _ _ (by show ((1 : Fin 3) : ℕ) ≠ 2; decide)).trans ?_
  refine (canon_hit1 _ _ _ k).trans ?_
  refine (Pay.pay11_apply _ _ _).trans ?_
  exact congrArg (· + _) (readAt_row1 arg4 harg4 _ xs0 k)

theorem accMid_row2 (hc0 : ¬atFirst i) (hc1 : ¬atLast i) (x0 : Vec Ideal S1x3x128x512 .f32) (xs0 : Vec Ideal S3x256 .f32) (k : Fin 256) :
    accMid c i arg2 harg2 arg3 harg3 arg4 harg4 hc0 hc1 x0 xs0 (ix2 (2 : Fin 3) k) = xs0 (ix2 (2 : Fin 3) k) + yield2 c i arg2 harg2 arg3 harg3 arg4 harg4 x0 (ix2 0 k) := by
  unfold accMid
  refine (View.read_writes_junk_apply_eq_canon _ _ _).trans ?_
  unfold runMid; dsimp only; sl_unfold_words
  refine (canon_hit2 _ _ _ k).trans ?_
  refine (Pay.pay2_apply _ _ _).trans ?_
  exact congrArg (· + _) (readAt_row2 arg4 harg4 _ xs0 k)

/-! ### accLast: each row is what it held plus the channel's yield -/

theorem accLast_row0 (hc0 : ¬atFirst i) (hc1 : atLast i) (x0 : Vec Ideal S1x3x128x512 .f32) (xs0 : Vec Ideal S3x256 .f32) (k : Fin 256) :
    accLast c i arg2 harg2 arg3 harg3 arg4 harg4 hc0 hc1 x0 xs0 (ix2 (0 : Fin 3) k) = xs0 (ix2 (0 : Fin 3) k) + yield0 c i arg2 harg2 arg3 harg3 arg4 harg4 x0 (ix2 0 k) := by
  unfold accLast
  refine (View.read_writes_junk_apply_eq_canon _ _ _).trans ?_
  unfold runLast; dsimp only; sl_unfold_words
  refine (canon_miss2 _ _ _ _ (by show ((0 : Fin 3) : ℕ) ≠ 2; decide)).trans ?_
  refine (canon_miss1 _ _ _ _ (by show ((0 : Fin 3) : ℕ) ≠ 1; decide)).trans ?_
  refine (canon_hit0 _ _ _ k).trans ?_
  refine (Pay.pay8_apply _ _ _).trans ?_
  exact congrArg (· + _) (readAt_row0 arg4 harg4 _ xs0 k)

theorem accLast_row1 (hc0 : ¬atFirst i) (hc1 : atLast i) (x0 : Vec Ideal S1x3x128x512 .f32) (xs0 : Vec Ideal S3x256 .f32) (k : Fin 256) :
    accLast c i arg2 harg2 arg3 harg3 arg4 harg4 hc0 hc1 x0 xs0 (ix2 (1 : Fin 3) k) = xs0 (ix2 (1 : Fin 3) k) + yield1 c i arg2 harg2 arg3 harg3 arg4 harg4 x0 (ix2 0 k) := by
  unfold accLast
  refine (View.read_writes_junk_apply_eq_canon _ _ _).trans ?_
  unfold runLast; dsimp only; sl_unfold_words
  refine (canon_miss2 _ _ _ _ (by show ((1 : Fin 3) : ℕ) ≠ 2; decide)).trans ?_
  refine (canon_hit1 _ _ _ k).trans ?_
  refine (Pay.pay11_apply _ _ _).trans ?_
  exact congrArg (· + _) (readAt_row1 arg4 harg4 _ xs0 k)

theorem accLast_row2 (hc0 : ¬atFirst i) (hc1 : atLast i) (x0 : Vec Ideal S1x3x128x512 .f32) (xs0 : Vec Ideal S3x256 .f32) (k : Fin 256) :
    accLast c i arg2 harg2 arg3 harg3 arg4 harg4 hc0 hc1 x0 xs0 (ix2 (2 : Fin 3) k) = xs0 (ix2 (2 : Fin 3) k) + yield2 c i arg2 harg2 arg3 harg3 arg4 harg4 x0 (ix2 0 k) := by
  unfold accLast
  refine (View.read_writes_junk_apply_eq_canon _ _ _).trans ?_
  unfold runLast; dsimp only; sl_unfold_words
  refine (canon_hit2 _ _ _ k).trans ?_
  refine (Pay.pay2_apply _ _ _).trans ?_
  exact congrArg (· + _) (readAt_row2 arg4 harg4 _ xs0 k)

/-! ### The first tile: each row is the channel's yield alone (the array was cleared first) -/

theorem accFirst_row0 (hc0 : atFirst i) (hc1 : ¬atLast i) (x0 : Vec Ideal S1x3x128x512 .f32) (k : Fin 256) :
    accFirst c i arg2 harg2 arg3 harg3 arg4 harg4 hc0 hc1 x0 (ix2 (0 : Fin 3) k) = yield0 c i arg2 harg2 arg3 harg3 arg4 harg4 x0 (ix2 0 k) := by
  unfold accFirst
  refine (View.read_writes_junk_apply_eq_canon _ _ _).trans ?_
  unfold runFirst; dsimp only; sl_unfold_words
  refine (canon_miss2 _ _ _ _ (by show ((0 : Fin 3) : ℕ) ≠ 2; decide)).trans ?_
  refine (canon_miss1 _ _ _ _ (by show ((0 : Fin 3) : ℕ) ≠ 1; decide)).trans ?_
  refine (canon_hit0 _ _ _ k).trans ?_
  refine (Pay.pay8_apply _ _ _).trans ?_
  refine (congrArg (· + _) ((readCov_row0 _ _ _ k).trans ((canon_whole _ _ _ _).trans (Pay.pay4_apply _)))).trans ?_
  exact zero_add _

theorem accFirst_row1 (hc0 : atFirst i) (hc1 : ¬atLast i) (x0 : Vec Ideal S1x3x128x512 .f32) (k : Fin 256) :
    accFirst c i arg2 harg2 arg3 harg3 arg4 harg4 hc0 hc1 x0 (ix2 (1 : Fin 3) k) = yield1 c i arg2 harg2 arg3 harg3 arg4 harg4 x0 (ix2 0 k) := by
  unfold accFirst
  refine (View.read_writes_junk_apply_eq_canon _ _ _).trans ?_
  unfold runFirst; dsimp only; sl_unfold_words
  refine (canon_miss2 _ _ _ _ (by show ((1 : Fin 3) : ℕ) ≠ 2; decide)).trans ?_
  refine (canon_hit1 _ _ _ k).trans ?_
  refine (Pay.pay11_apply _ _ _).trans ?_
  refine (congrArg (· + _) ((readCov_row1 _ _ _ k).trans ((canon_miss0 _ _ _ _ (by show ((1 : Fin 3) : ℕ) ≠ 0; decide)).trans ((canon_whole _ _ _ _).trans (Pay.pay4_apply _))))).trans ?_
  exact zero_add _

theorem accFirst_row2 (hc0 : atFirst i) (hc1 : ¬atLast i) (x0 : Vec Ideal S1x3x128x512 .f32) (k : Fin 256) :
    accFirst c i arg2 harg2 arg3 harg3 arg4 harg4 hc0 hc1 x0 (ix2 (2 : Fin 3) k) = yield2 c i arg2 harg2 arg3 harg3 arg4 harg4 x0 (ix2 0 k) := by
  unfold accFirst
  refine (View.read_writes_junk_apply_eq_canon _ _ _).trans ?_
  unfold runFirst; dsimp only; sl_unfold_words
  refine (canon_hit2 _ _ _ k).trans ?_
  refine (Pay.pay2_apply _ _ _).trans ?_
  refine (congrArg (· + _) ((readCov_row2 _ _ _ k).trans ((canon_miss1 _ _ _ _ (by show ((2 : Fin 3) : ℕ) ≠ 1; decide)).trans ((canon_miss0 _ _ _ _ (by show ((2 : Fin 3) : ℕ) ≠ 0; decide)).trans ((canon_whole _ _ _ _).trans (Pay.pay4_apply _)))))).trans ?_
  exact zero_add _

/-! ### The last tile's output block: the counts just left, normalised row by row, transposed -/

theorem outLast_apply (hc0 : ¬atFirst i) (hc1 : atLast i) (x0 : Vec Ideal S1x3x128x512 .f32) (xs0 : Vec Ideal S3x256 .f32) (k : Fin 256) (ch : Fin 3) :
    outLast c i arg2 harg2 arg3 harg3 arg4 harg4 hc0 hc1 x0 xs0 (ix3 (0 : Fin 1) k ch)
      = Ideal.div (accLast c i arg2 harg2 arg3 harg3 arg4 harg4 hc0 hc1 x0 xs0 (ix2 ch k)) (max (∑ k' : Fin 256, accLast c i arg2 harg2 arg3 harg3 arg4 harg4 hc0 hc1 x0 xs0 (ix2 ch k')) eps) := by
  have hv : ∀ y : S3x256.Idx, accLast c i arg2 harg2 arg3 harg3 arg4 harg4 hc0 hc1 x0 xs0 y
      = arg4.view.readCov (runLast c i arg2 harg2 arg3 harg3 arg4 harg4 hc0 hc1 x0 xs0).2.1 (Rect.unit (s := S3x256) ![0, 0] S3x256.size inb_S3x256_S3x256_0_0).toLoadRect y := fun y => by
    unfold accLast
    exact (View.read_writes_junk_apply_eq_canon _ _ _).trans (readCov_whole _ _ _ y).symm
  simp only [hv]
  unfold outLast
  refine (View.read_writes_junk_apply_eq_canon _ _ _).trans ?_
  unfold runLast; dsimp only; sl_unfold_words
  refine (congrFun (View.canon_unit_zero (funext fun a => by match a with | ⟨0, _⟩ => rfl | ⟨1, _⟩ => rfl | ⟨2, _⟩ => rfl) _ _) _).trans ?_
  exact Pay.pay3_apply _ k ch

end Cases

end Cert.KernelIdeal.HistValue

end
-- ==== Proof.LoopSum.lean ====
/-
  What each channel's loop yields, on the extended reals.

  A tile of the image is 128 rows of each of the 3 channels. A channel's loop walks its 128 rows in 16 chunks of 8 rows,
  starting from zero counts; trip `s` loads rows `8 s` to `8 s + 7` of the channel's plane and adds, to every bin's
  count, the number of the chunk's entries that fall in the bin. The plane is the input block's slice at the channel with
  the block's two unit axes dropped, so its entry `(row, w)` is the block's entry `(0, channel, row, w)`. By induction on
  the trips, after all 16 the count of bin `k` is the number of hits among the channel's 128 × 512 entries, as a sum over
  chunks, rows of a chunk and columns.
-/
import proofs.«181129_j85787676770927_2_alg».proof.Proof.Gen.KernelIdeal.Loops
import proofs.«181129_j85787676770927_2_alg».proof.Proof.KernelPay
import proofs.«181129_j85787676770927_2_alg».proof.Proof.PointsI
import Idealize.ShloMosaic.Lib.WholeRead

noncomputable section

open scoped BigOperators

namespace Cert.KernelIdeal.LoopSum

open Idealize.ShloMosaic Idealize.ShloMosaic.ValueIdx Idealize.SL.Sem Cert.KernelIdeal Cert.KernelIdeal.Gen Cert.KernelIdeal.Body Cert.KernelIdeal.Pay Cert.HistSpec

/-! ## A chunk of a channel's plane, read through the input block -/

/-- Entry `(row, w)` of channel `ch`'s plane sits at `(0, ch, row, w)` of the block: the plane is the block's slice at
    channel `o = ch` with its two unit axes dropped. -/
theorem planeIdx (o : ℕ) (ch : Fin 3) (ho : o = ch.val)
    (inb1 : ∀ a, (![0, 0, 0, 0] : Fin 4 → ℕ) a + S1x3x128x512.size a ≤ S1x3x128x512.size a)
    (inb2 : ∀ a, (![o, 0, 0] : Fin 3 → ℕ) a + S1x128x512.size a ≤ S3x128x512.size a)
    (h1 : S3x128x512.numel = (Rect.unit (s := S1x3x128x512) ![0, 0, 0, 0] S1x3x128x512.size inb1).shape.numel)
    (h2 : S128x512.numel = (Rect.unit (s := S3x128x512) ![o, 0, 0] S1x128x512.size inb2).shape.numel)
    (row : Fin 128) (w : Fin 512) :
    (Rect.unit (s := S1x3x128x512) ![0, 0, 0, 0] S1x3x128x512.size inb1).emb
        (Shape.reshapeEquiv h1 ((Rect.unit (s := S3x128x512) ![o, 0, 0] S1x128x512.size inb2).emb
          (Shape.reshapeEquiv h2 (ix2 row w))))
      = ix4 (0 : Fin 1) ch row w := by
  subst ho
  rw [reshapeEquiv_ix2_1ab]
  have e2 : (Rect.unit (s := S3x128x512) ![ch.val, 0, 0] S1x128x512.size inb2).emb (ix3 (⟨0, Nat.one_pos⟩ : Fin 1) row w)
      = ix3 ch row w := by
    funext a; refine Fin.ext ?_
    match a with
    | ⟨0, _⟩ => show ch.val + 1 * 0 = ch.val; omega
    | ⟨1, _⟩ => show 0 + 1 * row.val = row.val; omega
    | ⟨2, _⟩ => show 0 + 1 * w.val = w.val; omega
  rw [e2, reshapeEquiv_ix3_1abc]
  funext a; refine Fin.ext ?_
  match a with
  | ⟨0, _⟩ => rfl
  | ⟨1, _⟩ => show 0 + 1 * ch.val = ch.val; omega
  | ⟨2, _⟩ => show 0 + 1 * row.val = row.val; omega
  | ⟨3, _⟩ => show 0 + 1 * w.val = w.val; omega

/-! ## The first channel's loop -/
/-- Entry `(r, w)` of the chunk that trip `k` of the first channel's loop loads is the block's entry at channel 0, row
    `8 k + r`, column `w`. -/
theorem chunk0_apply (arg2 : Memref sig .tc .vmem S1x3x128x512 .f32) (harg2 : arg2.IsWhole)
    (x0 : Vec Ideal S1x3x128x512 .f32) (k : Fin k0_t1_loop.trips) (r : Fin 8) (w : Fin 512) (hrow : k.val * 8 + r.val < 128) :
    View.readAt (Elt Ideal) (chan0 arg2).view (Rect.unit (s := S128x512) (k0_off1 k) S8x512.size (k0_off1_inb k)).toLoadRect
        (harg2.unread x0) (ix2 r w)
      = x0 (ix4 (0 : Fin 1) (0 : Fin 3) ⟨k.val * 8 + r.val, hrow⟩ w) := by
  refine (congrFun (harg2.read_unread x0) _).trans (congrArg x0 ?_)
  have hoff : k0_off1 k = ![8 * k.val, 0] := k0_off1_eq k
  have e1 : (Rect.unit (s := S128x512) (k0_off1 k) S8x512.size (k0_off1_inb k)).toLoadRect.idx (ix2 r w)
      = ix2 (⟨k.val * 8 + r.val, hrow⟩ : Fin 128) w := by
    funext a; refine Fin.ext ?_
    match a with
    | ⟨0, _⟩ =>
      show k0_off1 k 0 + 1 * r.val = k.val * 8 + r.val
      rw [hoff]; show 8 * k.val + 1 * r.val = _; omega
    | ⟨1, _⟩ =>
      show k0_off1 k 1 + 1 * w.val = w.val
      rw [hoff]; show 0 + 1 * w.val = _; omega
  rw [e1]
  exact planeIdx 0 0 rfl _ _ _ _ _ w

/-- The loop makes 16 trips. -/
theorem trips1 : Scf.trips k0_t1_loop.lb k0_t1_loop.ub k0_t1_loop.st = 16 := by decide

/-- What trip `k` yields from the carried counts: the counts plus the hits of the chunk it loads, rows `8 k` to
    `8 k + 7` of the channel's plane. -/
theorem trip1_eq (𝒱 : Variants) (c : Dev nD) (bd : Option 𝒱.V) (i : grid0.Coords)
    (arg2 : Memref sig .tc .vmem S1x3x128x512 .f32) (harg2 : arg2.IsWhole) (arg3 : Memref sig .tc .vmem S1x256x3 .f32)
    (harg3 : arg3.IsWhole) (arg4 : Memref sig .tc .vmem S3x256 .f32) (harg4 : arg4.IsWhole)
    (X : BufTy.Contents (Elt Ideal) (chan0 arg2).view.ty) (k : Fin k0_t1_loop.trips) (acc : FVec Ideal S1x256 .f32) :
    tripR_k0_t1 (F := Ideal) 𝒱 c bd i arg2 harg2 arg3 harg3 arg4 harg4 (chan0 arg2) rfl X k acc
      = k0_pay7 acc (View.readAt (Elt Ideal) (chan0 arg2).view
          (Rect.unit (s := S128x512) (k0_off1 k) S8x512.size (k0_off1_inb k)).toLoadRect X) := by
  unfold tripR_k0_t1 trip_k0_t1
  rfl

/-- Before trip `n` the carried count of bin `k` is the number of hits in the first `n` chunks. -/
theorem loop1_upto (𝒱 : Variants) (c : Dev nD) (bd : Option 𝒱.V) (i : grid0.Coords)
    (arg2 : Memref sig .tc .vmem S1x3x128x512 .f32) (harg2 : arg2.IsWhole) (arg3 : Memref sig .tc .vmem S1x256x3 .f32)
    (harg3 : arg3.IsWhole) (arg4 : Memref sig .tc .vmem S3x256 .f32) (harg4 : arg4.IsWhole)
    (x0 : Vec Ideal S1x3x128x512 .f32) (k : Fin 256) :
    ∀ (n : ℕ) (hn : n ≤ 16),
      st_k0_t1 (F := Ideal) 𝒱 c bd i arg2 harg2 arg3 harg3 arg4 harg4 (chan0 arg2) rfl (harg2.unread x0) k0_pay6 n
          (ix2 (0 : Fin 1) k)
        = ∑ s : Fin n, ∑ r : Fin 8, ∑ w : Fin 512,
            hit (x0 (ix4 (0 : Fin 1) (0 : Fin 3) ⟨s.val * 8 + r.val, by omega⟩ w)) (target k) := by
  intro n
  induction n with
  | zero =>
    intro _
    show k0_pay6 (F := Ideal) (ix2 (0 : Fin 1) k) = _
    rw [pay6_apply, Finset.univ_eq_empty, Finset.sum_empty]
  | succ n ih =>
    intro hn
    have hlt : n < k0_t1_loop.trips := by
      show n < Scf.trips k0_t1_loop.lb k0_t1_loop.ub k0_t1_loop.st
      rw [trips1]; omega
    have hs := st_k0_t1_succ (F := Ideal) 𝒱 c bd i arg2 harg2 arg3 harg3 arg4 harg4 (chan0 arg2) rfl (harg2.unread x0)
      k0_pay6 ⟨n, hlt⟩
    refine (congrFun hs _).trans ?_
    rw [trip1_eq, pay7_apply]
    refine Eq.trans ?_ (Fin.sum_univ_castSucc _).symm
    refine congrArg₂ (· + ·) (ih (by omega)) ?_
    refine Finset.sum_congr rfl fun r _ => Finset.sum_congr rfl fun w _ => ?_
    rw [chunk0_apply]
    rfl

/-- What the first channel's loop yields: for every bin, the number of hits in the tile's 128 rows of channel 0. -/
theorem loop1_sum (𝒱 : Variants) (c : Dev nD) (bd : Option 𝒱.V) (i : grid0.Coords)
    (arg2 : Memref sig .tc .vmem S1x3x128x512 .f32) (harg2 : arg2.IsWhole) (arg3 : Memref sig .tc .vmem S1x256x3 .f32)
    (harg3 : arg3.IsWhole) (arg4 : Memref sig .tc .vmem S3x256 .f32) (harg4 : arg4.IsWhole)
    (x0 : Vec Ideal S1x3x128x512 .f32) (k : Fin 256) :
    st_k0_t1 (F := Ideal) 𝒱 c bd i arg2 harg2 arg3 harg3 arg4 harg4 (chan0 arg2) rfl (harg2.unread x0) k0_pay6
        (Scf.trips k0_t1_loop.lb k0_t1_loop.ub k0_t1_loop.st) (ix2 (0 : Fin 1) k)
      = ∑ s : Fin 16, ∑ r : Fin 8, ∑ w : Fin 512,
          hit (x0 (ix4 (0 : Fin 1) (0 : Fin 3) ⟨s.val * 8 + r.val, by omega⟩ w)) (target k) := by
  rw [trips1]
  exact loop1_upto 𝒱 c bd i arg2 harg2 arg3 harg3 arg4 harg4 x0 k 16 (le_refl _)

/-! ## The second channel's loop -/
/-- Entry `(r, w)` of the chunk that trip `k` of the second channel's loop loads is the block's entry at channel 1, row
    `8 k + r`, column `w`. -/
theorem chunk1_apply (arg2 : Memref sig .tc .vmem S1x3x128x512 .f32) (harg2 : arg2.IsWhole)
    (x0 : Vec Ideal S1x3x128x512 .f32) (k : Fin k0_t2_loop.trips) (r : Fin 8) (w : Fin 512) (hrow : k.val * 8 + r.val < 128) :
    View.readAt (Elt Ideal) (chan1 arg2).view (Rect.unit (s := S128x512) (k0_off2 k) S8x512.size (k0_off2_inb k)).toLoadRect
        (harg2.unread x0) (ix2 r w)
      = x0 (ix4 (0 : Fin 1) (1 : Fin 3) ⟨k.val * 8 + r.val, hrow⟩ w) := by
  refine (congrFun (harg2.read_unread x0) _).trans (congrArg x0 ?_)
  have hoff : k0_off2 k = ![8 * k.val, 0] := k0_off2_eq k
  have e1 : (Rect.unit (s := S128x512) (k0_off2 k) S8x512.size (k0_off2_inb k)).toLoadRect.idx (ix2 r w)
      = ix2 (⟨k.val * 8 + r.val, hrow⟩ : Fin 128) w := by
    funext a; refine Fin.ext ?_
    match a with
    | ⟨0, _⟩ =>
      show k0_off2 k 0 + 1 * r.val = k.val * 8 + r.val
      rw [hoff]; show 8 * k.val + 1 * r.val = _; omega
    | ⟨1, _⟩ =>
      show k0_off2 k 1 + 1 * w.val = w.val
      rw [hoff]; show 0 + 1 * w.val = _; omega
  rw [e1]
  exact planeIdx 1 1 rfl _ _ _ _ _ w

/-- The loop makes 16 trips. -/
theorem trips2 : Scf.trips k0_t2_loop.lb k0_t2_loop.ub k0_t2_loop.st = 16 := by decide

/-- What trip `k` yields from the carried counts: the counts plus the hits of the chunk it loads, rows `8 k` to
    `8 k + 7` of the channel's plane. -/
theorem trip2_eq (𝒱 : Variants) (c : Dev nD) (bd : Option 𝒱.V) (i : grid0.Coords)
    (arg2 : Memref sig .tc .vmem S1x3x128x512 .f32) (harg2 : arg2.IsWhole) (arg3 : Memref sig .tc .vmem S1x256x3 .f32)
    (harg3 : arg3.IsWhole) (arg4 : Memref sig .tc .vmem S3x256 .f32) (harg4 : arg4.IsWhole)
    (X : BufTy.Contents (Elt Ideal) (chan1 arg2).view.ty) (k : Fin k0_t2_loop.trips) (acc : FVec Ideal S1x256 .f32) :
    tripR_k0_t2 (F := Ideal) 𝒱 c bd i arg2 harg2 arg3 harg3 arg4 harg4 (chan1 arg2) rfl X k acc
      = k0_pay10 acc (View.readAt (Elt Ideal) (chan1 arg2).view
          (Rect.unit (s := S128x512) (k0_off2 k) S8x512.size (k0_off2_inb k)).toLoadRect X) := by
  unfold tripR_k0_t2 trip_k0_t2
  rfl

/-- Before trip `n` the carried count of bin `k` is the number of hits in the first `n` chunks. -/
theorem loop2_upto (𝒱 : Variants) (c : Dev nD) (bd : Option 𝒱.V) (i : grid0.Coords)
    (arg2 : Memref sig .tc .vmem S1x3x128x512 .f32) (harg2 : arg2.IsWhole) (arg3 : Memref sig .tc .vmem S1x256x3 .f32)
    (harg3 : arg3.IsWhole) (arg4 : Memref sig .tc .vmem S3x256 .f32) (harg4 : arg4.IsWhole)
    (x0 : Vec Ideal S1x3x128x512 .f32) (k : Fin 256) :
    ∀ (n : ℕ) (hn : n ≤ 16),
      st_k0_t2 (F := Ideal) 𝒱 c bd i arg2 harg2 arg3 harg3 arg4 harg4 (chan1 arg2) rfl (harg2.unread x0) k0_pay9 n
          (ix2 (0 : Fin 1) k)
        = ∑ s : Fin n, ∑ r : Fin 8, ∑ w : Fin 512,
            hit (x0 (ix4 (0 : Fin 1) (1 : Fin 3) ⟨s.val * 8 + r.val, by omega⟩ w)) (target k) := by
  intro n
  induction n with
  | zero =>
    intro _
    show k0_pay9 (F := Ideal) (ix2 (0 : Fin 1) k) = _
    rw [pay9_apply, Finset.univ_eq_empty, Finset.sum_empty]
  | succ n ih =>
    intro hn
    have hlt : n < k0_t2_loop.trips := by
      show n < Scf.trips k0_t2_loop.lb k0_t2_loop.ub k0_t2_loop.st
      rw [trips2]; omega
    have hs := st_k0_t2_succ (F := Ideal) 𝒱 c bd i arg2 harg2 arg3 harg3 arg4 harg4 (chan1 arg2) rfl (harg2.unread x0)
      k0_pay9 ⟨n, hlt⟩
    refine (congrFun hs _).trans ?_
    rw [trip2_eq, pay10_apply]
    refine Eq.trans ?_ (Fin.sum_univ_castSucc _).symm
    refine congrArg₂ (· + ·) (ih (by omega)) ?_
    refine Finset.sum_congr rfl fun r _ => Finset.sum_congr rfl fun w _ => ?_
    rw [chunk1_apply]
    rfl

/-- What the second channel's loop yields: for every bin, the number of hits in the tile's 128 rows of channel 1. -/
theorem loop2_sum (𝒱 : Variants) (c : Dev nD) (bd : Option 𝒱.V) (i : grid0.Coords)
    (arg2 : Memref sig .tc .vmem S1x3x128x512 .f32) (harg2 : arg2.IsWhole) (arg3 : Memref sig .tc .vmem S1x256x3 .f32)
    (harg3 : arg3.IsWhole) (arg4 : Memref sig .tc .vmem S3x256 .f32) (harg4 : arg4.IsWhole)
    (x0 : Vec Ideal S1x3x128x512 .f32) (k : Fin 256) :
    st_k0_t2 (F := Ideal) 𝒱 c bd i arg2 harg2 arg3 harg3 arg4 harg4 (chan1 arg2) rfl (harg2.unread x0) k0_pay9
        (Scf.trips k0_t2_loop.lb k0_t2_loop.ub k0_t2_loop.st) (ix2 (0 : Fin 1) k)
      = ∑ s : Fin 16, ∑ r : Fin 8, ∑ w : Fin 512,
          hit (x0 (ix4 (0 : Fin 1) (1 : Fin 3) ⟨s.val * 8 + r.val, by omega⟩ w)) (target k) := by
  rw [trips2]
  exact loop2_upto 𝒱 c bd i arg2 harg2 arg3 harg3 arg4 harg4 x0 k 16 (le_refl _)

/-! ## The third channel's loop -/
/-- Entry `(r, w)` of the chunk that trip `k` of the third channel's loop loads is the block's entry at channel 2, row
    `8 k + r`, column `w`. -/
theorem chunk2_apply (arg2 : Memref sig .tc .vmem S1x3x128x512 .f32) (harg2 : arg2.IsWhole)
    (x0 : Vec Ideal S1x3x128x512 .f32) (k : Fin k0_t3_loop.trips) (r : Fin 8) (w : Fin 512) (hrow : k.val * 8 + r.val < 128) :
    View.readAt (Elt Ideal) (chan2 arg2).view (Rect.unit (s := S128x512) (k0_off3 k) S8x512.size (k0_off3_inb k)).toLoadRect
        (harg2.unread x0) (ix2 r w)
      = x0 (ix4 (0 : Fin 1) (2 : Fin 3) ⟨k.val * 8 + r.val, hrow⟩ w) := by
  refine (congrFun (harg2.read_unread x0) _).trans (congrArg x0 ?_)
  have hoff : k0_off3 k = ![8 * k.val, 0] := k0_off3_eq k
  have e1 : (Rect.unit (s := S128x512) (k0_off3 k) S8x512.size (k0_off3_inb k)).toLoadRect.idx (ix2 r w)
      = ix2 (⟨k.val * 8 + r.val, hrow⟩ : Fin 128) w := by
    funext a; refine Fin.ext ?_
    match a with
    | ⟨0, _⟩ =>
      show k0_off3 k 0 + 1 * r.val = k.val * 8 + r.val
      rw [hoff]; show 8 * k.val + 1 * r.val = _; omega
    | ⟨1, _⟩ =>
      show k0_off3 k 1 + 1 * w.val = w.val
      rw [hoff]; show 0 + 1 * w.val = _; omega
  rw [e1]
  exact planeIdx 2 2 rfl _ _ _ _ _ w

/-- The loop makes 16 trips. -/
theorem trips3 : Scf.trips k0_t3_loop.lb k0_t3_loop.ub k0_t3_loop.st = 16 := by decide

/-- What trip `k` yields from the carried counts: the counts plus the hits of the chunk it loads, rows `8 k` to
    `8 k + 7` of the channel's plane. -/
theorem trip3_eq (𝒱 : Variants) (c : Dev nD) (bd : Option 𝒱.V) (i : grid0.Coords)
    (arg2 : Memref sig .tc .vmem S1x3x128x512 .f32) (harg2 : arg2.IsWhole) (arg3 : Memref sig .tc .vmem S1x256x3 .f32)
    (harg3 : arg3.IsWhole) (arg4 : Memref sig .tc .vmem S3x256 .f32) (harg4 : arg4.IsWhole)
    (X : BufTy.Contents (Elt Ideal) (chan2 arg2).view.ty) (k : Fin k0_t3_loop.trips) (acc : FVec Ideal S1x256 .f32) :
    tripR_k0_t3 (F := Ideal) 𝒱 c bd i arg2 harg2 arg3 harg3 arg4 harg4 k0_pay5 (chan2 arg2) rfl X k acc
      = k0_pay1 k0_pay5 acc (View.readAt (Elt Ideal) (chan2 arg2).view
          (Rect.unit (s := S128x512) (k0_off3 k) S8x512.size (k0_off3_inb k)).toLoadRect X) := by
  unfold tripR_k0_t3 trip_k0_t3
  rfl

/-- Before trip `n` the carried count of bin `k` is the number of hits in the first `n` chunks. -/
theorem loop3_upto (𝒱 : Variants) (c : Dev nD) (bd : Option 𝒱.V) (i : grid0.Coords)
    (arg2 : Memref sig .tc .vmem S1x3x128x512 .f32) (harg2 : arg2.IsWhole) (arg3 : Memref sig .tc .vmem S1x256x3 .f32)
    (harg3 : arg3.IsWhole) (arg4 : Memref sig .tc .vmem S3x256 .f32) (harg4 : arg4.IsWhole)
    (x0 : Vec Ideal S1x3x128x512 .f32) (k : Fin 256) :
    ∀ (n : ℕ) (hn : n ≤ 16),
      st_k0_t3 (F := Ideal) 𝒱 c bd i arg2 harg2 arg3 harg3 arg4 harg4 k0_pay5 (chan2 arg2) rfl (harg2.unread x0) k0_pay12 n
          (ix2 (0 : Fin 1) k)
        = ∑ s : Fin n, ∑ r : Fin 8, ∑ w : Fin 512,
            hit (x0 (ix4 (0 : Fin 1) (2 : Fin 3) ⟨s.val * 8 + r.val, by omega⟩ w)) (target k) := by
  intro n
  induction n with
  | zero =>
    intro _
    show k0_pay12 (F := Ideal) (ix2 (0 : Fin 1) k) = _
    rw [pay12_apply, Finset.univ_eq_empty, Finset.sum_empty]
  | succ n ih =>
    intro hn
    have hlt : n < k0_t3_loop.trips := by
      show n < Scf.trips k0_t3_loop.lb k0_t3_loop.ub k0_t3_loop.st
      rw [trips3]; omega
    have hs := st_k0_t3_succ (F := Ideal) 𝒱 c bd i arg2 harg2 arg3 harg3 arg4 harg4 k0_pay5 (chan2 arg2) rfl (harg2.unread x0)
      k0_pay12 ⟨n, hlt⟩
    refine (congrFun hs _).trans ?_
    rw [trip3_eq, pay1_pay5_apply]
    refine Eq.trans ?_ (Fin.sum_univ_castSucc _).symm
    refine congrArg₂ (· + ·) (ih (by omega)) ?_
    refine Finset.sum_congr rfl fun r _ => Finset.sum_congr rfl fun w _ => ?_
    rw [chunk2_apply]
    rfl

/-- What the third channel's loop yields: for every bin, the number of hits in the tile's 128 rows of channel 2. -/
theorem loop3_sum (𝒱 : Variants) (c : Dev nD) (bd : Option 𝒱.V) (i : grid0.Coords)
    (arg2 : Memref sig .tc .vmem S1x3x128x512 .f32) (harg2 : arg2.IsWhole) (arg3 : Memref sig .tc .vmem S1x256x3 .f32)
    (harg3 : arg3.IsWhole) (arg4 : Memref sig .tc .vmem S3x256 .f32) (harg4 : arg4.IsWhole)
    (x0 : Vec Ideal S1x3x128x512 .f32) (k : Fin 256) :
    st_k0_t3 (F := Ideal) 𝒱 c bd i arg2 harg2 arg3 harg3 arg4 harg4 k0_pay5 (chan2 arg2) rfl (harg2.unread x0) k0_pay12
        (Scf.trips k0_t3_loop.lb k0_t3_loop.ub k0_t3_loop.st) (ix2 (0 : Fin 1) k)
      = ∑ s : Fin 16, ∑ r : Fin 8, ∑ w : Fin 512,
          hit (x0 (ix4 (0 : Fin 1) (2 : Fin 3) ⟨s.val * 8 + r.val, by omega⟩ w)) (target k) := by
  rw [trips3]
  exact loop3_upto 𝒱 c bd i arg2 harg2 arg3 harg3 arg4 harg4 x0 k 16 (le_refl _)

end Cert.KernelIdeal.LoopSum

end
-- ==== Proof.Blocks.lean ====
/-
  The kernel's two windows, read at a grid point.

  The program first moves the image array's channel axis in front of the rows — `[32, 512, 512, 3]` (image, row, column,
  channel) becomes `[32, 3, 512, 512]` — and then runs its one kernel over a grid of `32 × 4` points: point `t` is image
  `t / 4` and row tile `t % 4`. The input window cuts the moved array into blocks `[1, 3, 128, 512]` at block index
  `(image, 0, tile, 0)`; the result window cuts the result `[32, 256, 3]` into blocks `[1, 256, 3]` at block index
  `(image, 0, 0)`, written back at the last of an image's four points. A block's coordinate on an axis is always
  block index × block size + the coordinate inside the block, so:

  * `in_block`: the input block at point `t`, at `(0, ch, r, w)`, is the launched image array at image `t / 4`, row
    `(t % 4) · 128 + r`, column `w`, channel `ch`;
  * `out_block`: the result block at point `t` read off an array `G`, at `(0, k, ch)`, is `G` at `(t / 4, k, ch)`;
  * `out_cover`: every index `(b, k, ch)` of the result lies in the block written back at point `4 · b + 3`.
-/
import proofs.«181129_j85787676770927_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ)

/-- The array the input window stages, as the region finds it: the launched image array with the channel axis
    moved in front of the rows. -/
theorem V_main_v0 (c : Dev nD) :
    (V m c main_v0 : S32x3x512x512.Idx → Elt F .f32)
      = transpose S32x3x512x512 [0, 3, 1, 2] (m ((c : Thread nD τ).loc main_arg0) : S32x512x512x3.Idx → Elt F .f32)
          transposes_S32x512x512x3_S32x3x512x512_0_3_1_2 := by
  dsimp only [Gen.V, Gen.hostOps0]
  after_results

/-- That array at `(b, ch, row, col)` is the launched image array at `(b, row, col, ch)`. -/
theorem V_main_v0_apply (c : Dev nD) (b : Fin 32) (ch : Fin 3) (row col : Fin 512) :
    (V m c main_v0 : S32x3x512x512.Idx → Elt F .f32) (ix4 b ch row col)
      = (m ((c : Thread nD τ).loc main_arg0) : S32x512x512x3.Idx → Elt F .f32) (ix4 b row col ch) := by
  rw [V_main_v0]
  exact transpose_apply [0, 3, 1, 2] _ transposes_S32x512x512x3_S32x3x512x512_0_3_1_2 (ix4 b ch row col) (ix4 b row col ch)
    (fun a => match a with
      | ⟨0, _⟩ => rfl
      | ⟨1, _⟩ => rfl
      | ⟨2, _⟩ => rfl
      | ⟨3, _⟩ => rfl)

/-- The printed index maps, decided over the grid: point `t` is image `t / 4`, row tile `t % 4`. -/
theorem idx_facts0 : ∀ t : Fin cfg0.N, win0_0.index t (0 : Fin 4) = t.val / 4 ∧ win0_0.index t (1 : Fin 4) = 0
    ∧ win0_0.index t (2 : Fin 4) = t.val % 4 ∧ win0_0.index t (3 : Fin 4) = 0 :=
  (by decide +kernel : ∀ t : Fin grid0.N, _)

/-- The input window's block at point `t` holds, at `(0, ch, r, w)`, the pixel of image `t / 4`, row
    `(t % 4) · 128 + r`, column `w`, channel `ch`. -/
theorem in_block (c : Dev nD) (t : Fin cfg0.N) (ch : Fin 3) (r : Fin 128) (w : Fin 512) :
    (iblk m c 0 t : S1x3x128x512.Idx → Elt F .f32) (ix4 (0 : Fin 1) ch r w)
      = (m ((c : Thread nD τ).loc main_arg0) : S32x512x512x3.Idx → Elt F .f32)
          (ix4 (⟨t.val / 4, by have := t.isLt; have hN : cfg0.N = 128 := N_0; omega⟩ : Fin 32)
            (⟨(t.val % 4) * 128 + r.val, by have := r.isLt; omega⟩ : Fin 512) w ch) := by
  obtain ⟨e0, e1, e2, e3⟩ := idx_facts0 t
  refine Eq.trans ?_ (V_main_v0_apply m c _ _ _ _)
  unfold iblk
  rw [View.read_apply]
  show V m c main_v0 _ = V m c main_v0 _
  refine congrArg (V m c main_v0) (funext fun a => Fin.ext ?_)
  match a with
  | ⟨0, _⟩ => show win0_0.index t (0 : Fin 4) * 1 + 1 * (0 : Nat) = t.val / 4; omega
  | ⟨1, _⟩ => show win0_0.index t (1 : Fin 4) * 3 + 1 * ch.val = ch.val; omega
  | ⟨2, _⟩ => show win0_0.index t (2 : Fin 4) * 128 + 1 * r.val = (t.val % 4) * 128 + r.val; omega
  | ⟨3, _⟩ => show win0_0.index t (3 : Fin 4) * 512 + 1 * w.val = w.val; omega

/-- The result window's index map, decided over the grid: point `t` writes image `t / 4`'s block. -/
theorem idx_facts1 : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- The result window's block at point `t`, read off any array `G` of the result's shape: at `(0, k, ch)` it is
    `G` at image `t / 4`, bin row `k`, channel `ch`. -/
theorem out_block (c : Dev nD) (G : Buf (Elt F) ((cfg0.win 1).arr.view.loc (c.tc : Thread nD τ))) (t : Fin cfg0.N)
    (k : Fin 256) (ch : Fin 3) :
    (((cfg0.win 1).blk t).view.read (Elt F) G : S1x256x3.Idx → Elt F .f32) (ix3 (0 : Fin 1) k ch)
      = (G : S32x256x3.Idx → Elt F .f32)
          (ix3 (⟨t.val / 4, by have := t.isLt; have hN : cfg0.N = 128 := N_0; omega⟩ : Fin 32) k ch) := by
  obtain ⟨e0, e1, e2⟩ := idx_facts1 t
  rw [View.read_apply]
  refine congrArg G (funext fun a => Fin.ext ?_)
  match a with
  | ⟨0, _⟩ => show win0_1.index t (0 : Fin 3) * 1 + 1 * (0 : Nat) = t.val / 4; omega
  | ⟨1, _⟩ => show win0_1.index t (1 : Fin 3) * 256 + 1 * k.val = k.val; omega
  | ⟨2, _⟩ => show win0_1.index t (2 : Fin 3) * 3 + 1 * ch.val = ch.val; omega

/-- An index of the result array is in point `t`'s block iff each coordinate is in the block's range on its axis. -/
theorem mem_blk1 (t : Fin cfg0.N) (i : S32x256x3.Idx) :
    i ∈ ((cfg0.win 1).blk t).view.set ↔ ∀ a : Fin 3, win0_1.index t a * S1x256x3.size a ≤ (i a).val
      ∧ (i a).val < win0_1.index t a * S1x256x3.size a + S1x256x3.size a := by
  show i ∈ ((View.whole main_v1).slice (win0_1.rect t)).set ↔ _
  rw [View.set_slice_whole, Rect.mem_set_unit]
  exact Iff.rfl

/-- Every index of the result array lies in the block some point writes back: image `b`'s block is written at the
    last of its four points, `4 · b + 3`. -/
theorem out_cover (c : Dev nD) : ∀ i : ((cfg0.win 1).arr.view.loc (c.tc : Thread nD τ)).2.ty.Idx,
    ∃ t : Fin cfg0.N, (cfg0.win 1).flush t = true ∧ i ∈ ((cfg0.win 1).blk t).view.set := by
  intro i
  have hi0 : ((i : S32x256x3.Idx) 0).val < 32 := ((i : S32x256x3.Idx) 0).isLt
  have hi1 : ((i : S32x256x3.Idx) 1).val < 256 := ((i : S32x256x3.Idx) 1).isLt
  have hi2 : ((i : S32x256x3.Idx) 2).val < 3 := ((i : S32x256x3.Idx) 2).isLt
  have hN : cfg0.N = 128 := N_0
  let t : Fin cfg0.N := ⟨4 * ((i : S32x256x3.Idx) 0).val + 3, by omega⟩
  have ht : t.val = 4 * ((i : S32x256x3.Idx) 0).val + 3 := rfl
  obtain ⟨e0, e1, e2⟩ := idx_facts1 t
  refine ⟨t, (flush0_1 t).2 (by omega), ?_⟩
  rw [mem_blk1]
  intro a
  match a with
  | ⟨0, _⟩ =>
    show win0_1.index t (0 : Fin 3) * 1 ≤ ((i : S32x256x3.Idx) 0).val
      ∧ ((i : S32x256x3.Idx) 0).val < win0_1.index t (0 : Fin 3) * 1 + 1
    omega
  | ⟨1, _⟩ =>
    show win0_1.index t (1 : Fin 3) * 256 ≤ ((i : S32x256x3.Idx) 1).val
      ∧ ((i : S32x256x3.Idx) 1).val < win0_1.index t (1 : Fin 3) * 256 + 256
    omega
  | ⟨2, _⟩ =>
    show win0_1.index t (2 : Fin 3) * 3 ≤ ((i : S32x256x3.Idx) 2).val
      ∧ ((i : S32x256x3.Idx) 2).val < win0_1.index t (2 : Fin 3) * 3 + 3
    omega

end Cert.KernelIdeal.Blocks
end
-- ==== Proof.ValueI.lean ====
/-
  The histogram kernel's value: after the run the result array holds the normalised histogram of the image array.

  One tile's run adds, to row `ch` of the counts, the hits of the tile's 128 rows of channel `ch` (sixteen chunks of
  eight rows). So after tile `j` of image `b` the counts hold the hits of tiles `0 … j`, and after the last tile
  those of all 512 rows, which is `count`. The last tile stores `count / max (total, eps)`, transposed, into the
  output block, and only that block is written back: block `b` of the result. The blocks of the 32 images cover it.
-/
import proofs.«181129_j85787676770927_2_alg».proof.Proof.CountsI
import proofs.«181129_j85787676770927_2_alg».proof.Proof.LoopSum
import proofs.«181129_j85787676770927_2_alg».proof.Proof.Blocks
set_option maxRecDepth 16384

noncomputable section

namespace Cert.KernelIdeal.HistValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Body Idealize.ShloMosaic.ValueIdx Cert.HistSpec

/-! ## One block, one tile -/

/-- The hits of channel `ch` of an input block `[1, 3, 128, 512]` in bin `k + 1`, chunk by chunk. -/
def blockCount (x0 : Vec Ideal S1x3x128x512 .f32) (ch : Fin 3) (k : Fin 256) : EReal :=
  ∑ s : Fin 16, ∑ r : Fin 8, ∑ w : Fin 512, hit (x0 (ix4 (0 : Fin 1) ch ⟨s.val * 8 + r.val, by omega⟩ w)) (target k)

/-- The hits of rows `128·tile … 128·tile + 127` of image `b`, channel `ch`. -/
def tileCount (X : SX.Idx → EReal) (b : Fin 32) (ch : Fin 3) (tile : Fin 4) (k : Fin 256) : EReal :=
  ∑ s : Fin 16, ∑ r : Fin 8, ∑ w : Fin 512, hit (X (ix4 b ⟨tile.val * 128 + s.val * 8 + r.val, by omega⟩ w ch)) (target k)

/-- The four tiles are the 512 rows. -/
theorem count_eq_tiles (X : SX.Idx → EReal) (b : Fin 32) (ch : Fin 3) (k : Fin 256) :
    HistSpec.count X b ch k = ∑ tile : Fin 4, tileCount X b ch tile k := by
  unfold HistSpec.count tileCount
  exact (Pay.sum_rows_regroup (fun h => ∑ w : Fin 512, hit (X (ix4 b h w ch)) (target k))).symm

/-- The hits of tiles `0 … j`. -/
def partialCount (X : SX.Idx → EReal) (b : Fin 32) (ch : Fin 3) (j : ℕ) (k : Fin 256) : EReal :=
  ∑ tile : Fin 4, if tile.val ≤ j then tileCount X b ch tile k else 0

theorem partial_zero (X : SX.Idx → EReal) (b : Fin 32) (ch : Fin 3) (k : Fin 256) :
    partialCount X b ch 0 k = tileCount X b ch 0 k := by
  unfold partialCount; rw [Fin.sum_univ_four]; simp

theorem partial_step (X : SX.Idx → EReal) (b : Fin 32) (ch : Fin 3) (k : Fin 256) (j j' : ℕ) (hj' : j' < 4) (h : j' = j + 1) :
    partialCount X b ch j k + tileCount X b ch ⟨j', hj'⟩ k = partialCount X b ch j' k := by
  subst h
  unfold partialCount; rw [Fin.sum_univ_four, Fin.sum_univ_four]
  have hj : j = 0 ∨ j = 1 ∨ j = 2 := by omega
  rcases hj with rfl | rfl | rfl <;> simp [add_assoc] <;> rfl

theorem partial_three (X : SX.Idx → EReal) (b : Fin 32) (ch : Fin 3) (k : Fin 256) :
    partialCount X b ch 3 k = ∑ tile : Fin 4, tileCount X b ch tile k := by
  unfold partialCount
  exact Finset.sum_congr rfl fun tile _ => if_pos (by omega)

/-! ## The three situations, at any channel -/

section Cases
variable (c : Dev nD) (i : grid0.Coords) (arg2 : Memref sig .tc .vmem S1x3x128x512 .f32) (harg2 : arg2.IsWhole) (arg3 : Memref sig .tc .vmem S1x256x3 .f32) (harg3 : arg3.IsWhole) (arg4 : Memref sig .tc .vmem S3x256 .f32) (harg4 : arg4.IsWhole)

theorem accFirst_apply (hc0 : atFirst i) (hc1 : ¬atLast i) (x0 : Vec Ideal S1x3x128x512 .f32) (ch : Fin 3) (k : Fin 256) :
    accFirst c i arg2 harg2 arg3 harg3 arg4 harg4 hc0 hc1 x0 (ix2 ch k) = blockCount x0 ch k := by
  match ch with
  | ⟨0, _⟩ => exact (accFirst_row0 c i arg2 harg2 arg3 harg3 arg4 harg4 hc0 hc1 x0 k).trans (LoopSum.loop1_sum Variants.none c none i arg2 harg2 arg3 harg3 arg4 harg4 x0 k)
  | ⟨1, _⟩ => exact (accFirst_row1 c i arg2 harg2 arg3 harg3 arg4 harg4 hc0 hc1 x0 k).trans (LoopSum.loop2_sum Variants.none c none i arg2 harg2 arg3 harg3 arg4 harg4 x0 k)
  | ⟨2, _⟩ => exact (accFirst_row2 c i arg2 harg2 arg3 harg3 arg4 harg4 hc0 hc1 x0 k).trans (LoopSum.loop3_sum Variants.none c none i arg2 harg2 arg3 harg3 arg4 harg4 x0 k)

theorem accMid_apply (hc0 : ¬atFirst i) (hc1 : ¬atLast i) (x0 : Vec Ideal S1x3x128x512 .f32) (xs0 : Vec Ideal S3x256 .f32) (ch : Fin 3) (k : Fin 256) :
    accMid c i arg2 harg2 arg3 harg3 arg4 harg4 hc0 hc1 x0 xs0 (ix2 ch k) = xs0 (ix2 ch k) + blockCount x0 ch k := by
  match ch with
  | ⟨0, _⟩ => exact (accMid_row0 c i arg2 harg2 arg3 harg3 arg4 harg4 hc0 hc1 x0 xs0 k).trans (congrArg (_ + ·) (LoopSum.loop1_sum Variants.none c none i arg2 harg2 arg3 harg3 arg4 harg4 x0 k))
  | ⟨1, _⟩ => exact (accMid_row1 c i arg2 harg2 arg3 harg3 arg4 harg4 hc0 hc1 x0 xs0 k).trans (congrArg (_ + ·) (LoopSum.loop2_sum Variants.none c none i arg2 harg2 arg3 harg3 arg4 harg4 x0 k))
  | ⟨2, _⟩ => exact (accMid_row2 c i arg2 harg2 arg3 harg3 arg4 harg4 hc0 hc1 x0 xs0 k).trans (congrArg (_ + ·) (LoopSum.loop3_sum Variants.none c none i arg2 harg2 arg3 harg3 arg4 harg4 x0 k))

theorem accLast_apply (hc0 : ¬atFirst i) (hc1 : atLast i) (x0 : Vec Ideal S1x3x128x512 .f32) (xs0 : Vec Ideal S3x256 .f32) (ch : Fin 3) (k : Fin 256) :
    accLast c i arg2 harg2 arg3 harg3 arg4 harg4 hc0 hc1 x0 xs0 (ix2 ch k) = xs0 (ix2 ch k) + blockCount x0 ch k := by
  match ch with
  | ⟨0, _⟩ => exact (accLast_row0 c i arg2 harg2 arg3 harg3 arg4 harg4 hc0 hc1 x0 xs0 k).trans (congrArg (_ + ·) (LoopSum.loop1_sum Variants.none c none i arg2 harg2 arg3 harg3 arg4 harg4 x0 k))
  | ⟨1, _⟩ => exact (accLast_row1 c i arg2 harg2 arg3 harg3 arg4 harg4 hc0 hc1 x0 xs0 k).trans (congrArg (_ + ·) (LoopSum.loop2_sum Variants.none c none i arg2 harg2 arg3 harg3 arg4 harg4 x0 k))
  | ⟨2, _⟩ => exact (accLast_row2 c i arg2 harg2 arg3 harg3 arg4 harg4 hc0 hc1 x0 xs0 k).trans (congrArg (_ + ·) (LoopSum.loop3_sum Variants.none c none i arg2 harg2 arg3 harg3 arg4 harg4 x0 k))

end Cases

/-! ## Point by point -/

variable (m : (ℓ : Loc nD τ sig) → Buf (Elt Ideal) ℓ) (ρ : Dev nD → PrngReg)

/-- The image array on core `c`, as launched. -/
abbrev img (c : Dev nD) : S32x512x512x3.Idx → EReal := m ((c.tc : Thread nD τ).loc main_arg0)

theorem lt_images (t : Fin cfg0.N) : t.val / 4 < 32 := by
  have := t.isLt; have : cfg0.N = 128 := N_0; omega

/-- The input block at point `t` is tile `t mod 4` of image `t / 4`. -/
theorem blockCount_iblk (c : Dev nD) (t : Fin cfg0.N) (ch : Fin 3) (k : Fin 256) :
    blockCount (iblk m c 0 t) ch k = tileCount (img m c) ⟨t.val / 4, lt_images t⟩ ch ⟨t.val % 4, Nat.mod_lt _ (by decide)⟩ k := by
  unfold blockCount tileCount
  refine Finset.sum_congr rfl fun s _ => Finset.sum_congr rfl fun r _ => Finset.sum_congr rfl fun w _ => ?_
  refine congrArg (hit · (target k)) ?_
  refine (Blocks.in_block m c t ch ⟨s.val * 8 + r.val, by omega⟩ w).trans ?_
  refine congrArg (img m c) ?_
  funext a
  match a with
  | ⟨0, _⟩ => rfl
  | ⟨1, _⟩ => exact Fin.ext (by show t.val % 4 * 128 + (s.val * 8 + r.val) = t.val % 4 * 128 + s.val * 8 + r.val; omega)
  | ⟨2, _⟩ => rfl
  | ⟨3, _⟩ => rfl

set_option maxHeartbeats 4000000 in
/-- After point `t` the counts hold the hits of tiles `0 … t mod 4` of image `t / 4`. -/
theorem counts_at (c : Dev nD) (t : Fin cfg0.N) : ∀ (ch : Fin 3) (k : Fin 256),
    (stateAt m c t.val t.isLt).2 (ix2 ch k) = partialCount (img m c) ⟨t.val / 4, lt_images t⟩ ch (t.val % 4) k := by
  obtain ⟨n, hn⟩ := t
  induction n with
  | zero =>
    intro ch k
    have h := stateAt_first m c ⟨0, hn⟩ (Nat.zero_mod _)
    refine (congrFun (congrArg Prod.snd h) (ix2 ch k)).trans ?_
    refine (accFirst_apply c (grid0.coords ⟨0, hn⟩) (inM ⟨0, hn⟩) (inW ⟨0, hn⟩) (outM ⟨0, hn⟩) (outW ⟨0, hn⟩) accM (Memref.isWhole_whole _) (first_of ⟨0, hn⟩ (Nat.zero_mod _)).1 (first_of ⟨0, hn⟩ (Nat.zero_mod _)).2 (iblk m c 0 ⟨0, hn⟩) ch k).trans ?_
    refine (blockCount_iblk m c ⟨0, hn⟩ ch k).trans ?_
    exact (partial_zero _ _ _ _).symm
  | succ n ih =>
    intro ch k
    have hn' : n < cfg0.N := Nat.lt_of_succ_lt hn
    by_cases h0 : (n + 1) % 4 = 0
    · have h := stateAt_first m c ⟨n + 1, hn⟩ h0
      refine (congrFun (congrArg Prod.snd h) (ix2 ch k)).trans ?_
      refine (accFirst_apply c (grid0.coords ⟨n + 1, hn⟩) (inM ⟨n + 1, hn⟩) (inW ⟨n + 1, hn⟩) (outM ⟨n + 1, hn⟩) (outW ⟨n + 1, hn⟩) accM (Memref.isWhole_whole _) (first_of ⟨n + 1, hn⟩ h0).1 (first_of ⟨n + 1, hn⟩ h0).2 (iblk m c 0 ⟨n + 1, hn⟩) ch k).trans ?_
      refine (blockCount_iblk m c ⟨n + 1, hn⟩ ch k).trans ?_
      show tileCount _ _ ch ⟨(n + 1) % 4, _⟩ k = partialCount _ _ ch ((n + 1) % 4) k
      have e : (⟨(n + 1) % 4, Nat.mod_lt _ (by decide)⟩ : Fin 4) = 0 := Fin.ext h0
      rw [e, h0]; exact (partial_zero _ _ _ _).symm
    · have hb : (⟨n / 4, lt_images ⟨n, hn'⟩⟩ : Fin 32) = ⟨(n + 1) / 4, lt_images ⟨n + 1, hn⟩⟩ := Fin.ext (by show n / 4 = (n + 1) / 4; omega)
      have hj : (n + 1) % 4 = n % 4 + 1 := by omega
      have hprev : (stateAt m c ((⟨n + 1, hn⟩ : Fin cfg0.N).val - 1) (Nat.lt_of_le_of_lt (Nat.sub_le _ _) (⟨n + 1, hn⟩ : Fin cfg0.N).isLt)).2 (ix2 ch k) = partialCount (img m c) ⟨(n + 1) / 4, lt_images ⟨n + 1, hn⟩⟩ ch (n % 4) k := by
        rw [← hb]; exact ih hn' ch k
      by_cases h1 : (n + 1) % 4 = 3
      · have h := stateAt_last m c ⟨n + 1, hn⟩ h0 h1
        refine (congrFun (congrArg Prod.snd h) (ix2 ch k)).trans ?_
        refine (accLast_apply c (grid0.coords ⟨n + 1, hn⟩) (inM ⟨n + 1, hn⟩) (inW ⟨n + 1, hn⟩) (outM ⟨n + 1, hn⟩) (outW ⟨n + 1, hn⟩) accM (Memref.isWhole_whole _) (last_of ⟨n + 1, hn⟩ h0 h1).1 (last_of ⟨n + 1, hn⟩ h0 h1).2 (iblk m c 0 ⟨n + 1, hn⟩) (stateAt m c ((⟨n + 1, hn⟩ : Fin cfg0.N).val - 1) (Nat.lt_of_le_of_lt (Nat.sub_le _ _) (⟨n + 1, hn⟩ : Fin cfg0.N).isLt)).2 ch k).trans ?_
        refine (congrArg₂ (· + ·) hprev (blockCount_iblk m c ⟨n + 1, hn⟩ ch k)).trans ?_
        exact partial_step _ _ _ _ _ _ _ hj
      · have h := stateAt_mid m c ⟨n + 1, hn⟩ h0 h1
        refine (congrFun (congrArg Prod.snd h) (ix2 ch k)).trans ?_
        refine (accMid_apply c (grid0.coords ⟨n + 1, hn⟩) (inM ⟨n + 1, hn⟩) (inW ⟨n + 1, hn⟩) (outM ⟨n + 1, hn⟩) (outW ⟨n + 1, hn⟩) accM (Memref.isWhole_whole _) (mid_of ⟨n + 1, hn⟩ h0 h1).1 (mid_of ⟨n + 1, hn⟩ h0 h1).2 (iblk m c 0 ⟨n + 1, hn⟩) (stateAt m c ((⟨n + 1, hn⟩ : Fin cfg0.N).val - 1) (Nat.lt_of_le_of_lt (Nat.sub_le _ _) (⟨n + 1, hn⟩ : Fin cfg0.N).isLt)).2 ch k).trans ?_
        refine (congrArg₂ (· + ·) hprev (blockCount_iblk m c ⟨n + 1, hn⟩ ch k)).trans ?_
        exact partial_step _ _ _ _ _ _ _ hj

set_option maxHeartbeats 4000000 in
/-- After an image's last tile the output block holds the image's normalised histogram. -/
theorem out_at (c : Dev nD) (t : Fin cfg0.N) (h3 : t.val % 4 = 3) (k : Fin 256) (ch : Fin 3) :
    (stateAt m c t.val t.isLt).1 (ix3 (0 : Fin 1) k ch) = G (img m c) (ix3 ⟨t.val / 4, lt_images t⟩ k ch) := by
  have h0 : ¬t.val % 4 = 0 := by omega
  have h := stateAt_last m c t h0 h3
  have hacc : ∀ k' : Fin 256, accLast c (grid0.coords t) (inM t) (inW t) (outM t) (outW t) accM (Memref.isWhole_whole _) (last_of t h0 h3).1 (last_of t h0 h3).2 (iblk m c 0 t) (stateAt m c (t.val - 1) (Nat.lt_of_le_of_lt (Nat.sub_le _ _) t.isLt)).2 (ix2 ch k')
      = HistSpec.count (img m c) ⟨t.val / 4, lt_images t⟩ ch k' := fun k' => by
    have e := counts_at m c t ch k'
    rw [h3, partial_three, ← count_eq_tiles] at e
    exact (congrFun (congrArg Prod.snd h) (ix2 ch k')).symm.trans e
  refine (congrFun (congrArg Prod.fst h) (ix3 (0 : Fin 1) k ch)).trans ?_
  refine (outLast_apply c (grid0.coords t) (inM t) (inW t) (outM t) (outW t) accM (Memref.isWhole_whole _) (last_of t h0 h3).1 (last_of t h0 h3).2 (iblk m c 0 t) (stateAt m c (t.val - 1) (Nat.lt_of_le_of_lt (Nat.sub_le _ _) t.isLt)).2 k ch).trans ?_
  simp only [hacc]
  exact (G_apply _ _ _ _).symm

/-! ## The write-backs and the result array -/

/-- What a write-back writes is block `t / 4` of the histogram. -/
theorem flushed_eq (c : Dev nD) (t : Fin cfg0.N) (hf : (cfg0.win 1).flush t = true) :
    (dats m 0 c).flushed 1 t = ((cfg0.win 1).blk t).view.read (Elt Ideal) (G (img m c)) := by
  have h3 : t.val % 4 = 3 := (flush0_1 t).mp hf
  show (cfg0.win 1).cut (grid0.coords t) ((dats m 0 c).after 1 t) = _
  rw [after_out]
  funext y
  obtain ⟨a, k, ch, rfl⟩ : ∃ (a : Fin 1) (k : Fin 256) (ch : Fin 3), y = ix3 a k ch := ⟨y 0, y 1, y 2, eq_ix3 y⟩
  obtain rfl : a = 0 := Subsingleton.elim _ _
  exact (out_at m c t h3 k ch).trans (Blocks.out_block (F := Ideal) c (G (img m c)) t k ch).symm

/-- The result array ends at the histogram. -/
theorem final (c : Dev nD) : (dats m 0 c).arrAt 1 cfg0.N = G (img m c) :=
  (dats m 0 c).arrAt_eq_of_cover 1 (G (img m c)) (fun t hf => flushed_eq m c t hf) (Blocks.out_cover c)

/-- THE KERNEL'S RUN: every execution terminates with the result array at the histogram of the image array, which
    ends unchanged. -/
theorem run : θ_run defs (onTc (τ := τ) (main (F := Ideal))) ⟨m, fun _ => 0, ρ⟩ (fun r => ∀ c : Dev nD,
      r.2.mem ((c.tc : Thread nD τ).loc main_v1) = G (img m c)
      ∧ r.2.mem ((c.tc : Thread nD τ).loc main_arg0) = m ((c.tc : Thread nD τ).loc main_arg0)) :=
  (θ_run defs _ _).mono (fun _ h c => ⟨((h c).1 1).trans (final m c),
      ((h c).2 main_arg0 (Pipeline.mem_restRefs_of main_arg0 (by decide) (by decide))).trans (V_main_arg0 m c)⟩)
    (Body.run_main (F := Ideal) m ρ)

end Cert.KernelIdeal.HistValue

end
-- ==== Proof.RefHist.lean ====
/-
  The reference program computes the normalised histogram of the specification.

  The program divides each pixel value by the larger of two binary32 literals (the first, the bin width), rounds
  down, clamps to `[0, 256]` and converts to a 32-bit integer: the pixel's bin. To the bin of pixel `(b, h, w, c)` it
  adds `(b · 3 + c) · 257`, the segment id, a word below `24672` that never wraps; it flattens the ids row-major and
  scatter-adds a one per pixel into a zero array of `24672` elements at the position its id names. Element
  `(b · 3 + c) · 257 + n` of the result therefore counts the pixels of image `b`, channel `c` whose bin is `n`. Reshaped to
  `[32, 3, 257]` and sliced to bins `1 … 256`, it is the specification's count; the sum over the bins, the floor under it, the
  quotient and the transposition then follow the specification line by line.

  The steps, in order: (1) which update lands where, for this scatter's dimension numbers, and the scatter's value at
  an element as a sum over all flat positions; (2) the two literals as reals, and the bin the program computes;
  (3) the word arithmetic of the segment id and the bound `bin ≤ 256`; (4) sums over flat positions as sums over
  image, row, column and channel, and the collapse of the image and channel sums; (5) the count; (6) the result.
-/
import proofs.«181129_j85787676770927_2_alg».proof.Proof.Gen.ReferenceIdeal.Read
import proofs.«181129_j85787676770927_2_alg».proof.Proof.HistSpec

noncomputable section

open scoped BigOperators

namespace Cert.ReferenceIdeal.RefValue

open Cert.ReferenceIdeal Cert.ReferenceIdeal.Gen Idealize.ShloMosaic Idealize.ShloMosaic.ValueIdx Cert.ReferenceIdeal.Read

/-! ## (1) The scatter -/

/-- The scatter's dimension numbers. -/
abbrev sd : ScatterDims S24672 S25165824x1 S25165824 := scatter_S24672_S25165824x1_S25165824_n_0_0_1

theorem sd_ivd : sd.indexVectorDim = 1 := rfl
theorem sd_sdto : sd.scatterDimsToOperandDims = [0] := rfl

theorem ix1_val (j : Fin 25165824) (q : Fin 1) : (ix1 j q).val = j.val := by
  match q with | ⟨0, _⟩ => rfl

/-- Update `j` reads its one start component at row `j`, column `0` of the index array. -/
theorem siIdx_eq (j : Fin 25165824) (c : Fin sd.scatterDimsToOperandDims.length) :
    sd.siIdx (ix1 j) c = ix2 j (0 : Fin 1) := by
  funext b
  match b with
  | ⟨0, _⟩ =>
    apply Fin.ext
    simp [ScatterDims.siIdx, ScatterDims.siCoord, sd_ivd]
    exact ix1_val j _
  | ⟨1, _⟩ =>
    apply Fin.ext
    have hc : c.val = 0 := by have := c.isLt; simp [sd_sdto] at this; exact this
    simp [ScatterDims.siIdx, sd_ivd, hc]

/-- The window's start on the operand's one axis is the index word, read signed. -/
theorem start_eq {w : Nat} (j : Fin 25165824) (idx : IVec S25165824x1 w) (a : Fin 1) :
    sd.start (ix1 j) idx a = (idx (ix2 j (0 : Fin 1))).toInt := by
  have ha : a ∈ sd.scatterDimsToOperandDims := by
    rw [sd_sdto]; match a with | ⟨0, _⟩ => exact List.mem_singleton.2 rfl
  unfold ScatterDims.start
  rw [dif_pos ha, siIdx_eq]

/-- The operand's one axis is an inserted window axis: the window coordinate there is `0`. -/
theorem window_eq (j : Fin 25165824) (a : Fin 1) : sd.window (ix1 j) a = 0 := by
  have h0 : a = (0 : Fin 1) := Subsingleton.elim _ _
  have ha : a ∉ sd.sKept := by rw [h0]; decide
  unfold ScatterDims.window
  rw [dif_neg ha]

/-- The update at flat position `j` lands on operand element `i` exactly when the index word read there, as a signed
    integer, is `i`. -/
theorem resultIdx_iff {w : Nat} (idx : IVec S25165824x1 w) (j : Fin 25165824) (i : Fin 24672) :
    sd.resultIdx? (ix1 j) idx = some (ix1 i) ↔ (idx (ix2 j (0 : Fin 1))).toInt = (i.val : Int) := by
  unfold ScatterDims.resultIdx?
  simp only [start_eq, window_eq]
  have hi : i.val < 24672 := i.isLt
  constructor
  · intro h
    split at h
    · rename_i hc
      have h1 := congrArg Fin.val (congrFun (Option.some.inj h) (0 : Fin 1))
      have h2 := (hc (0 : Fin 1)).1
      change ((idx (ix2 j (0 : Fin 1))).toInt + ((0 : Nat) : Int)).toNat = i.val at h1
      omega
    · exact absurd h (by simp)
  · intro ht
    have hc : ∀ a : Fin 1, 0 ≤ (idx (ix2 j (0 : Fin 1))).toInt + ((0 : Nat) : Int) ∧
        (idx (ix2 j (0 : Fin 1))).toInt + ((0 : Nat) : Int) < ((![24672] a : Nat) : Int) := by
      intro a
      match a with
      | ⟨0, _⟩ =>
        show 0 ≤ (idx (ix2 j (0 : Fin 1))).toInt + ((0 : Nat) : Int) ∧
          (idx (ix2 j (0 : Fin 1))).toInt + ((0 : Nat) : Int) < ((24672 : Nat) : Int)
        omega
    rw [dif_pos hc]
    refine congrArg some (funext fun a => ?_)
    match a with
    | ⟨0, _⟩ =>
      apply Fin.ext
      show ((idx (ix2 j (0 : Fin 1))).toInt + ((0 : Nat) : Int)).toNat = i.val
      omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The accumulating scatter of this program at an operand element: the operand's value there plus the updates
    whose index word, read signed, is that element's position. -/
theorem scatterAdd_apply (x : S24672.Idx → EReal) (idx : IVec S25165824x1 32) (upd : S25165824.Idx → EReal)
    (i : Fin 24672) :
    Ideal.hostScatterAdd sd x idx upd (ix1 i)
      = x (ix1 i) + ∑ j : Fin 25165824, if (idx (ix2 j (0 : Fin 1))).toInt = (i.val : Int) then upd (ix1 j) else 0 := by
  unfold Ideal.hostScatterAdd
  refine congrArg (x (ix1 i) + ·) ?_
  rw [Finset.sum_filter, sum_idx1]
  refine Finset.sum_congr rfl fun j _ => ?_
  exact if_congr (resultIdx_iff idx j i) rfl rfl

/-! ## (2) The literals and the bin -/

/-- The first literal, as a real: `16711935 · 2⁻³²`. -/
theorem width_val : Ideal.ofBits .f32 0x3B7F00FF#32 = (((16711935 : ℝ) * (2 : ℝ) ^ (-32 : Int) : ℝ) : EReal) := by
  simp [Ideal.ofBits, Ideal.ieee, -EReal.coe_mul]

/-- The second literal, as a real: `14073749 · 2⁻⁴⁷`. -/
theorem eps_val : Ideal.ofBits .f32 0x33D6BF95#32 = (((14073749 : ℝ) * (2 : ℝ) ^ (-47 : Int) : ℝ) : EReal) := by
  simp [Ideal.ofBits, Ideal.ieee, -EReal.coe_mul]

/-- The larger of the two literals is the first: the divisor the program computes is the bin width. -/
theorem max_width_eps :
    max (Ideal.ofBits .f32 0x3B7F00FF#32) (Ideal.ofBits .f32 0x33D6BF95#32) = Cert.HistSpec.width := by
  unfold Cert.HistSpec.width
  refine max_eq_left ?_
  rw [width_val, eps_val, EReal.coe_le_coe_iff]
  norm_num

/-- The 32-bit bin the program computes for the pixel value at `p` is the specification's. -/
theorem v5_eq (x0 : (⟨S32x512x512x3, .f32⟩ : BufTy).Contents (Elt Ideal)) (p : S32x512x512x3.Idx) :
    val_main_v5 (F := Ideal) x0 p = Cert.HistSpec.binOf (x0 p) := by
  rw [val_main_v5_apply, val_main_v4_apply, val_main_call0_v4_apply, val_main_call0_v3_apply, val_main_c_1_apply,
    val_main_call0_v2_apply, val_main_call0_v1_apply, val_main_call0_v0_apply, val_main_c_apply,
    val_main_v3_apply, val_main_v2_apply, val_main_v1_apply, val_main_v0_apply, val_main_cst_apply,
    val_main_cst_0_apply]
  simp only [Ideal.maximumf_def, Ideal.minimumf_def, Ideal.hostDivf_def, Ideal.hostUnary_floor_def, Ideal.ofBits_def]
  rw [max_width_eps]
  rfl

/-! ## (3) The segment id -/

/-- Word arithmetic of the segment id. With `b' < 32`, `c' < 3` and a bin `n ≤ 256`, the 32-bit word
    `(b' · 3 + c') · 257 + n` does not wrap, and read as a signed integer it is the flat position of
    `(b, c, 1 + k)` in a `[32, 3, 257]` array exactly when `b' = b`, `c' = c` and `n = k + 1`. -/
theorem seg_toInt_iff (b' : Fin 32) (c' : Fin 3) (n : Nat) (hn : n ≤ 256) (b : Fin 32) (c : Fin 3) (k : Fin 256) :
    (IntOp.addi (IntOp.muli (IntOp.addi (IntOp.muli (BitVec.ofNat 32 b'.val) 3#32) (BitVec.ofNat 32 c'.val)) 257#32)
        (BitVec.ofNat 32 n)).toInt = (((b.val * 3 + c.val) * 257 + (1 + k.val) : Nat) : Int)
      ↔ (b' = b ∧ c' = c ∧ n = k.val + 1) := by
  have hb' := b'.isLt
  have hc' := c'.isLt
  have hb := b.isLt
  have hc := c.isLt
  have hk := k.isLt
  have hw : IntOp.addi (IntOp.muli (IntOp.addi (IntOp.muli (BitVec.ofNat 32 b'.val) 3#32) (BitVec.ofNat 32 c'.val)) 257#32)
        (BitVec.ofNat 32 n) = BitVec.ofNat 32 ((b'.val * 3 + c'.val) * 257 + n) := by
    simp only [IntOp.addi, IntOp.muli, BitVec.ofNat_add, BitVec.ofNat_mul]
  rw [hw, BitVec.toInt_eq_toNat_cond, BitVec.toNat_ofNat]
  have h32 : (2 : Nat) ^ 32 = 4294967296 := by norm_num
  rw [h32]
  have hlt : ((b'.val * 3 + c'.val) * 257 + n) % 4294967296 = (b'.val * 3 + c'.val) * 257 + n := by omega
  rw [hlt, if_pos (by omega)]
  constructor
  · intro h
    have h' : (b'.val * 3 + c'.val) * 257 + n = (b.val * 3 + c.val) * 257 + (1 + k.val) := by exact_mod_cast h
    refine ⟨Fin.ext ?_, Fin.ext ?_, ?_⟩ <;> omega
  · rintro ⟨rfl, rfl, rfl⟩
    push_cast
    omega

/-- A pixel's bin is a 32-bit word `n` with `n ≤ 256`: the clamp leaves a real in `[0, 256]`, whose integer part
    the conversion returns unchanged. -/
theorem binOf_bound (x : EReal) : ∃ n : Nat, n ≤ 256 ∧ Cert.HistSpec.binOf x = BitVec.ofNat 32 n := by
  unfold Cert.HistSpec.binOf
  have h256 : ((256#32 : BitVec 32).toInt : ℝ) = 256 := by
    have : (256#32 : BitVec 32).toInt = 256 := by decide
    rw [this]; norm_num
  have h0 : ((0#32 : BitVec 32).toInt : ℝ) = 0 := by
    have : (0#32 : BitVec 32).toInt = 0 := by decide
    rw [this]; norm_num
  rw [h256, h0]
  generalize Ideal.liftRound Int.floor (Ideal.div x Cert.HistSpec.width) = y
  have hlo : (0 : EReal) ≤ min (((256 : ℝ) : EReal)) (max (((0 : ℝ) : EReal)) y) :=
    le_min (by exact_mod_cast (by norm_num : (0 : ℝ) ≤ 256)) (le_max_left _ _)
  have hhi : min (((256 : ℝ) : EReal)) (max (((0 : ℝ) : EReal)) y) ≤ ((256 : ℝ) : EReal) := min_le_left _ _
  generalize min (((256 : ℝ) : EReal)) (max (((0 : ℝ) : EReal)) y) = z at hlo hhi
  induction z using EReal.rec with
  | bot => exact absurd hlo (by simp)
  | top => exact absurd hhi (by simp)
  | coe r =>
    have hr0 : (0 : ℝ) ≤ r := by exact_mod_cast hlo
    have hr1 : r ≤ 256 := by exact_mod_cast hhi
    have hf0 : 0 ≤ ⌊r⌋ := Int.floor_nonneg.2 hr0
    have hf1 : ⌊r⌋ ≤ 256 := by
      have : ⌊r⌋ < 257 := Int.floor_lt.2 (by push_cast; linarith)
      omega
    refine ⟨⌊r⌋.toNat, by omega, ?_⟩
    show Ideal.fptosi 32 (r : EReal) = _
    rw [Ideal.fptosi, Ideal.toIntClamped_coe, if_pos hr0]
    have hcl : max (-((2 ^ (32 - 1) : Nat) : Int)) (min (((2 ^ (32 - 1) : Nat) : Int) - 1) ⌊r⌋) = ((⌊r⌋.toNat : Nat) : Int) := by
      have h31 : ((2 ^ (32 - 1) : Nat) : Int) = 2147483648 := by norm_num
      rw [h31]; omega
    rw [hcl, BitVec.ofInt_natCast]

/-! ## (4) Re-indexing -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The row-major matching of the flat positions with the `[32, 512, 512, 3]` indices. -/
def flatEquiv : S25165824.Idx ≃ S32x512x512x3.Idx := Shape.reshapeEquiv shapeCasts_S32x512x512x3_S25165824

/-- It sends a flat position to the index the reshape reads. -/
theorem flatEquiv_apply (J : S25165824.Idx) : flatEquiv J = idx_main_v19 J := by
  refine Shape.reshapeEquiv_eq_of_rowMajor _ ?_
  rewrite [Shape.rowMajor_val_four, Shape.rowMajor_val_one]
  have h0 : (J 0).val < 25165824 := (J 0).isLt
  show ((((J 0).val) / 786432 * 512 + ((J 0).val) / 1536 % 512) * 512 + ((J 0).val) / 3 % 512) * 3 + ((J 0).val) % 3 = (J 0).val
  omega

/-- A sum over the flat positions of a function of the index the reshape reads there is the fourfold sum over
    image, row, column and channel. -/
theorem sum_flat {M : Type*} [AddCommMonoid M] (f : S32x512x512x3.Idx → M) :
    ∑ j : Fin 25165824, f (idx_main_v19 (ix1 j))
      = ∑ b : Fin 32, ∑ h : Fin 512, ∑ w : Fin 512, ∑ c : Fin 3, f (ix4 b h w c) := by
  rw [← sum_idx4 f, ← Equiv.sum_comp flatEquiv f, sum_idx1]
  exact Finset.sum_congr rfl fun j _ => congrArg f (flatEquiv_apply (ix1 j)).symm

/-- A fourfold sum whose terms vanish off one image and one channel is the double sum over that image's and
    channel's pixels. -/
theorem sum_collapse {M : Type*} [AddCommMonoid M] (b : Fin 32) (c : Fin 3)
    (g : Fin 32 → Fin 512 → Fin 512 → Fin 3 → M) :
    ∑ b' : Fin 32, ∑ h : Fin 512, ∑ w : Fin 512, ∑ c' : Fin 3, (if b' = b ∧ c' = c then g b' h w c' else 0)
      = ∑ h : Fin 512, ∑ w : Fin 512, g b h w c := by
  rw [Finset.sum_eq_single b]
  · refine Finset.sum_congr rfl fun h _ => Finset.sum_congr rfl fun w _ => ?_
    rw [Finset.sum_eq_single c]
    · rw [if_pos ⟨rfl, rfl⟩]
    · intro c' _ hne; rw [if_neg (fun hh => hne hh.2)]
    · intro hh; exact absurd (Finset.mem_univ c) hh
  · intro b' _ hne
    refine Finset.sum_eq_zero fun h _ => Finset.sum_eq_zero fun w _ => Finset.sum_eq_zero fun c' _ => ?_
    rw [if_neg (fun hh => hne hh.1)]
  · intro hh; exact absurd (Finset.mem_univ b) hh

/-- The segment id the program computes at pixel `(b, h, w, c)`: the word `(b · 3 + c) · 257` plus the pixel's bin. -/
theorem v18_eq (x0 : (⟨S32x512x512x3, .f32⟩ : BufTy).Contents (Elt Ideal)) (b : Fin 32) (h w : Fin 512) (c : Fin 3) :
    val_main_v18 (F := Ideal) x0 (ix4 b h w c)
      = IntOp.addi (IntOp.muli (IntOp.addi (IntOp.muli (BitVec.ofNat 32 b.val) 3#32) (BitVec.ofNat 32 c.val)) 257#32)
          (Cert.HistSpec.binOf (x0 (ix4 b h w c))) := by
  rw [val_main_v18_apply, v5_eq, val_main_v17_apply, val_main_v16_apply, val_main_v15_apply, val_main_c_3_apply,
    val_main_v14_apply, val_main_v12_apply, val_main_v11_apply, val_main_v10_apply, val_main_c_2_apply,
    val_main_v7_apply, val_main_v6_apply, val_main_v13_apply, val_main_v9_apply, val_main_v8_apply]

/-- The index word the scatter reads at flat position `j` is the segment id at the pixel the reshape reads there. -/
theorem v22_eq (x0 : (⟨S32x512x512x3, .f32⟩ : BufTy).Contents (Elt Ideal)) (j : Fin 25165824) :
    val_main_v22 (F := Ideal) x0 (ix2 j (0 : Fin 1)) = val_main_v18 (F := Ideal) x0 (idx_main_v19 (ix1 j)) := by
  rw [val_main_v22_apply, ← val_main_v19_apply]
  refine congrArg (val_main_v19 (F := Ideal) x0) (funext fun a => ?_)
  match a with
  | ⟨0, _⟩ => rfl

/-! ## (5) The count -/

/-- One pixel's contribution to the operand element of `(b, c, 1 + k)`: its hit on bin `k + 1` when the pixel is in
    image `b` and channel `c`, nothing otherwise. -/
theorem pixel_term (x0 : (⟨S32x512x512x3, .f32⟩ : BufTy).Contents (Elt Ideal)) (b' : Fin 32) (h w : Fin 512) (c' : Fin 3)
    (b : Fin 32) (c : Fin 3) (k : Fin 256) :
    (if (val_main_v18 (F := Ideal) x0 (ix4 b' h w c')).toInt = (((b.val * 3 + c.val) * 257 + (1 + k.val) : Nat) : Int)
        then (1 : EReal) else 0)
      = if b' = b ∧ c' = c then Cert.HistSpec.hit (x0 (ix4 b' h w c')) (Cert.HistSpec.target k) else 0 := by
  obtain ⟨n, hn, hbin⟩ := binOf_bound (x0 (ix4 b' h w c'))
  have hk := k.isLt
  rw [v18_eq, hbin, if_congr (seg_toInt_iff b' c' n hn b c k) rfl rfl]
  unfold Cert.HistSpec.hit Cert.HistSpec.target
  rw [hbin]
  have hword : BitVec.ofNat 32 n = BitVec.ofNat 32 (k.val + 1) ↔ n = k.val + 1 := by
    constructor
    · intro hh
      have h2 := congrArg BitVec.toNat hh
      rw [BitVec.toNat_ofNat, BitVec.toNat_ofNat] at h2
      have h32 : (2 : Nat) ^ 32 = 4294967296 := by norm_num
      rw [h32] at h2
      omega
    · intro hh; rw [hh]
  by_cases hbc : b' = b ∧ c' = c
  · rw [if_pos hbc]
    exact if_congr ⟨fun hh => hword.2 hh.2.2, fun hh => ⟨hbc.1, hbc.2, hword.1 hh⟩⟩ rfl rfl
  · rw [if_neg hbc, if_neg (fun hh => hbc ⟨hh.1, hh.2.1⟩)]

/-- The flat position of `(b, c, 1 + k)` in a `[32, 3, 257]` array. -/
def flatPos (b : Fin 32) (c : Fin 3) (k : Fin 256) : Fin 24672 :=
  ⟨(b.val * 3 + c.val) * 257 + (1 + k.val), by
    have hb := b.isLt
    have hc := c.isLt
    have hk := k.isLt
    omega⟩

/-- The slice `[.., 1:257]` of the reshape `[24672] → [32, 3, 257]` reads the scatter result there. -/
theorem v25_read (x0 : (⟨S32x512x512x3, .f32⟩ : BufTy).Contents (Elt Ideal)) (b : Fin 32) (c : Fin 3) (k : Fin 256) :
    val_main_v25 (F := Ideal) x0 (ix3 b c k) = val_main_v23 (F := Ideal) x0 (ix1 (flatPos b c k)) := by
  rw [val_main_v25_apply, val_main_v24_apply]
  refine congrArg (val_main_v23 (F := Ideal) x0) (funext fun a => ?_)
  match a with
  | ⟨0, _⟩ => rfl

/-- The update the scatter adds at every flat position is the literal one. -/
theorem v20_one (j : Fin 25165824) : val_main_v20 (F := Ideal) (ix1 j) = 1 := by
  rw [val_main_v20_apply, val_main_cst_4_apply, Ideal.ofBits_def]
  simp [Ideal.ofBits, Ideal.ieee, -EReal.coe_mul]
  norm_num

/-- The operand the scatter accumulates into is zero everywhere. -/
theorem v21_zero (i : Fin 24672) : val_main_v21 (F := Ideal) (ix1 i) = 0 := by
  rw [val_main_v21_apply, val_main_cst_5_apply, Ideal.ofBits_def, Ideal.ofBits_zero_f32]

/-- The scatter result, as the exact accumulating scatter of the zero operand, the segment ids and the ones. -/
theorem v23_def (x0 : (⟨S32x512x512x3, .f32⟩ : BufTy).Contents (Elt Ideal)) :
    val_main_v23 (F := Ideal) x0
      = Ideal.hostScatterAdd sd (val_main_v21 (F := Ideal)) (val_main_v22 (F := Ideal) x0) (val_main_v20 (F := Ideal)) := by
  unfold val_main_v23 Host.scatterAdd
  rw [Ideal.hostScatterAdd_def]

/-- The scatter result at operand element `i`: the number of flat positions whose segment id, read signed, is `i`. -/
theorem v23_apply (x0 : (⟨S32x512x512x3, .f32⟩ : BufTy).Contents (Elt Ideal)) (i : Fin 24672) :
    val_main_v23 (F := Ideal) x0 (ix1 i)
      = ∑ j : Fin 25165824,
          if (val_main_v18 (F := Ideal) x0 (idx_main_v19 (ix1 j))).toInt = (i.val : Int) then (1 : EReal) else 0 := by
  rw [v23_def, scatterAdd_apply, v21_zero, zero_add]
  refine Finset.sum_congr rfl fun j _ => ?_
  rw [v20_one, v22_eq]

/-- The sliced, reshaped scatter result at `(b, c, k)` is the specification's count. -/
theorem v25_eq (x0 : (⟨S32x512x512x3, .f32⟩ : BufTy).Contents (Elt Ideal)) (b : Fin 32) (c : Fin 3) (k : Fin 256) :
    val_main_v25 (F := Ideal) x0 (ix3 b c k) = Cert.HistSpec.count x0 b c k := by
  rw [v25_read, v23_apply]
  rw [sum_flat (fun p => if (val_main_v18 (F := Ideal) x0 p).toInt = ((flatPos b c k).val : Int) then (1 : EReal) else 0)]
  refine (Finset.sum_congr rfl fun b' _ => Finset.sum_congr rfl fun h _ => Finset.sum_congr rfl fun w _ =>
    Finset.sum_congr rfl fun c' _ => pixel_term x0 b' h w c' b c k).trans ?_
  rw [sum_collapse b c (fun b' h w c' => Cert.HistSpec.hit (x0 (ix4 b' h w c')) (Cert.HistSpec.target k))]
  unfold Cert.HistSpec.count
  rfl

/-! ## (6) The result -/

/-- The reference program's result is the normalised histogram of the specification. -/
theorem ref_eq (x0 : (⟨S32x512x512x3, .f32⟩ : BufTy).Contents (Elt Ideal)) :
    val_main_v32 (F := Ideal) x0 = Cert.HistSpec.G x0 := by
  funext i
  obtain ⟨b, k, c, rfl⟩ : ∃ (b : Fin 32) (k : Fin 256) (c : Fin 3), i = ix3 b k c := ⟨i 0, i 1, i 2, eq_ix3 i⟩
  have h32 : idx_main_v32 (ix3 b k c) = ix3 b c k := by
    funext a
    match a with
    | ⟨0, _⟩ => rfl
    | ⟨1, _⟩ => rfl
    | ⟨2, _⟩ => rfl
  have h26 : ∀ k' : Fin 256, idx_main_v26 (idx_main_v27 (idx_main_v30 (ix3 b c k))) k' = ix3 b c k' := by
    intro k'
    funext a
    match a with
    | ⟨0, _⟩ => rfl
    | ⟨1, _⟩ => rfl
    | ⟨2, _⟩ => rfl
  rw [Cert.HistSpec.G_apply, val_main_v32_apply, h32, val_main_v31_apply, val_main_v30_apply, val_main_v29_apply,
    val_main_v27_apply, val_main_v28_apply, val_main_cst_7_apply, val_main_v26_apply, val_main_cst_6_apply]
  simp only [h26, v25_eq, Ideal.ofBits_def, Ideal.ofBits_zero_f32, zero_add, Ideal.hostDivf_def, Ideal.maximumf_def]
  rfl

end Cert.ReferenceIdeal.RefValue
end
-- ==== Proof.Assemble.lean ====
/-
  The claim, assembled.

  Both programs compute ONE function of the image array, the normalised histogram `Cert.HistSpec.G`. The reference's
  result is that function (its generated run composed with the reading of its operations, module RefHist); the
  kernel's result is asked as a hypothesis, `KernelRuns`. From memories that agree on the image array the two results
  are therefore equal, element by element, and both programs leave the image array as launched. The idealization
  changed no operation of the kernel, so the only other obligations are the three frames: the reference's is its run with
  the result dropped, the two kernels' are hypotheses of `claim_of`.
-/
import proofs.«181129_j85787676770927_2_alg».proof.Defs
import proofs.«181129_j85787676770927_2_alg».proof.Proof.Gen.Kernel
import proofs.«181129_j85787676770927_2_alg».proof.Proof.Gen.KernelIdeal
import proofs.«181129_j85787676770927_2_alg».proof.Proof.Gen.ReferenceIdeal
import proofs.«181129_j85787676770927_2_alg».proof.Proof.Gen.ReferenceIdeal.Run
import proofs.«181129_j85787676770927_2_alg».proof.Proof.Gen.ReferenceIdeal.Read
import proofs.«181129_j85787676770927_2_alg».proof.Proof.Gen.Pre_finite_inputs
import proofs.«181129_j85787676770927_2_alg».proof.Proof.HistSpec
import proofs.«181129_j85787676770927_2_alg».proof.Proof.RefHist

noncomputable section

open Idealize.ShloMosaic Idealize.ShloMosaic.TcCoe Idealize.SL.Sem

namespace Cert.Proof.Hist

/-- The reference program runs and leaves its argument array as launched: its run with the result dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- What is asked of the kernel's run: on every device the result array ends at the normalised histogram of the
    launched image array, and the image array ends as launched. -/
abbrev KernelRuns : Prop :=
  ∀ (m : (ℓ : Loc Cert.KernelIdeal.nD Cert.KernelIdeal.τ Cert.KernelIdeal.sig) → Buf (Elt Ideal) ℓ)
    (ρ : Dev Cert.KernelIdeal.nD → PrngReg),
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v1)
          = Cert.HistSpec.G (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))

/-- From memories that agree on the image array, the kernel and the reference end with equal results: both are the
    normalised histogram of that array. -/
theorem algebraic_of (hk : KernelRuns) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.HistSpec.G (m ((c.tc : Thread Cert.KernelIdeal.nD Cert.KernelIdeal.τ).loc Cert.KernelIdeal.main_arg0)),
    hk m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_eq, hagree c]

/-- The whole claim from the three facts about the kernel: the word-level and the idealized kernel each run and leave
    the image array as launched, and the idealized kernel's result is the normalised histogram. The idealization
    rewrote nothing, so nothing is asked of it; the reference's frame and the equality of the results are above. -/
theorem claim_of
    (hfK : Cert.frame_Kernel (hKernel := Cert.Kernel.Gen.facts) (hPre_finite_inputs := Cert.Pre_finite_inputs.Gen.facts))
    (hfKI : Cert.frame_KernelIdeal (hKernelIdeal := Cert.KernelIdeal.Gen.facts)
      (hPre_finite_inputs := Cert.Pre_finite_inputs.Gen.facts))
    (hk : KernelRuns) : Cert.Claim :=
  ⟨Cert.Kernel.Gen.facts, Cert.KernelIdeal.Gen.facts, Cert.ReferenceIdeal.Gen.facts, Cert.Pre_finite_inputs.Gen.facts,
    hfK, hfKI, frame_ri, trivial, algebraic_of hk⟩

end Cert.Proof.Hist
end
-- ==== Proof.lean ====
/-
  A normalised histogram of images, tile by tile, against a scatter-add of ones.

  Both programs bin every pixel of a `[32, 512, 512, 3]` array — the quotient by the binary32 value nearest 1/257,
  rounded down and clamped to `[0, 256]` — and for each image and channel count the pixels in bins 1 … 256 and divide
  each count by the larger of their total and 1e-7. The kernel walks each image in four tiles of 128 rows, sixteen
  chunks of eight rows per tile and channel, comparing every pixel's bin with the 256 targets and summing the ones;
  the counts live in a scratch array across the four tiles of an image. The reference adds a one at each pixel's
  segment (image, channel, bin) by one scatter. On the extended reals every sum is a sum of ones and zeros, so order
  and grouping do not matter and finiteness of the input is never used.

  The modules: HistSpec (the function both compute), RefHist (the reference is that function), Points / Runs / Frame
  (the kernel terminates and leaves the image array alone, at both float instances), KernelPay / LoopSum / Counts /
  Blocks / Value (the kernel's result array is that function), Assemble (the five conjuncts).
-/
import proofs.«181129_j85787676770927_2_alg».proof.Proof.FrameK
import proofs.«181129_j85787676770927_2_alg».proof.Proof.FrameI
import proofs.«181129_j85787676770927_2_alg».proof.Proof.ValueI
import proofs.«181129_j85787676770927_2_alg».proof.Proof.Assemble

noncomputable section

namespace Cert.Proof

open Idealize.ShloMosaic Idealize.SL.Sem

/-- The idealized kernel's run ends with the result array at the histogram of the image array. -/
theorem kernel_runs : Cert.Proof.Hist.KernelRuns := fun m ρ => Cert.KernelIdeal.HistValue.run m ρ

theorem claim : Cert.Claim :=
  Cert.Proof.Hist.claim_of (fun m ρ _ => Cert.Kernel.Body.frame (F := Bits) m ρ)
    (fun m ρ _ => Cert.KernelIdeal.Body.frame (F := Ideal) m ρ) kernel_runs

end Cert.Proof

end
